-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.named_const.Statement Cert.KernelIdeal.κ "inv_temperature" .f32 0x41649249#32 ((134217728 / 9395241 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x768 : Shape := ⟨2, ![4096, 768]⟩
abbrev S4096 : Shape := ⟨1, ![4096]⟩
abbrev S_ : Shape := ⟨0, ![]⟩

class Facts : Prop where
  bcast_S_S4096x768 : S_.BroadcastsInDim S4096x768 (![] : Fin 0 → Fin S4096x768.rank)
  reducesTo_S4096x768_S_d0_1 : S4096x768.ReducesTo [0, 1] S_
  h_S_ : 0 < S_.numel

variable [Facts]

def fn {F : FTy → Type} [FloatOps F] (main_arg0 : FVec F S4096x768 .f32) (main_arg1 : FVec F S4096x768 .f32) (main_arg2 : IVec S4096 32) : IVec S_ 1 :=
  let main_v0 : FVec F S4096x768 .f32 := Host.absf main_arg0
  let main_cst : FVec F S_ .f32 := constant S_ .f32 0x7F800000#32
  let main_v1 : FVec F S4096x768 .f32 := broadcastInDim S4096x768 ![] bcast_S_S4096x768 main_cst
  let main_v2 : IVec S4096x768 1 := cmpf .olt main_v0 main_v1
  let main_c : IVec S_ 1 := constantI S_ 1 1#1
  let main_v3 : IVec S_ 1 := (fun x v => Host.reduce IntOp.andi x v reducesTo_S4096x768_S_d0_1 h_S_) main_v2 main_c
  let main_v4 : FVec F S4096x768 .f32 := Host.absf main_arg1
  let main_cst_0 : FVec F S_ .f32 := constant S_ .f32 0x7F800000#32
  let main_v5 : FVec F S4096x768 .f32 := broadcastInDim S4096x768 ![] bcast_S_S4096x768 main_cst_0
  let main_v6 : IVec S4096x768 1 := cmpf .olt main_v4 main_v5
  let main_c_1 : IVec S_ 1 := constantI S_ 1 1#1
  let main_v7 : IVec S_ 1 := (fun x v => Host.reduce IntOp.andi x v reducesTo_S4096x768_S_d0_1 h_S_) main_v6 main_c_1
  let main_v8 : IVec S_ 1 := andi main_v3 main_v7
  main_v8
-- ==== Kernel.lean ====
abbrev S4096x768 : Shape := ⟨2, ![4096, 768]⟩
abbrev S4096 : Shape := ⟨1, ![4096]⟩
abbrev S_ : Shape := ⟨0, ![]⟩
abbrev S4096x1 : Shape := ⟨2, ![4096, 1]⟩
abbrev S1x4096 : Shape := ⟨2, ![1, 4096]⟩
abbrev S32x4096 : Shape := ⟨2, ![32, 4096]⟩
abbrev S1024x768 : Shape := ⟨2, ![1024, 768]⟩
abbrev S1024x1 : Shape := ⟨2, ![1024, 1]⟩
abbrev S1x1024 : Shape := ⟨2, ![1, 1024]⟩
abbrev S8x1024 : Shape := ⟨2, ![8, 1024]⟩
abbrev S1024x1024 : Shape := ⟨2, ![1024, 1024]⟩
abbrev S1024 : Shape := ⟨1, ![1024]⟩
abbrev S4x8x4096 : Shape := ⟨3, ![4, 8, 4096]⟩
abbrev S4x1x4096 : Shape := ⟨3, ![4, 1, 4096]⟩
abbrev S4x4096 : Shape := ⟨2, ![4, 4096]⟩

abbrev nBuf : Space → Nat
  | .hbm => 60
  | .vmem => 19
  | .smem => 0
  | _ => 0

abbrev bufTy : (tb : Table) → Fin (tcTables nBuf tb) → BufTy
  | .hbm, ⟨0, _⟩ => ⟨S4096x768, .f32⟩
  | .hbm, ⟨1, _⟩ => ⟨S4096x768, .f32⟩
  | .hbm, ⟨2, _⟩ => ⟨S4096, .i32⟩
  | .hbm, ⟨3, _⟩ => ⟨S4096x768, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S4096x768, .f32⟩
  | .hbm, ⟨12, _⟩ => ⟨S4096x768, .f32⟩
  | .hbm, ⟨13, _⟩ => ⟨S4096x768, .bf16⟩
  | .hbm, ⟨14, _⟩ => ⟨S4096x768, .f32⟩
  | .hbm, ⟨15, _⟩ => ⟨S_, .f32⟩
  | .hbm, ⟨16, _⟩ => ⟨S4096, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x768, .f32⟩
  | .hbm, ⟨23, _⟩ => ⟨S4096x768, .f32⟩
  | .hbm, ⟨24, _⟩ => ⟨S4096x768, .bf16⟩
  | .hbm, ⟨25, _⟩ => ⟨S4096x1, .i32⟩
  | .hbm, ⟨26, _⟩ => ⟨S1x4096, .i32⟩
  | .hbm, ⟨27, _⟩ => ⟨S4096x1, .f32⟩
  | .hbm, ⟨28, _⟩ => ⟨S32x4096, .f32⟩
  | .hbm, ⟨29, _⟩ => ⟨S32x4096, .f32⟩
  | .hbm, ⟨30, _⟩ => ⟨S32x4096, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S4x8x4096, .f32⟩
  | .hbm, ⟨36, _⟩ => ⟨S4x1x4096, .f32⟩
  | .hbm, ⟨37, _⟩ => ⟨S4x4096, .f32⟩
  | .hbm, ⟨38, _⟩ => ⟨S4x8x4096, .f32⟩
  | .hbm, ⟨39, _⟩ => ⟨S4x1x4096, .f32⟩
  | .hbm, ⟨40, _⟩ => ⟨S4x4096, .f32⟩
  | .hbm, ⟨41, _⟩ => ⟨S4x8x4096, .f32⟩
  | .hbm, ⟨42, _⟩ => ⟨S4x1x4096, .f32⟩
  | .hbm, ⟨43, _⟩ => ⟨S4x4096, .f32⟩
  | .hbm, ⟨44, _⟩ => ⟨S_, .f32⟩
  | .hbm, ⟨45, _⟩ => ⟨S4096, .f32⟩
  | .hbm, ⟨46, _⟩ => ⟨S_, .f32⟩
  | .hbm, ⟨47, _⟩ => ⟨S4096, .f32⟩
  | .hbm, ⟨48, _⟩ => ⟨S_, .f32⟩
  | .hbm, ⟨49, _⟩ => ⟨S4096, .f32⟩
  | .hbm, ⟨50, _⟩ => ⟨S4096, .f32⟩
  | .hbm, ⟨51, _⟩ => ⟨S4096, .f32⟩
  | .hbm, ⟨52, _⟩ => ⟨S4096, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .local _ .vmem, ⟨0, _⟩ => ⟨S1024x768, .bf16⟩
  | .local _ .vmem, ⟨1, _⟩ => ⟨S1024x768, .bf16⟩
  | .local _ .vmem, ⟨2, _⟩ => ⟨S1024x768, .bf16⟩
  | .local _ .vmem, ⟨3, _⟩ => ⟨S1024x768, .bf16⟩
  | .local _ .vmem, ⟨4, _⟩ => ⟨S1024x1, .i32⟩
  | .local _ .vmem, ⟨5, _⟩ => ⟨S1024x1, .i32⟩
  | .local _ .vmem, ⟨6, _⟩ => ⟨S1x1024, .i32⟩
  | .local _ .vmem, ⟨7, _⟩ => ⟨S1x1024, .i32⟩
  | .local _ .vmem, ⟨8, _⟩ => ⟨S1024x1, .f32⟩
  | .local _ .vmem, ⟨9, _⟩ => ⟨S1024x1, .f32⟩
  | .local _ .vmem, ⟨10, _⟩ => ⟨S8x1024, .f32⟩
  | .local _ .vmem, ⟨11, _⟩ => ⟨S8x1024, .f32⟩
  | .local _ .vmem, ⟨12, _⟩ => ⟨S8x1024, .f32⟩
  | .local _ .vmem, ⟨13, _⟩ => ⟨S8x1024, .f32⟩
  | .local _ .vmem, ⟨14, _⟩ => ⟨S8x1024, .f32⟩
  | .local _ .vmem, ⟨15, _⟩ => ⟨S8x1024, .f32⟩
  | .local _ .vmem, ⟨16, _⟩ => ⟨S1024x1, .f32⟩
  | .local _ .vmem, ⟨17, _⟩ => ⟨S1024x1, .f32⟩
  | .local _ .vmem, ⟨18, _⟩ => ⟨S1024x1, .f32⟩
  | _, _ => ⟨S4096x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_call0_v2 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_call1_v0 : Ref sig .tc := ⟨.hbm, 14, rfl⟩
abbrev main_call1_cst : Ref sig .tc := ⟨.hbm, 15, rfl⟩
abbrev main_call1_v1 : Ref sig .tc := ⟨.hbm, 16, rfl⟩
abbrev main_call1_v2 : Ref sig .tc := ⟨.hbm, 17, rfl⟩
abbrev main_v6 : Ref sig .tc := ⟨.hbm, 18, rfl⟩
abbrev main_cst_0 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14_0 : Ref sig .tc := ⟨.hbm, 27, rfl⟩
abbrev main_v14_1 : Ref sig .tc := ⟨.hbm, 28, rfl⟩
abbrev main_v14_2 : Ref sig .tc := ⟨.hbm, 29, rfl⟩
abbrev main_v14_3 : Ref sig .tc := ⟨.hbm, 30, rfl⟩
abbrev main_cst_1 : Ref sig .tc := ⟨.hbm, 31, rfl⟩
abbrev main_v15 : Ref sig .tc := ⟨.hbm, 32, rfl⟩
abbrev main_cst_2 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_cst_3 : Ref sig .tc := ⟨.hbm, 44, rfl⟩
abbrev main_v26 : Ref sig .tc := ⟨.hbm, 45, rfl⟩
abbrev main_cst_4 : Ref sig .tc := ⟨.hbm, 46, rfl⟩
abbrev main_v27 : Ref sig .tc := ⟨.hbm, 47, rfl⟩
abbrev main_cst_5 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_cst_6 : Ref sig .tc := ⟨.hbm, 53, rfl⟩
abbrev main_v32 : Ref sig .tc := ⟨.hbm, 54, rfl⟩
abbrev main_cst_7 : Ref sig .tc := ⟨.hbm, 55, rfl⟩
abbrev main_v33 : Ref sig .tc := ⟨.hbm, 56, rfl⟩
abbrev main_v34 : Ref sig .tc := ⟨.hbm, 57, rfl⟩
abbrev main_cst_8 : Ref sig .tc := ⟨.hbm, 58, rfl⟩
abbrev main_v35 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![4, 4], ![false, false]⟩

def k0_cond2 (i : grid0.Coords) : BitVec 1 :=
  let arg1 : BitVec 32 := BitVec.ofNat 32 (i 1).val
  let c3_i32 : BitVec 32 := 3#32
  let v57 : BitVec 1 := Scalar.cmpi .eq arg1 c3_i32
  let v58 : BitVec 32 := Scalar.extui v57
  let c0_i32_33 : BitVec 32 := 0#32
  let v59 : BitVec 1 := Scalar.cmpi .ne v58 c0_i32_33
  v59

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S8x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S8x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S8x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

class Facts₀ : Prop where
  reducesTo_S4096x768_S4096_d1 : S4096x768.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x768_0_1 : S4096x1.BroadcastsInDim S4096x768 (![0, 1] : Fin 2 → Fin S4096x768.rank)
  bitsLt_bf16_f32 : FTy.bits .bf16 < FTy.bits .f32
  shapeCasts_S4096_S4096x1 : S4096.ShapeCasts S4096x1
  shapeCasts_S4096_S1x4096 : S4096.ShapeCasts S1x4096
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x768_S1024x768_0_0 : ∀ a, (![0, 0] : Fin 2 → Nat) a + S1024x768.size a ≤ S1024x768.size a
  h_S1024x768 : 0 < S1024x768.numel
  shapeCasts_S1024x768_S1024x768 : S1024x768.ShapeCasts S1024x768
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1024x1_S1024x1024 : S1024x1.Broadcasts S1024x1024
  broadcasts_S1x1024_S1024x1024 : S1x1024.Broadcasts S1024x1024
  natLt_1_32 : 1 < 32
  reduces_S1024x1024_S1024 : S1024x1024.Reduces [1] S1024
  shapeCasts_S1024_S1024x1 : S1024.ShapeCasts S1024x1
  reduces_S1024x1024_S1024_2 : S1024x1024.Reduces [0] S1024
  shapeCasts_S1024_S1x1024 : S1024.ShapeCasts S1x1024
  broadcasts_S1x1024_S8x1024 : S1x1024.Broadcasts S8x1024
  inb_S8x1024_S8x1024_0_0 : ∀ a, (![0, 0] : Fin 2 → Nat) a + S8x1024.size a ≤ S8x1024.size a
  h_S8x1024 : 0 < S8x1024.numel
  reducesTo_S4096x1_S_d0_1 : S4096x1.ReducesTo [0, 1] S_
  shapeCasts_S32x4096_S4x8x4096 : S32x4096.ShapeCasts S4x8x4096
  slices_S4x8x4096_S4x1x4096_0_0_0 : S4x8x4096.Slices ![0, 0, 0] S4x1x4096
  shapeCasts_S4x1x4096_S4x4096 : S4x1x4096.ShapeCasts S4x4096
  reducesTo_S4x4096_S4096_d0 : S4x4096.ReducesTo [0] S4096
  reducesTo_S4096_S_d0 : S4096.ReducesTo [0] S_
  dot_S1024x768_S1024x768_S1024x1024_1_1_0_0_n_n_wf : DotDims.WF S1024x768 S1024x768 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x768.size a ≤ S4096x768.size a
  hwx0_0 : ∀ i : grid0.Coords, EltTy.bits .bf16 = 32 ∨ (Rect.block (s := S4096x768) S1024x768.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x768.size a ≤ S4096x768.size a
  hwx0_1 : ∀ i : grid0.Coords, EltTy.bits .bf16 = 32 ∨ (Rect.block (s := S4096x768) S1024x768.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S4096x1.size a
  hwx0_2 : ∀ i : grid0.Coords, EltTy.bits .i32 = 32 ∨ (Rect.block (s := S4096x1) S1024x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x4096.size a
  hwx0_3 : ∀ i : grid0.Coords, EltTy.bits .i32 = 32 ∨ (Rect.block (s := S1x4096) S1x1024.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1.size a ≤ S4096x1.size a
  hwx0_4 : ∀ i : grid0.Coords, EltTy.bits .f32 = 32 ∨ (Rect.block (s := S4096x1) S1024x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S8x1024.size a ≤ S32x4096.size a
  hwx0_5 : ∀ i : grid0.Coords, EltTy.bits .f32 = 32 ∨ (Rect.block (s := S32x4096) S8x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S8x1024.size a ≤ S32x4096.size a
  hwx0_6 : ∀ i : grid0.Coords, EltTy.bits .f32 = 32 ∨ (Rect.block (s := S32x4096) S8x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S8x1024.size a ≤ S32x4096.size a
  hwx0_7 : ∀ i : grid0.Coords, EltTy.bits .f32 = 32 ∨ (Rect.block (s := S32x4096) S8x1024.size (cc0_transform_7 i) (hinb0_7 i)).WholeWords (EltTy.packing .f32)

variable [Facts₀]

def dot_S1024x768_S1024x768_S1024x1024_1_1_0_0_n_n : DotDims S1024x768 S1024x768 S1024x1024 where
  lhsContracting := [1]
  rhsContracting := [1]
  lhsNonContracting := [0]
  rhsNonContracting := [0]
  lhsBatch := []
  rhsBatch := []
  wf := dot_S1024x768_S1024x768_S1024x1024_1_1_0_0_n_n_wf

abbrev win0_0 : Pipeline.Window sig grid0 :=
  Pipeline.Window.ofSpec (Memref.whole main_v5) S1024x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S1024x768.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v13) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v14_0) S1024x1.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v14_1) S8x1024.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v14_2) S8x1024.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v14_3) S8x1024.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun i => !(k0_cond2 i == 1#1) | 5 => fun _ => false | 6 => fun _ => false | 7 => fun _ => false | ⟨_ + 8, h⟩ => absurd h (Nat.not_lt.2 (Nat.le_add_left _ _))

class Facts : Prop extends Facts₀ where

variable [Facts]
-- ==== ReferenceIdeal.lean ====
abbrev S4096x768 : Shape := ⟨2, ![4096, 768]⟩
abbrev S4096 : Shape := ⟨1, ![4096]⟩
abbrev S_ : Shape := ⟨0, ![]⟩
abbrev S4096x1 : Shape := ⟨2, ![4096, 1]⟩
abbrev S4096x4096 : Shape := ⟨2, ![4096, 4096]⟩
abbrev S1x4096 : Shape := ⟨2, ![1, 4096]⟩

abbrev nBuf : Space → Nat
  | .hbm => 82
  | .vmem => 0
  | .smem => 0
  | _ => 0

abbrev bufTy : (tb : Table) → Fin (tcTables nBuf tb) → BufTy
  | .hbm, ⟨0, _⟩ => ⟨S4096x768, .f32⟩
  | .hbm, ⟨1, _⟩ => ⟨S4096x768, .f32⟩
  | .hbm, ⟨2, _⟩ => ⟨S4096, .i32⟩
  | .hbm, ⟨3, _⟩ => ⟨S4096x768, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S4096x768, .f32⟩
  | .hbm, ⟨12, _⟩ => ⟨S4096x768, .f32⟩
  | .hbm, ⟨13, _⟩ => ⟨S4096x768, .f32⟩
  | .hbm, ⟨14, _⟩ => ⟨S_, .f32⟩
  | .hbm, ⟨15, _⟩ => ⟨S4096, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x768, .f32⟩
  | .hbm, ⟨22, _⟩ => ⟨S4096x768, .f32⟩
  | .hbm, ⟨23, _⟩ => ⟨S4096x4096, .f32⟩
  | .hbm, ⟨24, _⟩ => ⟨S_, .f32⟩
  | .hbm, ⟨25, _⟩ => ⟨S4096x4096, .f32⟩
  | .hbm, ⟨26, _⟩ => ⟨S4096x4096, .f32⟩
  | .hbm, ⟨27, _⟩ => ⟨S4096x1, .i32⟩
  | .hbm, ⟨28, _⟩ => ⟨S1x4096, .i32⟩
  | .hbm, ⟨29, _⟩ => ⟨S4096x4096, .i32⟩
  | .hbm, ⟨30, _⟩ => ⟨S4096x4096, .i32⟩
  | .hbm, ⟨31, _⟩ => ⟨S4096x4096, .i1⟩
  | .hbm, ⟨32, _⟩ => ⟨S4096x4096, .f32⟩
  | .hbm, ⟨33, _⟩ => ⟨S_, .f32⟩
  | .hbm, ⟨34, _⟩ => ⟨S4096, .f32⟩
  | .hbm, ⟨35, _⟩ => ⟨S_, .f32⟩
  | .hbm, ⟨36, _⟩ => ⟨S4096, .f32⟩
  | .hbm, ⟨37, _⟩ => ⟨S4096, .f32⟩
  | .hbm, ⟨38, _⟩ => ⟨S4096x1, .f32⟩
  | .hbm, ⟨39, _⟩ => ⟨S4096x4096, .f32⟩
  | .hbm, ⟨40, _⟩ => ⟨S4096x4096, .f32⟩
  | .hbm, ⟨41, _⟩ => ⟨S4096x4096, .f32⟩
  | .hbm, ⟨42, _⟩ => ⟨S_, .f32⟩
  | .hbm, ⟨43, _⟩ => ⟨S4096, .f32⟩
  | .hbm, ⟨44, _⟩ => ⟨S4096x1, .f32⟩
  | .hbm, ⟨45, _⟩ => ⟨S4096x1, .f32⟩
  | .hbm, ⟨46, _⟩ => ⟨S4096x4096, .f32⟩
  | .hbm, ⟨47, _⟩ => ⟨S4096x4096, .f32⟩
  | .hbm, ⟨48, _⟩ => ⟨S4096x4096, .f32⟩
  | .hbm, ⟨49, _⟩ => ⟨S_, .f32⟩
  | .hbm, ⟨50, _⟩ => ⟨S4096, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S4096, .f32⟩
  | .hbm, ⟨58, _⟩ => ⟨S_, .f32⟩
  | .hbm, ⟨59, _⟩ => ⟨S4096, .f32⟩
  | .hbm, ⟨60, _⟩ => ⟨S4096, .f32⟩
  | .hbm, ⟨61, _⟩ => ⟨S1x4096, .f32⟩
  | .hbm, ⟨62, _⟩ => ⟨S4096x4096, .f32⟩
  | .hbm, ⟨63, _⟩ => ⟨S4096x4096, .f32⟩
  | .hbm, ⟨64, _⟩ => ⟨S4096x4096, .f32⟩
  | .hbm, ⟨65, _⟩ => ⟨S_, .f32⟩
  | .hbm, ⟨66, _⟩ => ⟨S4096, .f32⟩
  | .hbm, ⟨67, _⟩ => ⟨S1x4096, .f32⟩
  | .hbm, ⟨68, _⟩ => ⟨S1x4096, .f32⟩
  | .hbm, ⟨69, _⟩ => ⟨S4096x4096, .f32⟩
  | .hbm, ⟨70, _⟩ => ⟨S4096x4096, .f32⟩
  | .hbm, ⟨71, _⟩ => ⟨S4096x4096, .f32⟩
  | .hbm, ⟨72, _⟩ => ⟨S_, .f32⟩
  | .hbm, ⟨73, _⟩ => ⟨S4096, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S_, .f32⟩
  | _, _ => ⟨S4096x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_call0_v2 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_call1_v0 : Ref sig .tc := ⟨.hbm, 13, rfl⟩
abbrev main_call1_cst : Ref sig .tc := ⟨.hbm, 14, rfl⟩
abbrev main_call1_v1 : Ref sig .tc := ⟨.hbm, 15, rfl⟩
abbrev main_call1_v2 : Ref sig .tc := ⟨.hbm, 16, rfl⟩
abbrev main_v5 : Ref sig .tc := ⟨.hbm, 17, rfl⟩
abbrev main_cst_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_call2_cst : Ref sig .tc := ⟨.hbm, 33, rfl⟩
abbrev main_call2_v0 : Ref sig .tc := ⟨.hbm, 34, rfl⟩
abbrev main_call2_cst_0 : Ref sig .tc := ⟨.hbm, 35, rfl⟩
abbrev main_call2_v1 : Ref sig .tc := ⟨.hbm, 36, rfl⟩
abbrev main_call2_v2 : Ref sig .tc := ⟨.hbm, 37, rfl⟩
abbrev main_call2_v3 : Ref sig .tc := ⟨.hbm, 38, rfl⟩
abbrev main_call2_v4 : Ref sig .tc := ⟨.hbm, 39, rfl⟩
abbrev main_call2_v5 : Ref sig .tc := ⟨.hbm, 40, rfl⟩
abbrev main_call2_v6 : Ref sig .tc := ⟨.hbm, 41, rfl⟩
abbrev main_call2_cst_1 : Ref sig .tc := ⟨.hbm, 42, rfl⟩
abbrev main_call2_v7 : Ref sig .tc := ⟨.hbm, 43, rfl⟩
abbrev main_call2_v8 : Ref sig .tc := ⟨.hbm, 44, rfl⟩
abbrev main_call2_v9 : Ref sig .tc := ⟨.hbm, 45, rfl⟩
abbrev main_call2_v10 : Ref sig .tc := ⟨.hbm, 46, rfl⟩
abbrev main_v19 : Ref sig .tc := ⟨.hbm, 47, rfl⟩
abbrev main_v20 : Ref sig .tc := ⟨.hbm, 48, rfl⟩
abbrev main_cst_2 : Ref sig .tc := ⟨.hbm, 49, rfl⟩
abbrev main_v21 : Ref sig .tc := ⟨.hbm, 50, rfl⟩
abbrev main_cst_3 : Ref sig .tc := ⟨.hbm, 51, rfl⟩
abbrev main_v22 : Ref sig .tc := ⟨.hbm, 52, rfl⟩
abbrev main_cst_4 : Ref sig .tc := ⟨.hbm, 53, rfl⟩
abbrev main_v23 : Ref sig .tc := ⟨.hbm, 54, rfl⟩
abbrev main_v24 : Ref sig .tc := ⟨.hbm, 55, rfl⟩
abbrev main_call3_cst : Ref sig .tc := ⟨.hbm, 56, rfl⟩
abbrev main_call3_v0 : Ref sig .tc := ⟨.hbm, 57, rfl⟩
abbrev main_call3_cst_0 : Ref sig .tc := ⟨.hbm, 58, rfl⟩
abbrev main_call3_v1 : Ref sig .tc := ⟨.hbm, 59, rfl⟩
abbrev main_call3_v2 : Ref sig .tc := ⟨.hbm, 60, rfl⟩
abbrev main_call3_v3 : Ref sig .tc := ⟨.hbm, 61, rfl⟩
abbrev main_call3_v4 : Ref sig .tc := ⟨.hbm, 62, rfl⟩
abbrev main_call3_v5 : Ref sig .tc := ⟨.hbm, 63, rfl⟩
abbrev main_call3_v6 : Ref sig .tc := ⟨.hbm, 64, rfl⟩
abbrev main_call3_cst_1 : Ref sig .tc := ⟨.hbm, 65, rfl⟩
abbrev main_call3_v7 : Ref sig .tc := ⟨.hbm, 66, rfl⟩
abbrev main_call3_v8 : Ref sig .tc := ⟨.hbm, 67, rfl⟩
abbrev main_call3_v9 : Ref sig .tc := ⟨.hbm, 68, rfl⟩
abbrev main_call3_v10 : Ref sig .tc := ⟨.hbm, 69, rfl⟩
abbrev main_v25 : Ref sig .tc := ⟨.hbm, 70, rfl⟩
abbrev main_v26 : Ref sig .tc := ⟨.hbm, 71, rfl⟩
abbrev main_cst_5 : Ref sig .tc := ⟨.hbm, 72, rfl⟩
abbrev main_v27 : Ref sig .tc := ⟨.hbm, 73, rfl⟩
abbrev main_cst_6 : Ref sig .tc := ⟨.hbm, 74, rfl⟩
abbrev main_v28 : Ref sig .tc := ⟨.hbm, 75, rfl⟩
abbrev main_cst_7 : Ref sig .tc := ⟨.hbm, 76, rfl⟩
abbrev main_v29 : Ref sig .tc := ⟨.hbm, 77, rfl⟩
abbrev main_v30 : Ref sig .tc := ⟨.hbm, 78, rfl⟩
abbrev main_v31 : Ref sig .tc := ⟨.hbm, 79, rfl⟩
abbrev main_cst_8 : Ref sig .tc := ⟨.hbm, 80, rfl⟩
abbrev main_v32 : Ref sig .tc := ⟨.hbm, 81, rfl⟩

abbrev nD : Nat := 1
abbrev τ : Topo := Topo.v7x

variable {F : FTy → Type} [FloatOps F]

class Facts₀ : Prop where
  reducesTo_S4096x768_S4096_d1 : S4096x768.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x768_0_1 : S4096x1.BroadcastsInDim S4096x768 (![0, 1] : Fin 2 → Fin S4096x768.rank)
  bcast_S_S4096x4096 : S_.BroadcastsInDim S4096x4096 (![] : Fin 0 → Fin S4096x4096.rank)
  bcast_S4096_S1x4096_1 : S4096.BroadcastsInDim S1x4096 (![1] : Fin 1 → Fin S1x4096.rank)
  bcast_S4096x1_S4096x4096_0_1 : S4096x1.BroadcastsInDim S4096x4096 (![0, 1] : Fin 2 → Fin S4096x4096.rank)
  bcast_S1x4096_S4096x4096_0_1 : S1x4096.BroadcastsInDim S4096x4096 (![0, 1] : Fin 2 → Fin S4096x4096.rank)
  reducesTo_S4096x4096_S4096_d1 : S4096x4096.ReducesTo [1] S4096
  bcast_S_S4096 : S_.BroadcastsInDim S4096 (![] : Fin 0 → Fin S4096.rank)
  reducesTo_S4096_S_d0 : S4096.ReducesTo [0] S_
  reducesTo_S4096x4096_S4096_d0 : S4096x4096.ReducesTo [0] S4096
  dot_S4096x768_S4096x768_S4096x4096_1_1_0_0_n_n_wf : DotDims.WF S4096x768 S4096x768 S4096x4096 [1] [1] [0] [0] [] []

variable [Facts₀]

def dot_S4096x768_S4096x768_S4096x4096_1_1_0_0_n_n : DotDims S4096x768 S4096x768 S4096x4096 where
  lhsContracting := [1]
  rhsContracting := [1]
  lhsNonContracting := [0]
  rhsNonContracting := [0]
  lhsBatch := []
  rhsBatch := []
  wf := dot_S4096x768_S4096x768_S4096x4096_1_1_0_0_n_n_wf

class Facts : Prop extends Facts₀ where

variable [Facts]
-- ==== Proof.KerPieces.lean ====
/-
  What each case of the kernel body leaves in its buffers, as values.

  The body has three cases by its position in a row of the grid: the first column block (the three running
  column vectors are cleared first), a middle one, and the last one (which also writes the row losses).
  In every case the three running vectors end at their contents before the point plus this tile's row sums of
  the exponentials, of the label indicator and of the indicator-weighted logits; the three column-partial
  outputs end at the tile's column sums of the same three arrays; in the last case the row-loss output ends at
  log(first vector) * second vector - third vector of the vectors just updated.
-/
import proofs.«131299_j43250320671200_2_alg».proof.Defs
import proofs.«131299_j43250320671200_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F] [Named F]

theorem hz : (![0, 0] : Fin 2 → Nat) = fun _ => 0 := funext fun a => by fin_cases a <;> rfl

variable (c : Dev nD) (i : grid0.Coords) (arg2 : Memref sig .tc .vmem S1024x768 .bf16) (harg2 : arg2.IsWhole) (arg3 : Memref sig .tc .vmem S1024x768 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S8x1024 .f32) (harg7 : arg7.IsWhole) (arg8 : Memref sig .tc .vmem S8x1024 .f32) (harg8 : arg8.IsWhole) (arg9 : Memref sig .tc .vmem S8x1024 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole)
variable (x0 : Vec F S1024x768 .bf16) (x1 : Vec F S1024x768 .bf16) (x2 : Vec F S1024x1 .i32) (x3 : Vec F S1x1024 .i32) (xs0 : Vec F S1024x1 .f32) (xs1 : Vec F S1024x1 .f32) (xs2 : Vec F S1024x1 .f32)

theorem sout_A_0 (hc0 : cond0_0 i) (hc1 : ¬cond0_1 i) :
    sout0_A_0 c i arg2 harg2 arg3 harg3 arg4 harg4 arg5 harg5 arg6 harg6 arg7 harg7 arg8 harg8 arg9 harg9 arg10 harg10 arg11 harg11 arg12 harg12 hc0 hc1 x0 x1 x2 x3 = k0_pay14 x0 x1 k0_pay7 := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 hc0 hc1 x0 x1 x2 x3)]
  unfold kernelRun0_A
  dsimp only
  try sl_unfold_words
  first | rw [View.canon_unit_zero hz] | rw [View.canon_cons_unit_zero (S := S1024x1) hz]
  simp only [View.readCov_unit_zero (S := S1024x1) _ hz, View.readAt_eq_ld, harg2.read_unread, harg3.read_unread, harg4.read_unread, harg5.read_unread, harg10.read_unread, harg11.read_unread, harg12.read_unread, View.ld_unit_zero (S := S1024x768) hz, View.ld_unit_zero (S := S1024x1) hz, View.ld_unit_zero (S := S1x1024) hz]

theorem sout_A_1 (hc0 : cond0_0 i) (hc1 : ¬cond0_1 i) :
    sout0_A_1 c i arg2 harg2 arg3 harg3 arg4 harg4 arg5 harg5 arg6 harg6 arg7 harg7 arg8 harg8 arg9 harg9 arg10 harg10 arg11 harg11 arg12 harg12 hc0 hc1 x0 x1 x2 x3 = k0_pay1 (k0_pay15 x2 x3 k0_pay8) := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 arg12 harg12 hc0 hc1 x0 x1 x2 x3)]
  unfold kernelRun0_A
  dsimp only
  try sl_unfold_words
  first | rw [View.canon_unit_zero hz] | rw [View.canon_cons_unit_zero (S := S1024x1) hz]
  simp only [View.readCov_unit_zero (S := S1024x1) _ hz, View.readAt_eq_ld, harg2.read_unread, harg3.read_unread, harg4.read_unread, harg5.read_unread, harg10.read_unread, harg11.read_unread, harg12.read_unread, View.ld_unit_zero (S := S1024x768) hz, View.ld_unit_zero (S := S1024x1) hz, View.ld_unit_zero (S := S1x1024) hz]

theorem sout_A_2 (hc0 : cond0_0 i) (hc1 : ¬cond0_1 i) :
    sout0_A_2 c i arg2 harg2 arg3 harg3 arg4 harg4 arg5 harg5 arg6 harg6 arg7 harg7 arg8 harg8 arg9 harg9 arg10 harg10 arg11 harg11 arg12 harg12 hc0 hc1 x0 x1 x2 x3 = k0_pay2 (k0_pay13 x0 x1 x2 x3) k0_pay9 := by
  unfold sout0_A_2
  rw [View.read_writes_eq_canon _ _ _ (scover0_A_2 c i arg2 harg2 arg3 harg3 arg4 harg4 arg5 harg5 arg6 harg6 arg7 harg7 arg8 harg8 arg9 harg9 arg10 harg10 arg11 harg11 arg12 harg12 hc0 hc1 x0 x1 x2 x3)]
  unfold kernelRun0_A
  dsimp only
  try sl_unfold_words
  first | rw [View.canon_unit_zero hz] | rw [View.canon_cons_unit_zero (S := S1024x1) hz]
  simp only [View.readCov_unit_zero (S := S1024x1) _ hz, View.readAt_eq_ld, harg2.read_unread, harg3.read_unread, harg4.read_unread, harg5.read_unread, harg10.read_unread, harg11.read_unread, harg12.read_unread, View.ld_unit_zero (S := S1024x768) hz, View.ld_unit_zero (S := S1024x1) hz, View.ld_unit_zero (S := S1x1024) hz]

theorem out_A_5 (hc0 : cond0_0 i) (hc1 : ¬cond0_1 i) :
    out0_A_5 c i arg2 harg2 arg3 harg3 arg4 harg4 arg5 harg5 arg6 harg6 arg7 harg7 arg8 harg8 arg9 harg9 arg10 harg10 arg11 harg11 arg12 harg12 hc0 hc1 x0 x1 x2 x3 = k0_pay3 (k0_pay12 x0 x1) := by
  unfold out0_A_5
  rw [View.read_writes_eq_canon _ _ _ (cover0_A_5 c i arg2 harg2 arg3 harg3 arg4 harg4 arg5 harg5 arg6 harg6 arg7 harg7 arg8 harg8 arg9 harg9 arg10 harg10 arg11 harg11 arg12 harg12 hc0 hc1 x0 x1 x2 x3)]
  unfold kernelRun0_A
  dsimp only
  try sl_unfold_words
  first | rw [View.canon_unit_zero hz] | rw [View.canon_cons_unit_zero (S := S8x1024) hz]
  simp only [View.readCov_unit_zero (S := S1024x1) _ hz, View.readAt_eq_ld, harg2.read_unread, harg3.read_unread, harg4.read_unread, harg5.read_unread, harg10.read_unread, harg11.read_unread, harg12.read_unread, View.ld_unit_zero (S := S1024x768) hz, View.ld_unit_zero (S := S1024x1) hz, View.ld_unit_zero (S := S1x1024) hz]

theorem out_A_6 (hc0 : cond0_0 i) (hc1 : ¬cond0_1 i) :
    out0_A_6 c i arg2 harg2 arg3 harg3 arg4 harg4 arg5 harg5 arg6 harg6 arg7 harg7 arg8 harg8 arg9 harg9 arg10 harg10 arg11 harg11 arg12 harg12 hc0 hc1 x0 x1 x2 x3 = k0_pay4 (k0_pay11 x2 x3) := by
  unfold out0_A_6
  rw [View.read_writes_eq_canon _ _ _ (cover0_A_6 c i arg2 harg2 arg3 harg3 arg4 harg4 arg5 harg5 arg6 harg6 arg7 harg7 arg8 harg8 arg9 harg9 arg10 harg10 arg11 harg11 arg12 harg12 hc0 hc1 x0 x1 x2 x3)]
  unfold kernelRun0_A
  dsimp only
  try sl_unfold_words
  first | rw [View.canon_unit_zero hz] | rw [View.canon_cons_unit_zero (S := S8x1024) hz]
  simp only [View.readCov_unit_zero (S := S1024x1) _ hz, View.readAt_eq_ld, harg2.read_unread, harg3.read_unread, harg4.read_unread, harg5.read_unread, harg10.read_unread, harg11.read_unread, harg12.read_unread, View.ld_unit_zero (S := S1024x768) hz, View.ld_unit_zero (S := S1024x1) hz, View.ld_unit_zero (S := S1x1024) hz]

theorem out_A_7 (hc0 : cond0_0 i) (hc1 : ¬cond0_1 i) :
    out0_A_7 c i arg2 harg2 arg3 harg3 arg4 harg4 arg5 harg5 arg6 harg6 arg7 harg7 arg8 harg8 arg9 harg9 arg10 harg10 arg11 harg11 arg12 harg12 hc0 hc1 x0 x1 x2 x3 = k0_pay5 (k0_pay13 x0 x1 x2 x3) := by
  unfold out0_A_7
  rw [View.read_writes_eq_canon _ _ _ (cover0_A_7 c i arg2 harg2 arg3 harg3 arg4 harg4 arg5 harg5 arg6 harg6 arg7 harg7 arg8 harg8 arg9 harg9 arg10 harg10 arg11 harg11 arg12 harg12 hc0 hc1 x0 x1 x2 x3)]
  unfold kernelRun0_A
  dsimp only
  try sl_unfold_words
  first | rw [View.canon_unit_zero hz] | rw [View.canon_cons_unit_zero (S := S8x1024) hz]
  simp only [View.readCov_unit_zero (S := S1024x1) _ hz, View.readAt_eq_ld, harg2.read_unread, harg3.read_unread, harg4.read_unread, harg5.read_unread, harg10.read_unread, harg11.read_unread, harg12.read_unread, View.ld_unit_zero (S := S1024x768) hz, View.ld_unit_zero (S := S1024x1) hz, View.ld_unit_zero (S := S1x1024) hz]

theorem sout_B_0 (hc0 : ¬cond0_0 i) (hc1 : ¬cond0_1 i) :
    sout0_B_0 c i arg2 harg2 arg3 harg3 arg4 harg4 arg5 harg5 arg6 harg6 arg7 harg7 arg8 harg8 arg9 harg9 arg10 harg10 arg11 harg11 arg12 harg12 hc0 hc1 x0 x1 x2 x3 xs0 xs1 xs2 = k0_pay14 x0 x1 xs0 := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 arg12 harg12 hc0 hc1 x0 x1 x2 x3 xs0 xs1 xs2)]
  unfold kernelRun0_B
  dsimp only
  try sl_unfold_words
  first | rw [View.canon_unit_zero hz] | rw [View.canon_cons_unit_zero (S := S1024x1) hz]
  simp only [View.readCov_unit_zero (S := S1024x1) _ hz, View.readAt_eq_ld, harg2.read_unread, harg3.read_unread, harg4.read_unread, harg5.read_unread, harg10.read_unread, harg11.read_unread, harg12.read_unread, View.ld_unit_zero (S := S1024x768) hz, View.ld_unit_zero (S := S1024x1) hz, View.ld_unit_zero (S := S1x1024) hz]

theorem sout_B_1 (hc0 : ¬cond0_0 i) (hc1 : ¬cond0_1 i) :
    sout0_B_1 c i arg2 harg2 arg3 harg3 arg4 harg4 arg5 harg5 arg6 harg6 arg7 harg7 arg8 harg8 arg9 harg9 arg10 harg10 arg11 harg11 arg12 harg12 hc0 hc1 x0 x1 x2 x3 xs0 xs1 xs2 = k0_pay1 (k0_pay15 x2 x3 xs1) := by
  unfold sout0_B_1
  rw [View.read_writes_eq_canon _ _ _ (scover0_B_1 c i arg2 harg2 arg3 harg3 arg4 harg4 arg5 harg5 arg6 harg6 arg7 harg7 arg8 harg8 arg9 harg9 arg10 harg10 arg11 harg11 arg12 harg12 hc0 hc1 x0 x1 x2 x3 xs0 xs1 xs2)]
  unfold kernelRun0_B
  dsimp only
  try sl_unfold_words
  first | rw [View.canon_unit_zero hz] | rw [View.canon_cons_unit_zero (S := S1024x1) hz]
  simp only [View.readCov_unit_zero (S := S1024x1) _ hz, View.readAt_eq_ld, harg2.read_unread, harg3.read_unread, harg4.read_unread, harg5.read_unread, harg10.read_unread, harg11.read_unread, harg12.read_unread, View.ld_unit_zero (S := S1024x768) hz, View.ld_unit_zero (S := S1024x1) hz, View.ld_unit_zero (S := S1x1024) hz]

theorem sout_B_2 (hc0 : ¬cond0_0 i) (hc1 : ¬cond0_1 i) :
    sout0_B_2 c i arg2 harg2 arg3 harg3 arg4 harg4 arg5 harg5 arg6 harg6 arg7 harg7 arg8 harg8 arg9 harg9 arg10 harg10 arg11 harg11 arg12 harg12 hc0 hc1 x0 x1 x2 x3 xs0 xs1 xs2 = k0_pay2 (k0_pay13 x0 x1 x2 x3) xs2 := by
  unfold sout0_B_2
  rw [View.read_writes_eq_canon _ _ _ (scover0_B_2 c i arg2 harg2 arg3 harg3 arg4 harg4 arg5 harg5 arg6 harg6 arg7 harg7 arg8 harg8 arg9 harg9 arg10 harg10 arg11 harg11 arg12 harg12 hc0 hc1 x0 x1 x2 x3 xs0 xs1 xs2)]
  unfold kernelRun0_B
  dsimp only
  try sl_unfold_words
  first | rw [View.canon_unit_zero hz] | rw [View.canon_cons_unit_zero (S := S1024x1) hz]
  simp only [View.readCov_unit_zero (S := S1024x1) _ hz, View.readAt_eq_ld, harg2.read_unread, harg3.read_unread, harg4.read_unread, harg5.read_unread, harg10.read_unread, harg11.read_unread, harg12.read_unread, View.ld_unit_zero (S := S1024x768) hz, View.ld_unit_zero (S := S1024x1) hz, View.ld_unit_zero (S := S1x1024) hz]

theorem out_B_5 (hc0 : ¬cond0_0 i) (hc1 : ¬cond0_1 i) :
    out0_B_5 c i arg2 harg2 arg3 harg3 arg4 harg4 arg5 harg5 arg6 harg6 arg7 harg7 arg8 harg8 arg9 harg9 arg10 harg10 arg11 harg11 arg12 harg12 hc0 hc1 x0 x1 x2 x3 xs0 xs1 xs2 = k0_pay3 (k0_pay12 x0 x1) := by
  unfold out0_B_5
  rw [View.read_writes_eq_canon _ _ _ (cover0_B_5 c i arg2 harg2 arg3 harg3 arg4 harg4 arg5 harg5 arg6 harg6 arg7 harg7 arg8 harg8 arg9 harg9 arg10 harg10 arg11 harg11 arg12 harg12 hc0 hc1 x0 x1 x2 x3 xs0 xs1 xs2)]
  unfold kernelRun0_B
  dsimp only
  try sl_unfold_words
  first | rw [View.canon_unit_zero hz] | rw [View.canon_cons_unit_zero (S := S8x1024) hz]
  simp only [View.readCov_unit_zero (S := S1024x1) _ hz, View.readAt_eq_ld, harg2.read_unread, harg3.read_unread, harg4.read_unread, harg5.read_unread, harg10.read_unread, harg11.read_unread, harg12.read_unread, View.ld_unit_zero (S := S1024x768) hz, View.ld_unit_zero (S := S1024x1) hz, View.ld_unit_zero (S := S1x1024) hz]

theorem out_B_6 (hc0 : ¬cond0_0 i) (hc1 : ¬cond0_1 i) :
    out0_B_6 c i arg2 harg2 arg3 harg3 arg4 harg4 arg5 harg5 arg6 harg6 arg7 harg7 arg8 harg8 arg9 harg9 arg10 harg10 arg11 harg11 arg12 harg12 hc0 hc1 x0 x1 x2 x3 xs0 xs1 xs2 = k0_pay4 (k0_pay11 x2 x3) := by
  unfold out0_B_6
  rw [View.read_writes_eq_canon _ _ _ (cover0_B_6 c i arg2 harg2 arg3 harg3 arg4 harg4 arg5 harg5 arg6 harg6 arg7 harg7 arg8 harg8 arg9 harg9 arg10 harg10 arg11 harg11 arg12 harg12 hc0 hc1 x0 x1 x2 x3 xs0 xs1 xs2)]
  unfold kernelRun0_B
  dsimp only
  try sl_unfold_words
  first | rw [View.canon_unit_zero hz] | rw [View.canon_cons_unit_zero (S := S8x1024) hz]
  simp only [View.readCov_unit_zero (S := S1024x1) _ hz, View.readAt_eq_ld, harg2.read_unread, harg3.read_unread, harg4.read_unread, harg5.read_unread, harg10.read_unread, harg11.read_unread, harg12.read_unread, View.ld_unit_zero (S := S1024x768) hz, View.ld_unit_zero (S := S1024x1) hz, View.ld_unit_zero (S := S1x1024) hz]

theorem out_B_7 (hc0 : ¬cond0_0 i) (hc1 : ¬cond0_1 i) :
    out0_B_7 c i arg2 harg2 arg3 harg3 arg4 harg4 arg5 harg5 arg6 harg6 arg7 harg7 arg8 harg8 arg9 harg9 arg10 harg10 arg11 harg11 arg12 harg12 hc0 hc1 x0 x1 x2 x3 xs0 xs1 xs2 = k0_pay5 (k0_pay13 x0 x1 x2 x3) := by
  unfold out0_B_7
  rw [View.read_writes_eq_canon _ _ _ (cover0_B_7 c i arg2 harg2 arg3 harg3 arg4 harg4 arg5 harg5 arg6 harg6 arg7 harg7 arg8 harg8 arg9 harg9 arg10 harg10 arg11 harg11 arg12 harg12 hc0 hc1 x0 x1 x2 x3 xs0 xs1 xs2)]
  unfold kernelRun0_B
  dsimp only
  try sl_unfold_words
  first | rw [View.canon_unit_zero hz] | rw [View.canon_cons_unit_zero (S := S8x1024) hz]
  simp only [View.readCov_unit_zero (S := S1024x1) _ hz, View.readAt_eq_ld, harg2.read_unread, harg3.read_unread, harg4.read_unread, harg5.read_unread, harg10.read_unread, harg11.read_unread, harg12.read_unread, View.ld_unit_zero (S := S1024x768) hz, View.ld_unit_zero (S := S1024x1) hz, View.ld_unit_zero (S := S1x1024) hz]

theorem sout_C_0 (hc0 : ¬cond0_0 i) (hc1 : cond0_1 i) :
    sout0_C_0 c i arg2 harg2 arg3 harg3 arg4 harg4 arg5 harg5 arg6 harg6 arg7 harg7 arg8 harg8 arg9 harg9 arg10 harg10 arg11 harg11 arg12 harg12 hc0 hc1 x0 x1 x2 x3 xs0 xs1 xs2 = k0_pay14 x0 x1 xs0 := by
  unfold sout0_C_0
  rw [View.read_writes_eq_canon _ _ _ (scover0_C_0 c i arg2 harg2 arg3 harg3 arg4 harg4 arg5 harg5 arg6 harg6 arg7 harg7 arg8 harg8 arg9 harg9 arg10 harg10 arg11 harg11 arg12 harg12 hc0 hc1 x0 x1 x2 x3 xs0 xs1 xs2)]
  unfold kernelRun0_C
  dsimp only
  try sl_unfold_words
  first | rw [View.canon_unit_zero hz] | rw [View.canon_cons_unit_zero (S := S1024x1) hz]
  simp only [View.readCov_unit_zero (S := S1024x1) _ hz, View.readAt_eq_ld, harg2.read_unread, harg3.read_unread, harg4.read_unread, harg5.read_unread, harg10.read_unread, harg11.read_unread, harg12.read_unread, View.ld_unit_zero (S := S1024x768) hz, View.ld_unit_zero (S := S1024x1) hz, View.ld_unit_zero (S := S1x1024) hz]

theorem sout_C_1 (hc0 : ¬cond0_0 i) (hc1 : cond0_1 i) :
    sout0_C_1 c i arg2 harg2 arg3 harg3 arg4 harg4 arg5 harg5 arg6 harg6 arg7 harg7 arg8 harg8 arg9 harg9 arg10 harg10 arg11 harg11 arg12 harg12 hc0 hc1 x0 x1 x2 x3 xs0 xs1 xs2 = k0_pay1 (k0_pay15 x2 x3 xs1) := by
  unfold sout0_C_1
  rw [View.read_writes_eq_canon _ _ _ (scover0_C_1 c i arg2 harg2 arg3 harg3 arg4 harg4 arg5 harg5 arg6 harg6 arg7 harg7 arg8 harg8 arg9 harg9 arg10 harg10 arg11 harg11 arg12 harg12 hc0 hc1 x0 x1 x2 x3 xs0 xs1 xs2)]
  unfold kernelRun0_C
  dsimp only
  try sl_unfold_words
  first | rw [View.canon_unit_zero hz] | rw [View.canon_cons_unit_zero (S := S1024x1) hz]
  simp only [View.readCov_unit_zero (S := S1024x1) _ hz, View.readAt_eq_ld, harg2.read_unread, harg3.read_unread, harg4.read_unread, harg5.read_unread, harg10.read_unread, harg11.read_unread, harg12.read_unread, View.ld_unit_zero (S := S1024x768) hz, View.ld_unit_zero (S := S1024x1) hz, View.ld_unit_zero (S := S1x1024) hz]

theorem sout_C_2 (hc0 : ¬cond0_0 i) (hc1 : cond0_1 i) :
    sout0_C_2 c i arg2 harg2 arg3 harg3 arg4 harg4 arg5 harg5 arg6 harg6 arg7 harg7 arg8 harg8 arg9 harg9 arg10 harg10 arg11 harg11 arg12 harg12 hc0 hc1 x0 x1 x2 x3 xs0 xs1 xs2 = k0_pay2 (k0_pay13 x0 x1 x2 x3) xs2 := by
  unfold sout0_C_2
  rw [View.read_writes_eq_canon _ _ _ (scover0_C_2 c i arg2 harg2 arg3 harg3 arg4 harg4 arg5 harg5 arg6 harg6 arg7 harg7 arg8 harg8 arg9 harg9 arg10 harg10 arg11 harg11 arg12 harg12 hc0 hc1 x0 x1 x2 x3 xs0 xs1 xs2)]
  unfold kernelRun0_C
  dsimp only
  try sl_unfold_words
  first | rw [View.canon_unit_zero hz] | rw [View.canon_cons_unit_zero (S := S1024x1) hz]
  simp only [View.readCov_unit_zero (S := S1024x1) _ hz, View.readAt_eq_ld, harg2.read_unread, harg3.read_unread, harg4.read_unread, harg5.read_unread, harg10.read_unread, harg11.read_unread, harg12.read_unread, View.ld_unit_zero (S := S1024x768) hz, View.ld_unit_zero (S := S1024x1) hz, View.ld_unit_zero (S := S1x1024) hz]

theorem out_C_5 (hc0 : ¬cond0_0 i) (hc1 : cond0_1 i) :
    out0_C_5 c i arg2 harg2 arg3 harg3 arg4 harg4 arg5 harg5 arg6 harg6 arg7 harg7 arg8 harg8 arg9 harg9 arg10 harg10 arg11 harg11 arg12 harg12 hc0 hc1 x0 x1 x2 x3 xs0 xs1 xs2 = k0_pay3 (k0_pay12 x0 x1) := by
  unfold out0_C_5
  rw [View.read_writes_eq_canon _ _ _ (cover0_C_5 c i arg2 harg2 arg3 harg3 arg4 harg4 arg5 harg5 arg6 harg6 arg7 harg7 arg8 harg8 arg9 harg9 arg10 harg10 arg11 harg11 arg12 harg12 hc0 hc1 x0 x1 x2 x3 xs0 xs1 xs2)]
  unfold kernelRun0_C
  dsimp only
  try sl_unfold_words
  first | rw [View.canon_unit_zero hz] | rw [View.canon_cons_unit_zero (S := S8x1024) hz]
  simp only [View.readCov_unit_zero (S := S1024x1) _ hz, View.readAt_eq_ld, harg2.read_unread, harg3.read_unread, harg4.read_unread, harg5.read_unread, harg10.read_unread, harg11.read_unread, harg12.read_unread, View.ld_unit_zero (S := S1024x768) hz, View.ld_unit_zero (S := S1024x1) hz, View.ld_unit_zero (S := S1x1024) hz]

theorem out_C_6 (hc0 : ¬cond0_0 i) (hc1 : cond0_1 i) :
    out0_C_6 c i arg2 harg2 arg3 harg3 arg4 harg4 arg5 harg5 arg6 harg6 arg7 harg7 arg8 harg8 arg9 harg9 arg10 harg10 arg11 harg11 arg12 harg12 hc0 hc1 x0 x1 x2 x3 xs0 xs1 xs2 = k0_pay4 (k0_pay11 x2 x3) := by
  unfold out0_C_6
  rw [View.read_writes_eq_canon _ _ _ (cover0_C_6 c i arg2 harg2 arg3 harg3 arg4 harg4 arg5 harg5 arg6 harg6 arg7 harg7 arg8 harg8 arg9 harg9 arg10 harg10 arg11 harg11 arg12 harg12 hc0 hc1 x0 x1 x2 x3 xs0 xs1 xs2)]
  unfold kernelRun0_C
  dsimp only
  try sl_unfold_words
  first | rw [View.canon_unit_zero hz] | rw [View.canon_cons_unit_zero (S := S8x1024) hz]
  simp only [View.readCov_unit_zero (S := S1024x1) _ hz, View.readAt_eq_ld, harg2.read_unread, harg3.read_unread, harg4.read_unread, harg5.read_unread, harg10.read_unread, harg11.read_unread, harg12.read_unread, View.ld_unit_zero (S := S1024x768) hz, View.ld_unit_zero (S := S1024x1) hz, View.ld_unit_zero (S := S1x1024) hz]

theorem out_C_7 (hc0 : ¬cond0_0 i) (hc1 : cond0_1 i) :
    out0_C_7 c i arg2 harg2 arg3 harg3 arg4 harg4 arg5 harg5 arg6 harg6 arg7 harg7 arg8 harg8 arg9 harg9 arg10 harg10 arg11 harg11 arg12 harg12 hc0 hc1 x0 x1 x2 x3 xs0 xs1 xs2 = k0_pay5 (k0_pay13 x0 x1 x2 x3) := by
  unfold out0_C_7
  rw [View.read_writes_eq_canon _ _ _ (cover0_C_7 c i arg2 harg2 arg3 harg3 arg4 harg4 arg5 harg5 arg6 harg6 arg7 harg7 arg8 harg8 arg9 harg9 arg10 harg10 arg11 harg11 arg12 harg12 hc0 hc1 x0 x1 x2 x3 xs0 xs1 xs2)]
  unfold kernelRun0_C
  dsimp only
  try sl_unfold_words
  first | rw [View.canon_unit_zero hz] | rw [View.canon_cons_unit_zero (S := S8x1024) hz]
  simp only [View.readCov_unit_zero (S := S1024x1) _ hz, View.readAt_eq_ld, harg2.read_unread, harg3.read_unread, harg4.read_unread, harg5.read_unread, harg10.read_unread, harg11.read_unread, harg12.read_unread, View.ld_unit_zero (S := S1024x768) hz, View.ld_unit_zero (S := S1024x1) hz, View.ld_unit_zero (S := S1x1024) hz]

theorem out_C_4 (hc0 : ¬cond0_0 i) (hc1 : cond0_1 i) :
    out0_C_4 c i arg2 harg2 arg3 harg3 arg4 harg4 arg5 harg5 arg6 harg6 arg7 harg7 arg8 harg8 arg9 harg9 arg10 harg10 arg11 harg11 arg12 harg12 hc0 hc1 x0 x1 x2 x3 xs0 xs1 xs2 = k0_pay6 (k0_pay14 x0 x1 xs0) (k0_pay1 (k0_pay15 x2 x3 xs1)) (k0_pay2 (k0_pay13 x0 x1 x2 x3) xs2) := by
  unfold out0_C_4
  rw [View.read_writes_eq_canon _ _ _ (cover0_C_4 c i arg2 harg2 arg3 harg3 arg4 harg4 arg5 harg5 arg6 harg6 arg7 harg7 arg8 harg8 arg9 harg9 arg10 harg10 arg11 harg11 arg12 harg12 hc0 hc1 x0 x1 x2 x3 xs0 xs1 xs2)]
  unfold kernelRun0_C
  dsimp only
  try sl_unfold_words
  first | rw [View.canon_unit_zero hz] | rw [View.canon_cons_unit_zero (S := S1024x1) hz]
  simp only [View.readCov_unit_zero (S := S1024x1) _ hz, View.readAt_eq_ld, harg2.read_unread, harg3.read_unread, harg4.read_unread, harg5.read_unread, harg10.read_unread, harg11.read_unread, harg12.read_unread, View.ld_unit_zero (S := S1024x768) hz, View.ld_unit_zero (S := S1024x1) hz, View.ld_unit_zero (S := S1x1024) hz]

end Cert.KernelIdeal.Pieces

end
-- ==== Proof.KerChain.lean ====
/-
  What the kernel's buffers hold after each grid point, in terms of the point's input blocks.

  At the first point of a grid row the three running vectors start from zero; at every later point of the row they
  are the previous point's vectors plus this tile's row sums. The three column-partial outputs hold, at every
  point, this tile's column sums. At the last point of a row the row-loss output holds
  log(first vector) * second vector - third vector of the vectors after that point.
-/
import proofs.«131299_j43250320671200_2_alg».proof.Proof.KerPieces

set_option maxRecDepth 16384

noncomputable section

open Idealize.ShloMosaic Idealize.ShloMosaic.TcCoe Idealize.SL.Sem
open Idealize.ShloMosaic.Pipeline (Dat)

namespace Cert.KernelIdeal.Chain

open Cert.KernelIdeal Cert.KernelIdeal.Gen Cert.KernelIdeal.Pieces

variable {F : FTy → Type} [FloatOps F] [Named F]
variable (m : (ℓ : Loc nD τ sig) → Buf (Elt F) ℓ) (c : Dev nD)

/-- The three running vectors after point `t`. -/
abbrev accS (t : Fin cfg0.N) : Vec F S1024x1 .f32 × Vec F S1024x1 .f32 × Vec F S1024x1 .f32 :=
  (outsAt0 m c t.val t.isLt).2.2.2.2

/-- The three running vectors after the point before `t`. -/
abbrev prevS (t : Fin cfg0.N) : Vec F S1024x1 .f32 × Vec F S1024x1 .f32 × Vec F S1024x1 .f32 :=
  (outsAt0 m c (t.val - 1) (Nat.lt_of_le_of_lt (Nat.sub_le _ _) t.isLt)).2.2.2.2

/-- The tile's row sums of the exponentials of its logits, added to a column vector. -/
abbrev rowE (t : Fin cfg0.N) (v : Vec F S1024x1 .f32) : Vec F S1024x1 .f32 := k0_pay14 (iblk m c 0 t) (iblk m c 1 t) v
/-- The indicator's row sums added to a column vector. -/
abbrev rowC (t : Fin cfg0.N) (v : Vec F S1024x1 .f32) : Vec F S1024x1 .f32 := k0_pay1 (k0_pay15 (iblk m c 2 t) (iblk m c 3 t) v)
/-- The weighted logits' row sums added to a column vector. -/
abbrev rowS (t : Fin cfg0.N) (v : Vec F S1024x1 .f32) : Vec F S1024x1 .f32 :=
  k0_pay2 (k0_pay13 (iblk m c 0 t) (iblk m c 1 t) (iblk m c 2 t) (iblk m c 3 t)) v

/-- First point of a row: the vectors start from zero. -/
theorem acc_first (t : Fin cfg0.N) (h0 : t.val % 4 = 0) (h1 : ¬t.val % 4 = 3) :
    accS m c t = (rowE m c t k0_pay7, rowC m c t k0_pay8, rowS m c t k0_pay9) := by
  unfold accS
  rw [outsAt0_A m c t h0 h1]
  dsimp only
  exact congrArg₂ Prod.mk (sout_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (iblk m c 0 t) (iblk m c 1 t) (iblk m c 2 t) (iblk m c 3 t) ((hcond0_0 t).mpr h0) (fun h => h1 ((hcond0_1 t).mp h)))
    (congrArg₂ Prod.mk (sout_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (iblk m c 0 t) (iblk m c 1 t) (iblk m c 2 t) (iblk m c 3 t) ((hcond0_0 t).mpr h0) (fun h => h1 ((hcond0_1 t).mp h))) (sout_A_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (iblk m c 0 t) (iblk m c 1 t) (iblk m c 2 t) (iblk m c 3 t) ((hcond0_0 t).mpr h0) (fun h => h1 ((hcond0_1 t).mp h))))

/-- A middle point of a row: the vectors grow by the tile's row sums. -/
theorem acc_mid (t : Fin cfg0.N) (h0 : ¬t.val % 4 = 0) (h1 : ¬t.val % 4 = 3) :
    accS m c t = (rowE m c t (prevS m c t).1, rowC m c t (prevS m c t).2.1, rowS m c t (prevS m c t).2.2) := by
  unfold accS
  rw [outsAt0_B m c t h0 h1]
  dsimp only
  exact congrArg₂ Prod.mk (sout_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (iblk m c 0 t) (iblk m c 1 t) (iblk m c 2 t) (iblk m c 3 t) (prevS m c t).1 (prevS m c t).2.1 (prevS m c t).2.2 (fun h => h0 ((hcond0_0 t).mp h)) (fun h => h1 ((hcond0_1 t).mp h)))
    (congrArg₂ Prod.mk (sout_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (iblk m c 0 t) (iblk m c 1 t) (iblk m c 2 t) (iblk m c 3 t) (prevS m c t).1 (prevS m c t).2.1 (prevS m c t).2.2 (fun h => h0 ((hcond0_0 t).mp h)) (fun h => h1 ((hcond0_1 t).mp h))) (sout_B_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (iblk m c 0 t) (iblk m c 1 t) (iblk m c 2 t) (iblk m c 3 t) (prevS m c t).1 (prevS m c t).2.1 (prevS m c t).2.2 (fun h => h0 ((hcond0_0 t).mp h)) (fun h => h1 ((hcond0_1 t).mp h))))

/-- The last point of a row: the same growth. -/
theorem acc_last (t : Fin cfg0.N) (h0 : ¬t.val % 4 = 0) (h1 : t.val % 4 = 3) :
    accS m c t = (rowE m c t (prevS m c t).1, rowC m c t (prevS m c t).2.1, rowS m c t (prevS m c t).2.2) := by
  unfold accS
  rw [outsAt0_C m c t h0 h1]
  dsimp only
  exact congrArg₂ Prod.mk (sout_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (iblk m c 0 t) (iblk m c 1 t) (iblk m c 2 t) (iblk m c 3 t) (prevS m c t).1 (prevS m c t).2.1 (prevS m c t).2.2 (fun h => h0 ((hcond0_0 t).mp h)) ((hcond0_1 t).mpr h1))
    (congrArg₂ Prod.mk (sout_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (iblk m c 0 t) (iblk m c 1 t) (iblk m c 2 t) (iblk m c 3 t) (prevS m c t).1 (prevS m c t).2.1 (prevS m c t).2.2 (fun h => h0 ((hcond0_0 t).mp h)) ((hcond0_1 t).mpr h1)) (sout_C_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (iblk m c 0 t) (iblk m c 1 t) (iblk m c 2 t) (iblk m c 3 t) (prevS m c t).1 (prevS m c t).2.1 (prevS m c t).2.2 (fun h => h0 ((hcond0_0 t).mp h)) ((hcond0_1 t).mpr h1)))

/-- Any point that is not the first of its row: the vectors grow by the tile's row sums. -/
theorem acc_step (t : Fin cfg0.N) (h0 : ¬t.val % 4 = 0) :
    accS m c t = (rowE m c t (prevS m c t).1, rowC m c t (prevS m c t).2.1, rowS m c t (prevS m c t).2.2) := by
  by_cases h1 : t.val % 4 = 3
  · exact acc_last m c t h0 h1
  · exact acc_mid m c t h0 h1

/-- The last point of a row writes the row losses from the vectors it has just updated. -/
theorem rowOut_last (t : Fin cfg0.N) (h0 : ¬t.val % 4 = 0) (h1 : t.val % 4 = 3) :
    (outsAt0 m c t.val t.isLt).1 = k0_pay6 (accS m c t).1 (accS m c t).2.1 (accS m c t).2.2 := by
  rw [acc_last m c t h0 h1]
  dsimp only
  rw [outsAt0_C m c t h0 h1]
  dsimp only
  exact out_C_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (iblk m c 0 t) (iblk m c 1 t) (iblk m c 2 t) (iblk m c 3 t) (prevS m c t).1 (prevS m c t).2.1 (prevS m c t).2.2 (fun h => h0 ((hcond0_0 t).mp h)) ((hcond0_1 t).mpr h1)

/-- Every point writes its tile's column sums of the exponentials, -/
theorem colE (t : Fin cfg0.N) : (outsAt0 m c t.val t.isLt).2.1 = k0_pay3 (k0_pay12 (iblk m c 0 t) (iblk m c 1 t)) := by
  by_cases h0 : t.val % 4 = 0
  · have h1 : ¬t.val % 4 = 3 := by omega
    rw [outsAt0_A m c t h0 h1]; dsimp only
    exact out_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (iblk m c 0 t) (iblk m c 1 t) (iblk m c 2 t) (iblk m c 3 t) ((hcond0_0 t).mpr h0) (fun h => h1 ((hcond0_1 t).mp h))
  · by_cases h1 : t.val % 4 = 3
    · rw [outsAt0_C m c t h0 h1]; dsimp only
      exact out_C_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (iblk m c 0 t) (iblk m c 1 t) (iblk m c 2 t) (iblk m c 3 t) (prevS m c t).1 (prevS m c t).2.1 (prevS m c t).2.2 (fun h => h0 ((hcond0_0 t).mp h)) ((hcond0_1 t).mpr h1)
    · rw [outsAt0_B m c t h0 h1]; dsimp only
      exact out_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (iblk m c 0 t) (iblk m c 1 t) (iblk m c 2 t) (iblk m c 3 t) (prevS m c t).1 (prevS m c t).2.1 (prevS m c t).2.2 (fun h => h0 ((hcond0_0 t).mp h)) (fun h => h1 ((hcond0_1 t).mp h))

/-- of the label indicator, -/
theorem colC (t : Fin cfg0.N) : (outsAt0 m c t.val t.isLt).2.2.1 = k0_pay4 (k0_pay11 (iblk m c 2 t) (iblk m c 3 t)) := by
  by_cases h0 : t.val % 4 = 0
  · have h1 : ¬t.val % 4 = 3 := by omega
    rw [outsAt0_A m c t h0 h1]; dsimp only
    exact out_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (iblk m c 0 t) (iblk m c 1 t) (iblk m c 2 t) (iblk m c 3 t) ((hcond0_0 t).mpr h0) (fun h => h1 ((hcond0_1 t).mp h))
  · by_cases h1 : t.val % 4 = 3
    · rw [outsAt0_C m c t h0 h1]; dsimp only
      exact out_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (iblk m c 0 t) (iblk m c 1 t) (iblk m c 2 t) (iblk m c 3 t) (prevS m c t).1 (prevS m c t).2.1 (prevS m c t).2.2 (fun h => h0 ((hcond0_0 t).mp h)) ((hcond0_1 t).mpr h1)
    · rw [outsAt0_B m c t h0 h1]; dsimp only
      exact out_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (iblk m c 0 t) (iblk m c 1 t) (iblk m c 2 t) (iblk m c 3 t) (prevS m c t).1 (prevS m c t).2.1 (prevS m c t).2.2 (fun h => h0 ((hcond0_0 t).mp h)) (fun h => h1 ((hcond0_1 t).mp h))

/-- and of the indicator-weighted logits. -/
theorem colS (t : Fin cfg0.N) :
    (outsAt0 m c t.val t.isLt).2.2.2.1 = k0_pay5 (k0_pay13 (iblk m c 0 t) (iblk m c 1 t) (iblk m c 2 t) (iblk m c 3 t)) := by
  by_cases h0 : t.val % 4 = 0
  · have h1 : ¬t.val % 4 = 3 := by omega
    rw [outsAt0_A m c t h0 h1]; dsimp only
    exact out_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (iblk m c 0 t) (iblk m c 1 t) (iblk m c 2 t) (iblk m c 3 t) ((hcond0_0 t).mpr h0) (fun h => h1 ((hcond0_1 t).mp h))
  · by_cases h1 : t.val % 4 = 3
    · rw [outsAt0_C m c t h0 h1]; dsimp only
      exact out_C_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (iblk m c 0 t) (iblk m c 1 t) (iblk m c 2 t) (iblk m c 3 t) (prevS m c t).1 (prevS m c t).2.1 (prevS m c t).2.2 (fun h => h0 ((hcond0_0 t).mp h)) ((hcond0_1 t).mpr h1)
    · rw [outsAt0_B m c t h0 h1]; dsimp only
      exact out_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (iblk m c 0 t) (iblk m c 1 t) (iblk m c 2 t) (iblk m c 3 t) (prevS m c t).1 (prevS m c t).2.1 (prevS m c t).2.2 (fun h => h0 ((hcond0_0 t).mp h)) (fun h => h1 ((hcond0_1 t).mp h))

end Cert.KernelIdeal.Chain

end
-- ==== Proof.Spec.lean ====
/-
  The two losses as functions of the argument arrays, on the extended reals.

  Both programs scale every row of the two embedding arrays to unit length (dividing by the larger of the row's
  Euclidean norm and a small floor), form all 4096 x 4096 cosine similarities, and scale them by the temperature:
  the kernel multiplies by the reciprocal of the temperature, the reference divides by the temperature.
  With `same p q` the indicator that rows p and q carry equal labels, the kernel evaluates, per row p,
      log (sum_q exp l(p,q)) * (sum_q same p q) - sum_q same p q * l(p,q)
  and the same per column q with the sums over p; the reference evaluates minus the sum of
  same p q * logsoftmax(l)(p,q), with the maximum-shifted log-softmax taken along rows and along columns.
  Each averages its 4096 row terms and its 4096 column terms and halves the sum of the two averages.
-/
import Idealize.ShloMosaic.PureOps.Ideal
import Idealize.ShloMosaic.Lib.ValueIdx

noncomputable section

open scoped BigOperators

namespace Cert.Spec

open Idealize.ShloMosaic Idealize.ShloMosaic.ValueIdx

/-- An embedding array: 4096 rows of 768 extended reals. -/
abbrev Emb := (⟨2, ![4096, 768]⟩ : Shape).Idx → EReal
/-- The label vector: 4096 words. -/
abbrev Lab := (⟨1, ![4096]⟩ : Shape).Idx → BitVec 32

/-- The floor under a row's norm (the word both programs carry). -/
def normFloor : EReal := Ideal.ofBits .f32 0x322BCC77#32
/-- The temperature as the reference carries it. -/
def temperature : EReal := Ideal.ofBits .f32 0x3D8F5C29#32
/-- The reciprocal of that temperature, the exact value the kernel's scale denotes. -/
def invTemperature : EReal := ((134217728 / 9395241 : ℝ) : EReal)
/-- The number of rows, as both programs' averages carry it. -/
def count : EReal := Ideal.ofBits .f32 0x45800000#32
/-- The two by which both programs halve. -/
def two : EReal := Ideal.ofBits .f32 0x40000000#32

/-- A row's norm, floored. -/
def rowNorm (x : Emb) (p : Fin 4096) : EReal :=
  max (Ideal.sqrt (∑ d : Fin 768, x (ix2 p d) * x (ix2 p d))) normFloor

/-- A row scaled to unit length. -/
def unitRow (x : Emb) (p : Fin 4096) (d : Fin 768) : EReal := Ideal.div (x (ix2 p d)) (rowNorm x p)

/-- The cosine similarity of row p of `a` and row q of `b`. -/
def cosSim (a b : Emb) (p q : Fin 4096) : EReal := ∑ d : Fin 768, unitRow a p d * unitRow b q d

/-- The indicator that rows p and q carry the same label. -/
def same (lab : Lab) (p q : Fin 4096) : EReal := if lab (ix1 p) = lab (ix1 q) then 1 else 0

/-! ## The kernel's form -/

/-- The kernel's logits: similarities times the reciprocal temperature. -/
def logitK (a b : Emb) (p q : Fin 4096) : EReal := cosSim a b p q * invTemperature

/-- The kernel's loss term of row p. -/
def rowLossK (a b : Emb) (lab : Lab) (p : Fin 4096) : EReal :=
  Ideal.log (∑ q : Fin 4096, Ideal.exp (logitK a b p q)) * (∑ q : Fin 4096, same lab p q)
    - ∑ q : Fin 4096, same lab p q * logitK a b p q

/-- The kernel's loss term of column q. -/
def colLossK (a b : Emb) (lab : Lab) (q : Fin 4096) : EReal :=
  Ideal.log (∑ p : Fin 4096, Ideal.exp (logitK a b p q)) * (∑ p : Fin 4096, same lab p q)
    - ∑ p : Fin 4096, same lab p q * logitK a b p q

/-- The kernel's result. -/
def kernelLoss (a b : Emb) (lab : Lab) : EReal :=
  Ideal.div (Ideal.div (∑ p : Fin 4096, rowLossK a b lab p) count
    + Ideal.div (∑ q : Fin 4096, colLossK a b lab q) count) two

/-! ## The reference's form -/

/-- The reference's logits: similarities divided by the temperature. -/
def logitR (a b : Emb) (p q : Fin 4096) : EReal := Ideal.div (cosSim a b p q) temperature

/-- The largest logit of row p. -/
def rowMaxR (a b : Emb) (p : Fin 4096) : EReal := Finset.univ.fold max ⊥ (fun q : Fin 4096 => logitR a b p q)
/-- The largest logit of column q. -/
def colMaxR (a b : Emb) (q : Fin 4096) : EReal := Finset.univ.fold max ⊥ (fun p : Fin 4096 => logitR a b p q)

/-- The shifted log-softmax along row p, at column q. -/
def rowLogSoftmaxR (a b : Emb) (p q : Fin 4096) : EReal :=
  (logitR a b p q - rowMaxR a b p)
    - Ideal.log (∑ q' : Fin 4096, Ideal.exp (logitR a b p q' - rowMaxR a b p))
/-- The shifted log-softmax along column q, at row p. -/
def colLogSoftmaxR (a b : Emb) (p q : Fin 4096) : EReal :=
  (logitR a b p q - colMaxR a b q)
    - Ideal.log (∑ p' : Fin 4096, Ideal.exp (logitR a b p' q - colMaxR a b q))

/-- The reference's result. -/
def referenceLoss (a b : Emb) (lab : Lab) : EReal :=
  Ideal.div
    (-(Ideal.div (∑ p : Fin 4096, ∑ q : Fin 4096, same lab p q * rowLogSoftmaxR a b p q) count)
      + -(Ideal.div (∑ q : Fin 4096, ∑ p : Fin 4096, same lab p q * colLogSoftmaxR a b p q) count)) two

/-- Every entry of an array is a real number. -/
def AllReal (x : Emb) : Prop := ∀ i, ∃ r : ℝ, x i = (r : EReal)

end Cert.Spec

end
-- ==== Proof.LibDenseRows.lean ====
/-
  General lemmas for kernels that push rows through dense layers, read at the exact (extended-real) instance.

  * `matmulT_zero_apply`: a matrix product of an [M, K] left operand with an [N, K] right operand, both contracted on
    their LAST axis, into a zero accumulator, is at (p, j) the plain sum over k of left (p, k) times right (j, k).
  * `rowSum_apply`: a sum of an [A, B] array along its last axis is at p the plain sum over k of the array at (p, k).
  * `shapeCast_a_a1_apply`: an [a] vector recast as an [a, 1] column reads, at (i, u), the vector at i.
  * `denseT_relu_apply`: a hidden layer as a kernel body spells it (product over last axes into a zero accumulator, bias
    row repeated down the rows, maximum with zero) is at (p, j) max (∑ₖ h (p, k) · w (j, k) + b j) 0.
  * `rowDot_bias_apply`: an output layer of width one spelt as multiply by the one weight row, sum along the row, add the
    one bias, is at (p, u) ∑ₖ h (p, k) · w (0, k) + b 0.
-/
import Idealize.ShloMosaic.Lib.ValueIdx
import Idealize.ShloMosaic.Lib.ValueLayout
import Idealize.ShloMosaic.PureOps.Ideal.Laws

noncomputable section

open scoped BigOperators

namespace Cert.DenseRows

open Idealize.ShloMosaic Idealize.ShloMosaic.ValueIdx

variable {M K N : ℕ}

/-! ## The operand indices of a product contracted on both last axes -/

/-- The left operand's row is the result's row. -/
theorem lhsT_0 (i : (⟨2, ![M, N]⟩ : Shape).Idx) (q : (DotDims.transposedRhs M K N).contr.Idx) :
    ((DotDims.transposedRhs M K N).lhsIdx i q 0).val = (i 0).val := by
  unfold DotDims.lhsIdx
  rw [dif_neg (show ¬(0 : Fin (⟨2, ![M, K]⟩ : Shape).rank) ∈ (DotDims.transposedRhs M K N).lhsBatch from List.not_mem_nil),
    dif_pos (show (0 : Fin (⟨2, ![M, K]⟩ : Shape).rank) ∈ (DotDims.transposedRhs M K N).lhsNonContracting from List.mem_singleton.mpr rfl)]
  rfl

/-- The left operand's column is the contraction position. -/
theorem lhsT_1 (i : (⟨2, ![M, N]⟩ : Shape).Idx) (q : (DotDims.transposedRhs M K N).contr.Idx) :
    ((DotDims.transposedRhs M K N).lhsIdx i q 1).val = (q ⟨0, Nat.one_pos⟩).val :=
  (DotDims.transposedRhs M K N).lhsIdx_val_of_single rfl i q

/-- The right operand's row is the result's column. -/
theorem rhsT_0 (i : (⟨2, ![M, N]⟩ : Shape).Idx) (q : (DotDims.transposedRhs M K N).contr.Idx) :
    ((DotDims.transposedRhs M K N).rhsIdx i q 0).val = (i 1).val := by
  unfold DotDims.rhsIdx
  rw [dif_neg (show ¬(0 : Fin (⟨2, ![N, K]⟩ : Shape).rank) ∈ (DotDims.transposedRhs M K N).rhsBatch from List.not_mem_nil),
    dif_pos (show (0 : Fin (⟨2, ![N, K]⟩ : Shape).rank) ∈ (DotDims.transposedRhs M K N).rhsNonContracting from List.mem_singleton.mpr rfl)]
  rfl

/-- The right operand's column is the contraction position. -/
theorem rhsT_1 (i : (⟨2, ![M, N]⟩ : Shape).Idx) (q : (DotDims.transposedRhs M K N).contr.Idx) :
    ((DotDims.transposedRhs M K N).rhsIdx i q 1).val = (q ⟨0, Nat.one_pos⟩).val :=
  (DotDims.transposedRhs M K N).rhsIdx_val_of_single rfl i q

/-- A product of an [M, K] array with an [N, K] array over their last axes, into a zero accumulator, at (p, j):
    the sum over k of left (p, k) times right (j, k). No order of summation is left in it: the sum is the
    extended reals' commutative one. -/
theorem matmulT_zero_apply {φ₁ φ₂ : FTy} (prec : Option ContractPrecision) (h : FVec Ideal ⟨2, ![M, K]⟩ φ₁) (w : FVec Ideal ⟨2, ![N, K]⟩ φ₂)
    (p : Fin M) (j : Fin N) :
    FloatOps.matmul (DotDims.transposedRhs M K N) prec h w (constant ⟨2, ![M, N]⟩ .f32 0x00000000#32) (ix2 p j)
      = ∑ k : Fin K, h (ix2 p k) * w (ix2 j k) := by
  rw [Ideal.matmul_constant_zero_apply, ← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 p j) ((contrEquiv1 (DotDims.transposedRhs M K N) K rfl rfl).symm k) = ix2 p k :=
    funext fun a => Fin.ext (by
      match a with
      | ⟨0, _⟩ => exact lhsT_0 _ _
      | ⟨1, _⟩ => exact (lhsT_1 _ _).trans hk)
  have er : (DotDims.transposedRhs M K N).rhsIdx (ix2 p j) ((contrEquiv1 (DotDims.transposedRhs M K N) K rfl rfl).symm k) = ix2 j k :=
    funext fun a => Fin.ext (by
      match a with
      | ⟨0, _⟩ => exact rhsT_0 _ _
      | ⟨1, _⟩ => exact (rhsT_1 _ _).trans hk)
  rw [el, er]

/-! ## A sum along the last axis -/

/-- The sum of an [A, B] array along its last axis, at p, is the sum over k of the array at (p, k). -/
theorem rowSum_apply {A B : ℕ} {φ : FTy} (src : FVec Ideal ⟨2, ![A, B]⟩ φ) (acc : BitVec φ.bits)
    (h : (⟨2, ![A, B]⟩ : Shape).Reduces [1] ⟨1, ![A]⟩) (hφ : FKind.Formats φ) (hacc : acc = FKind.add.neutral φ hφ) (p : Fin A) :
    multiReduction .add [1] ⟨1, ![A]⟩ src acc h hφ hacc (ix1 p) = ∑ k : Fin B, src (ix2 p k) := by
  refine (Ideal.multiReduction_add_single src acc h hφ hacc (ix1 p)).trans ?_
  refine Finset.sum_congr rfl fun k _ => congrArg src (funext fun c => Fin.ext ?_)
  rw [h.lift_val]
  match c with
  | ⟨0, _⟩ => rfl
  | ⟨1, _⟩ => rfl

/-! ## A vector recast as a column -/

/-- An [a] vector recast as an [a, 1] column reads, at (i, u), the vector at i, whatever the unit coordinate u. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-! ## Whole layers at one entry -/

/-- A hidden layer as a kernel body spells it — the product of [M, K] activations with [J, K] weights over their last
    axes into a zero accumulator, plus the [J] bias recast as one row and repeated down the rows, then the maximum with
    the zero splat — is, at (p, j), max (∑ₖ h (p, k) · w (j, k) + b j) 0. -/
theorem denseT_relu_apply {J : ℕ} {φ₁ φ₂ : FTy} (prec : Option ContractPrecision) (h : FVec Ideal ⟨2, ![M, K]⟩ φ₁)
    (w : FVec Ideal ⟨2, ![J, K]⟩ φ₂) (b : FVec Ideal ⟨1, ![J]⟩ .f32) (hc : (⟨1, ![J]⟩ : Shape).ShapeCasts ⟨2, ![1, J]⟩)
    (hb : (⟨2, ![1, J]⟩ : Shape).Broadcasts ⟨2, ![M, J]⟩) (p : Fin M) (j : Fin J) :
    maximumf (addf (matmul (DotDims.transposedRhs M K J) prec h w (constant ⟨2, ![M, J]⟩ .f32 0x00000000#32))
        (broadcastTo ⟨2, ![M, J]⟩ (shapeCast ⟨2, ![1, J]⟩ b hc) hb))
      (broadcast ⟨2, ![M, J]⟩ (Scalar.ofBits (F := Ideal) .f32 0x00000000#32)) (ix2 p j)
      = max ((∑ k : Fin K, h (ix2 p k) * w (ix2 j k)) + b (ix1 j)) 0 :=
  congrArg₂ max (congrArg₂ (· + ·) (matmulT_zero_apply prec h w p j)
    ((broadcastTo_1b_ab_apply _ hb p j).trans (shapeCast_a_1a_apply b hc 0 j))) Ideal.ofBits_zero_f32

/-- An output layer of width one spelt on the vector unit — the [M, K] activations times the one [1, K] weight row repeated
    down the rows, summed along each row, recast as a column, plus the one bias repeated down the column — is, at
    (p, u), ∑ₖ h (p, k) · w (0, k) + b 0. -/
theorem rowDot_bias_apply (h : FVec Ideal ⟨2, ![M, K]⟩ .f32) (w : FVec Ideal ⟨2, ![1, K]⟩ .f32) (b : FVec Ideal ⟨1, ![1]⟩ .f32)
    (hw : (⟨2, ![1, K]⟩ : Shape).Broadcasts ⟨2, ![M, K]⟩) (hr : (⟨2, ![M, K]⟩ : Shape).Reduces [1] ⟨1, ![M]⟩)
    (hφ : FKind.Formats .f32) (hacc : (0x00000000#32 : BitVec FTy.f32.bits) = FKind.add.neutral .f32 hφ)
    (hs : (⟨1, ![M]⟩ : Shape).ShapeCasts ⟨2, ![M, 1]⟩) (hc : (⟨1, ![1]⟩ : Shape).ShapeCasts ⟨2, ![1, 1]⟩)
    (hb : (⟨2, ![1, 1]⟩ : Shape).Broadcasts ⟨2, ![M, 1]⟩) (p : Fin M) (u : Fin 1) :
    addf (shapeCast ⟨2, ![M, 1]⟩ (multiReduction .add [1] ⟨1, ![M]⟩ (mulf h (broadcastTo ⟨2, ![M, K]⟩ w hw)) 0x00000000#32 hr hφ hacc) hs)
        (broadcastTo ⟨2, ![M, 1]⟩ (shapeCast ⟨2, ![1, 1]⟩ b hc) hb) (ix2 p u)
      = (∑ k : Fin K, h (ix2 p k) * w (ix2 (0 : Fin 1) k)) + b (ix1 (0 : Fin 1)) :=
  congrArg₂ (· + ·)
    (((shapeCast_a_a1_apply _ hs p u).trans (rowSum_apply _ _ hr hφ hacc p)).trans
      (Finset.sum_congr rfl fun k _ => congrArg (h (ix2 p k) * ·) (broadcastTo_1b_ab_apply w hw p k)))
    (((broadcastTo_1b_ab_apply _ hb p u).trans (shapeCast_a_1a_apply b hc 0 u)).trans
      (congrArg (fun t : Fin 1 => b (ix1 t)) (Subsingleton.elim u 0)))

end Cert.DenseRows

end
-- ==== Proof.LibColumns.lean ====
/-
  General lemmas for kernels that keep a per-row number as an [a, 1] column.

  * `broadcastTo_a1_ab_apply`: an [a, 1] column repeated along the rows of an [a, b] array reads, at (p, c), the column at p.
  * `keepdimsSum_apply`: a sum of an [a, b] array along its last axis kept as an [a, 1] column reads, at (p, u), the plain
    sum over k of the array at (p, k).
-/
import Idealize.ShloMosaic.Lib.ValueIdx
import Idealize.ShloMosaic.Lib.ValueLayout
import Idealize.ShloMosaic.Lib.Pipeline.Value
import Idealize.ShloMosaic.PureOps.Ideal.Laws
import proofs.«131299_j43250320671200_2_alg».proof.Proof.LibDenseRows

noncomputable section

open scoped BigOperators

namespace Cert.Columns

open Idealize.ShloMosaic Idealize.ShloMosaic.ValueIdx

/-- An [a, 1] column broadcast to [a, b] reads, at (p, c), the column's entry of row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum of an [a, b] array along its last axis, kept as an [a, 1] column: at (p, u) the sum over k of the array at (p, k). -/
theorem keepdimsSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (hs : (⟨1, ![a]⟩ : Shape).ShapeCasts ⟨2, ![a, 1]⟩) (p : Fin a) (u : Fin 1) :
    shapeCast ⟨2, ![a, 1]⟩ (multiReduction .add [1] ⟨1, ![a]⟩ src acc h hφ hacc) hs (ix2 p u) = ∑ k : Fin b, src (ix2 p k) :=
  (Cert.DenseRows.shapeCast_a_a1_apply _ hs p u).trans (Cert.DenseRows.rowSum_apply src acc h hφ hacc p)

end Cert.Columns

end
-- ==== Proof.LibColSums.lean ====
/-
  General lemmas for kernels that keep a per-column number as a [1, b] row, read at the exact (extended-real) instance.

  * `colSum_apply`: a sum of an [a, b] array along its FIRST axis is, at q, the plain sum over k of the array at (k, q).
  * `keepdimsColSum_apply`: that sum kept as a [1, b] row reads, at (u, q), the same sum.
  * `broadcast_keepdimsColSum_apply`: the row repeated down the rows of an [m, b] array reads, at (p, q), the same sum.
-/
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.ColSums

open Idealize.ShloMosaic Idealize.ShloMosaic.ValueIdx

/-- The sum of an [a, b] array along its first axis, at q, is the sum over k of the array at (k, q). -/
theorem colSum_apply {a b : ℕ} {φ : FTy} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ) (q : Fin b) :
    multiReduction .add [0] ⟨1, ![b]⟩ src acc h hφ hacc (ix1 q) = ∑ k : Fin a, src (ix2 k q) := by
  refine (Ideal.multiReduction_add_single src acc h hφ hacc (ix1 q)).trans ?_
  refine Finset.sum_congr rfl fun k _ => congrArg src (funext fun c => Fin.ext ?_)
  rw [h.lift_val]
  match c with
  | ⟨0, _⟩ => rfl
  | ⟨1, _⟩ => rfl

/-- The same sum kept as a [1, b] row: at (u, q) the sum over k of the array at (k, q). -/
theorem keepdimsColSum_apply {a b : ℕ} {φ : FTy} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ)
    (hs : (⟨1, ![b]⟩ : Shape).ShapeCasts ⟨2, ![1, b]⟩) (u : Fin 1) (q : Fin b) :
    shapeCast ⟨2, ![1, b]⟩ (multiReduction .add [0] ⟨1, ![b]⟩ src acc h hφ hacc) hs (ix2 u q) = ∑ k : Fin a, src (ix2 k q) :=
  (shapeCast_a_1a_apply _ hs u q).trans (colSum_apply src acc h hφ hacc q)

/-- The row of column sums repeated down the rows of an [m, b] array: at (p, q) the sum over k of the array at (k, q). -/
theorem broadcast_keepdimsColSum_apply {a b m : ℕ} {φ : FTy} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ)
    (hs : (⟨1, ![b]⟩ : Shape).ShapeCasts ⟨2, ![1, b]⟩) (hb : (⟨2, ![1, b]⟩ : Shape).Broadcasts ⟨2, ![m, b]⟩) (p : Fin m) (q : Fin b) :
    broadcastTo ⟨2, ![m, b]⟩ (shapeCast ⟨2, ![1, b]⟩ (multiReduction .add [0] ⟨1, ![b]⟩ src acc h hφ hacc) hs) hb (ix2 p q)
      = ∑ k : Fin a, src (ix2 k q) :=
  (broadcastTo_1b_ab_apply _ hb p q).trans (keepdimsColSum_apply src acc h hφ hacc hs 0 q)

end Cert.ColSums

end
-- ==== Proof.KerBody.lean ====
/-
  The kernel body's arithmetic read at one index, on the extended reals.

  Every value the body stores is a function of the values it loaded. Read at an index, with x0, x1 the two blocks of
  embedding rows and l0, l1 the label column and label row of a grid point:
    * the scaled similarities: at (r, s) the sum over d of x0 (r, d) * x1 (s, d), times the reciprocal temperature
      (a product over both last axes into a zero accumulator is the plain sum; the named scale denotes the rational
      134217728 / 9395241);
    * the label indicator: at (r, s) one if l0 (r, 0) = l1 (0, s) and zero otherwise (an equality test widened to a word
      and read as a signed integer is 1 or 0);
    * their exponentials and the indicator-weighted similarities, entry by entry;
    * the running row sums: the old column entry plus the plain sum along the row;
    * the column sums: at (e, s), whatever the row e of the eight, the plain sum down the column s;
    * the closing row term log (a) * b - c, entry by entry; the plain copy; the zero columns.
-/
import proofs.«131299_j43250320671200_2_alg».proof.Proof.Gen.KernelIdeal.Skeleton
import proofs.«131299_j43250320671200_2_alg».proof.Proof.Spec
import proofs.«131299_j43250320671200_2_alg».proof.Proof.LibDenseRows
import proofs.«131299_j43250320671200_2_alg».proof.Proof.LibColumns
import proofs.«131299_j43250320671200_2_alg».proof.Proof.LibColSums
import Idealize.ShloMosaic.Lib.ValueIdx
import Idealize.ShloMosaic.Lib.ValueLayout
import Idealize.ShloMosaic.Lib.Pipeline.Value
import Idealize.ShloMosaic.PureOps.Ideal.Laws
import Idealize.ShloMosaic.PureOps.IdealRules

noncomputable section

open scoped BigOperators

namespace Cert.KernelIdeal.Body

open Idealize.ShloMosaic Idealize.ShloMosaic.ValueIdx Cert.KernelIdeal Cert.KernelIdeal.Gen

/-! ## The named scale and the indicator word -/

/-- The kernel's named scale denotes the reciprocal temperature 134217728 / 9395241. -/
theorem inv_temperature_named :
    Named.named (F := Ideal) κ "inv_temperature" (φ := .f32) 0x41649249#32 = Cert.Spec.invTemperature :=
  IdealRules.named_const.ideal_named_scalar _ _ _ _ rfl

/-- An equality test of two words, widened to 32 bits and read as a signed integer, is 1 where they agree and 0 where
    they differ. -/
theorem indicator_word (a b : BitVec 32) :
    FloatOps.sitofp (F := Ideal) .f32 ((IntOp.cmpi .eq a b).setWidth 32) = if a = b then 1 else 0 := by
  show (((((IntOp.cmpi .eq a b).setWidth 32).toInt : ℤ) : ℝ) : EReal) = _
  by_cases h : a = b
  · subst h
    have h1 : IntOp.cmpi .eq a a = 1#1 := by simp [IntOp.cmpi]
    have h2 : ((1#1 : BitVec 1).setWidth 32).toInt = 1 := by decide
    rw [h1, if_pos rfl, h2]; simp
  · have h1 : IntOp.cmpi .eq a b = 0#1 := by
      show BitVec.ofBool (a == b) = 0#1
      rw [beq_eq_false_iff_ne.mpr h]; rfl
    have h2 : ((0#1 : BitVec 1).setWidth 32).toInt = 0 := by decide
    rw [h1, if_neg h, h2]; simp

/-! ## The similarities and the indicator -/

/-- The product of the two [1024, 768] blocks over their last axes into a zero accumulator, at (r, s): the plain sum. -/
theorem matmul_at (x0 x1 : FVec Ideal S1024x768 .bf16) (r s : Fin 1024) :
    FloatOps.matmul dot_S1024x768_S1024x768_S1024x1024_1_1_0_0_n_n none
        (shapeCast S1024x768 x0 shapeCasts_S1024x768_S1024x768) (shapeCast S1024x768 x1 shapeCasts_S1024x768_S1024x768)
        (constant S1024x1024 .f32 0x00000000#32) (ix2 r s)
      = ∑ d : Fin 768, x0 (ix2 r d) * x1 (ix2 s d) := by
  rw [shapeCast_self, shapeCast_self]
  exact Cert.DenseRows.matmulT_zero_apply none x0 x1 r s

/-- The scaled similarities at (r, s). -/
theorem pay10_apply (x0 x1 : Vec Ideal S1024x768 .bf16) (r s : Fin 1024) :
    k0_pay10 (F := Ideal) x0 x1 (ix2 r s) = (∑ d : Fin 768, x0 (ix2 r d) * x1 (ix2 s d)) * Cert.Spec.invTemperature := by
  unfold k0_pay10
  exact congrArg₂ (· * ·) (matmul_at x0 x1 r s) inv_temperature_named

/-- The label indicator at (r, s): the column entry of row r against the row entry of column s. -/
theorem pay11_apply (l0 : Vec Ideal S1024x1 .i32) (l1 : Vec Ideal S1x1024 .i32) (r s : Fin 1024) :
    k0_pay11 (F := Ideal) l0 l1 (ix2 r s) = if l0 (ix2 r 0) = l1 (ix2 0 s) then 1 else 0 := by
  have e0 : broadcastTo S1024x1024 (shapeCast S1024x1 l0 shapeCasts_S1024x1_S1024x1) broadcasts_S1024x1_S1024x1024 (ix2 r s)
      = l0 (ix2 r 0) := by
    rw [shapeCast_self]; exact Cert.Columns.broadcastTo_a1_ab_apply l0 _ r s
  have e1 : broadcastTo S1024x1024 (shapeCast S1x1024 l1 shapeCasts_S1x1024_S1x1024) broadcasts_S1x1024_S1024x1024 (ix2 r s)
      = l1 (ix2 0 s) := by
    rw [shapeCast_self]; exact broadcastTo_1b_ab_apply l1 _ r s
  refine Eq.trans ?_ (indicator_word (l0 (ix2 r 0)) (l1 (ix2 0 s)))
  unfold k0_pay11
  show FloatOps.sitofp (F := Ideal) .f32
      ((IntOp.cmpi .eq
        (broadcastTo S1024x1024 (shapeCast S1024x1 l0 shapeCasts_S1024x1_S1024x1) broadcasts_S1024x1_S1024x1024 (ix2 r s))
        (broadcastTo S1024x1024 (shapeCast S1x1024 l1 shapeCasts_S1x1024_S1x1024) broadcasts_S1x1024_S1024x1024 (ix2 r s))).setWidth 32) = _
  rw [e0, e1]

/-! ## Row sums kept as a column -/

/-- The running sum of exponentials of row r: the old entry plus the sum along the row. -/
theorem pay14_apply (x0 x1 : Vec Ideal S1024x768 .bf16) (v21 : Vec Ideal S1024x1 .f32) (r : Fin 1024) :
    k0_pay14 (F := Ideal) x0 x1 v21 (ix2 r 0) = v21 (ix2 r 0) + ∑ s : Fin 1024, k0_pay12 (F := Ideal) x0 x1 (ix2 r s) := by
  unfold k0_pay14
  refine (congrFun (shapeCast_self _ _) (ix2 r 0)).trans ?_
  exact congrArg (v21 (ix2 r 0) + ·)
    (Cert.Columns.keepdimsSum_apply (k0_pay12 (F := Ideal) x0 x1) 0x00000000#32 reduces_S1024x1024_S1024 (.inl rfl) rfl
      shapeCasts_S1024_S1024x1 r 0)

/-- The running count of equal labels of row r: the old entry plus the sum of the indicator along the row. -/
theorem pay15_apply (l0 : Vec Ideal S1024x1 .i32) (l1 : Vec Ideal S1x1024 .i32) (v28 : Vec Ideal S1024x1 .f32) (r : Fin 1024) :
    k0_pay15 (F := Ideal) l0 l1 v28 (ix2 r 0) = v28 (ix2 r 0) + ∑ s : Fin 1024, k0_pay11 (F := Ideal) l0 l1 (ix2 r s) := by
  unfold k0_pay15
  exact congrArg (v28 (ix2 r 0) + ·)
    (Cert.Columns.keepdimsSum_apply (k0_pay11 (F := Ideal) l0 l1) 0x00000000#32 reduces_S1024x1024_S1024 (.inl rfl) rfl
      shapeCasts_S1024_S1024x1 r 0)

/-- The running sum of a [1024, 1024] array along row r: the old entry plus the sum along the row. -/
theorem pay2_apply (v20 : FVec Ideal S1024x1024 .f32) (v35 : Vec Ideal S1024x1 .f32) (r : Fin 1024) :
    k0_pay2 (F := Ideal) v20 v35 (ix2 r 0) = v35 (ix2 r 0) + ∑ s : Fin 1024, v20 (ix2 r s) := by
  unfold k0_pay2
  refine (congrFun (shapeCast_self _ _) (ix2 r 0)).trans ?_
  exact congrArg (v35 (ix2 r 0) + ·)
    (Cert.Columns.keepdimsSum_apply v20 0x00000000#32 reduces_S1024x1024_S1024 (.inl rfl) rfl shapeCasts_S1024_S1024x1 r 0)

/-! ## Column sums repeated down eight rows -/

/-- A sum down the first axis, kept as one row and repeated down eight rows, at (e, s): the plain sum down column s. -/
theorem colSums_apply (v : FVec Ideal S1024x1024 .f32) (e : Fin 8) (s : Fin 1024) :
    broadcastTo S8x1024
        (shapeCast S1x1024
          (shapeCast S1x1024 (multiReduction .add [0] S1024 v 0x00000000#32 reduces_S1024x1024_S1024_2 (.inl rfl) rfl)
            shapeCasts_S1024_S1x1024)
          shapeCasts_S1x1024_S1x1024)
        broadcasts_S1x1024_S8x1024 (ix2 e s)
      = ∑ r : Fin 1024, v (ix2 r s) := by
  rw [shapeCast_self]
  exact Cert.ColSums.broadcast_keepdimsColSum_apply v 0x00000000#32 reduces_S1024x1024_S1024_2 (.inl rfl) rfl
    shapeCasts_S1024_S1x1024 broadcasts_S1x1024_S8x1024 e s

theorem pay3_apply (v : FVec Ideal S1024x1024 .f32) (e : Fin 8) (s : Fin 1024) :
    k0_pay3 (F := Ideal) v (ix2 e s) = ∑ r : Fin 1024, v (ix2 r s) := by
  unfold k0_pay3
  exact colSums_apply v e s

theorem pay4_apply (v : FVec Ideal S1024x1024 .f32) (e : Fin 8) (s : Fin 1024) :
    k0_pay4 (F := Ideal) v (ix2 e s) = ∑ r : Fin 1024, v (ix2 r s) := by
  unfold k0_pay4
  exact colSums_apply v e s

theorem pay5_apply (v : FVec Ideal S1024x1024 .f32) (e : Fin 8) (s : Fin 1024) :
    k0_pay5 (F := Ideal) v (ix2 e s) = ∑ r : Fin 1024, v (ix2 r s) := by
  unfold k0_pay5
  exact colSums_apply v e s

/-! ## Entry-by-entry payloads -/

theorem pay1_apply (v : FVec Ideal S1024x1 .f32) (i : S1024x1.Idx) : k0_pay1 (F := Ideal) v i = v i := by
  unfold k0_pay1
  exact congrFun (shapeCast_self v _) i

theorem pay6_apply (v60 v62 v64 : Vec Ideal S1024x1 .f32) (i : S1024x1.Idx) :
    k0_pay6 (F := Ideal) v60 v62 v64 i = Ideal.log (v60 i) * v62 i - v64 i := rfl

theorem pay7_apply (i : S1024x1.Idx) : k0_pay7 (F := Ideal) i = 0 := by
  unfold k0_pay7
  refine (congrFun (shapeCast_self _ _) i).trans ?_
  exact Ideal.ofBits_zero_f32

theorem pay8_apply (i : S1024x1.Idx) : k0_pay8 (F := Ideal) i = 0 := by
  unfold k0_pay8
  refine (congrFun (shapeCast_self _ _) i).trans ?_
  exact Ideal.ofBits_zero_f32

theorem pay9_apply (i : S1024x1.Idx) : k0_pay9 (F := Ideal) i = 0 := by
  unfold k0_pay9
  refine (congrFun (shapeCast_self _ _) i).trans ?_
  exact Ideal.ofBits_zero_f32

theorem pay12_apply (x0 x1 : Vec Ideal S1024x768 .bf16) (r s : Fin 1024) :
    k0_pay12 (F := Ideal) x0 x1 (ix2 r s) = Ideal.exp (k0_pay10 (F := Ideal) x0 x1 (ix2 r s)) := rfl

theorem pay13_apply (x0 x1 : Vec Ideal S1024x768 .bf16) (l0 : Vec Ideal S1024x1 .i32) (l1 : Vec Ideal S1x1024 .i32) (r s : Fin 1024) :
    k0_pay13 (F := Ideal) x0 x1 l0 l1 (ix2 r s) = k0_pay11 (F := Ideal) l0 l1 (ix2 r s) * k0_pay10 (F := Ideal) x0 x1 (ix2 r s) := rfl

end Cert.KernelIdeal.Body

end
-- ==== Proof.KerBlocks.lean ====
/-
  The kernel's blocks: where each window's block sits in its array at each of the sixteen grid points.

  The grid is four row blocks by four column blocks, point t = 4 * (row block) + (column block). At point t the first
  operand's window and the label column's are on row block t / 4, the second operand's and the label row's on block t % 4;
  the loss column's window is on row block t / 4 and is written back at the last point of each row block (t % 4 = 3); the
  three column-sum windows are on block (t / 4, t % 4) of their [32, 4096] arrays and are written back at every point.
  A block's entry sits in its array at (block index) * (block size) + (the coordinate inside the block) on each axis.
  So the input blocks read at an index are the arrays read at the shifted index, the output blocks' entries embed at the
  shifted index, and the written-back blocks cover their arrays.
-/
import proofs.«131299_j43250320671200_2_alg».proof.Proof.Gen.KernelIdeal.Frame
import Idealize.ShloMosaic.Lib.ValueIdx
import Idealize.ShloMosaic.Lib.Pipeline.Value

noncomputable section

namespace Cert.KernelIdeal.Blocks

open Cert.KernelIdeal Cert.KernelIdeal.Gen Idealize.ShloMosaic Idealize.ShloMosaic.TcCoe Idealize.SL.Sem
open Idealize.ShloMosaic.ValueIdx
open Idealize.ShloMosaic.Pipeline (Dat)

variable {F : FTy → Type} [FloatOps F] [Named F]
variable (m : (ℓ : Loc nD τ sig) → Buf (Elt F) ℓ) (c : Dev nD)

/-! ## The grid: sixteen points, four row blocks by four column blocks -/

/-- The array row of row r of the row block of point t. -/
def rowIdx (t : Fin cfg0.N) (r : Fin 1024) : Fin 4096 :=
  ⟨1024 * (t.val / 4) + r.val, by have ht : t.val < 16 := N_0 ▸ t.isLt; have hr := r.isLt; omega⟩

/-- The array column (or second-operand row) of entry s of the column block of point t. -/
def colIdx (t : Fin cfg0.N) (s : Fin 1024) : Fin 4096 :=
  ⟨1024 * (t.val % 4) + s.val, by have hs := s.isLt; omega⟩

/-- The array row of row e of the eight-row block of point t. -/
def rowIdx8 (t : Fin cfg0.N) (e : Fin 8) : Fin 32 :=
  ⟨8 * (t.val / 4) + e.val, by have ht : t.val < 16 := N_0 ▸ t.isLt; have he := e.isLt; omega⟩

theorem rowIdx_val (t : Fin cfg0.N) (r : Fin 1024) : (rowIdx t r).val = 1024 * (t.val / 4) + r.val := rfl
theorem colIdx_val (t : Fin cfg0.N) (s : Fin 1024) : (colIdx t s).val = 1024 * (t.val % 4) + s.val := rfl
theorem rowIdx8_val (t : Fin cfg0.N) (e : Fin 8) : (rowIdx8 t e).val = 8 * (t.val / 4) + e.val := rfl

/-- The printed index maps, decided once over the grid: which block of its array each window is on at point t. -/
theorem idx_facts : ∀ t : Fin cfg0.N,
    win0_0.index t (0 : Fin 2) = t.val / 4 ∧ win0_0.index t (1 : Fin 2) = 0
    ∧ win0_1.index t (0 : Fin 2) = t.val % 4 ∧ win0_1.index t (1 : Fin 2) = 0
    ∧ win0_2.index t (0 : Fin 2) = t.val / 4 ∧ win0_2.index t (1 : Fin 2) = 0
    ∧ win0_3.index t (0 : Fin 2) = 0 ∧ win0_3.index t (1 : Fin 2) = t.val % 4
    ∧ win0_4.index t (0 : Fin 2) = t.val / 4 ∧ win0_4.index t (1 : Fin 2) = 0
    ∧ win0_5.index t (0 : Fin 2) = t.val / 4 ∧ win0_5.index t (1 : Fin 2) = t.val % 4
    ∧ win0_6.index t (0 : Fin 2) = t.val / 4 ∧ win0_6.index t (1 : Fin 2) = t.val % 4
    ∧ win0_7.index t (0 : Fin 2) = t.val / 4 ∧ win0_7.index t (1 : Fin 2) = t.val % 4 :=
  (by decide +kernel : ∀ t : Fin grid0.N, _)

/-! ## The input blocks read at an index -/

/-- Row r of the first operand's block at point t is row rowIdx t r of the array. -/
theorem iblk0_apply (t : Fin cfg0.N) (r : Fin 1024) (d : Fin 768) :
    (iblk m c 0 t : Vec F S1024x768 .bf16) (ix2 r d) = V m c main_v5 (ix2 (rowIdx t r) d) := by
  obtain ⟨e0, e1, -⟩ := idx_facts t
  unfold iblk
  rw [View.read_apply]
  show V m c main_v5 _ = _
  refine congrArg _ ?_
  funext a
  apply Fin.ext
  match a with
  | ⟨0, _⟩ => show win0_0.index t (0 : Fin 2) * 1024 + 1 * r.val = 1024 * (t.val / 4) + r.val; rw [e0]; omega
  | ⟨1, _⟩ => show win0_0.index t (1 : Fin 2) * 768 + 1 * d.val = d.val; rw [e1]; omega

/-- Row s of the second operand's block at point t is row colIdx t s of the array. -/
theorem iblk1_apply (t : Fin cfg0.N) (s : Fin 1024) (d : Fin 768) :
    (iblk m c 1 t : Vec F S1024x768 .bf16) (ix2 s d) = V m c main_v11 (ix2 (colIdx t s) d) := by
  obtain ⟨-, -, e0, e1, -⟩ := idx_facts t
  unfold iblk
  rw [View.read_apply]
  show V m c main_v11 _ = _
  refine congrArg _ ?_
  funext a
  apply Fin.ext
  match a with
  | ⟨0, _⟩ => show win0_1.index t (0 : Fin 2) * 1024 + 1 * s.val = 1024 * (t.val % 4) + s.val; rw [e0]; omega
  | ⟨1, _⟩ => show win0_1.index t (1 : Fin 2) * 768 + 1 * d.val = d.val; rw [e1]; omega

/-- Entry r of the label column's block at point t is entry rowIdx t r of the column. -/
theorem iblk2_apply (t : Fin cfg0.N) (r : Fin 1024) :
    (iblk m c 2 t : Vec F S1024x1 .i32) (ix2 r 0) = V m c main_v12 (ix2 (rowIdx t r) 0) := by
  obtain ⟨-, -, -, -, e0, e1, -⟩ := idx_facts t
  unfold iblk
  rw [View.read_apply]
  show V m c main_v12 _ = _
  refine congrArg _ ?_
  funext a
  apply Fin.ext
  match a with
  | ⟨0, _⟩ => show win0_2.index t (0 : Fin 2) * 1024 + 1 * r.val = 1024 * (t.val / 4) + r.val; rw [e0]; omega
  | ⟨1, _⟩ => show win0_2.index t (1 : Fin 2) * 1 + 1 * 0 = 0; rw [e1]

/-- Entry s of the label row's block at point t is entry colIdx t s of the row. -/
theorem iblk3_apply (t : Fin cfg0.N) (s : Fin 1024) :
    (iblk m c 3 t : Vec F S1x1024 .i32) (ix2 0 s) = V m c main_v13 (ix2 0 (colIdx t s)) := by
  obtain ⟨-, -, -, -, -, -, e0, e1, -⟩ := idx_facts t
  unfold iblk
  rw [View.read_apply]
  show V m c main_v13 _ = _
  refine congrArg _ ?_
  funext a
  apply Fin.ext
  match a with
  | ⟨0, _⟩ => show win0_3.index t (0 : Fin 2) * 1 + 1 * 0 = 0; rw [e0]
  | ⟨1, _⟩ => show win0_3.index t (1 : Fin 2) * 1024 + 1 * s.val = 1024 * (t.val % 4) + s.val; rw [e1]; omega

/-! ## Where an output block's entry sits in its array -/

/-- Entry (r, z) of the loss column's block at point t is entry (rowIdx t r, z) of the column. -/
theorem emb4 (t : Fin cfg0.N) (r : Fin 1024) (z : Fin 1) :
    ((cfg0.win 4).blk t).view.emb (ix2 r z) = ix2 (rowIdx t r) z := by
  obtain ⟨-, -, -, -, -, -, -, -, e0, e1, -⟩ := idx_facts t
  funext a
  apply Fin.ext
  match a with
  | ⟨0, _⟩ => show win0_4.index t (0 : Fin 2) * 1024 + 1 * r.val = 1024 * (t.val / 4) + r.val; rw [e0]; omega
  | ⟨1, _⟩ => show win0_4.index t (1 : Fin 2) * 1 + 1 * z.val = z.val; rw [e1]; omega

/-- Entry (e, s) of the first column-sum block at point t is entry (rowIdx8 t e, colIdx t s) of its array. -/
theorem emb5 (t : Fin cfg0.N) (e : Fin 8) (s : Fin 1024) :
    ((cfg0.win 5).blk t).view.emb (ix2 e s) = ix2 (rowIdx8 t e) (colIdx t s) := by
  obtain ⟨-, -, -, -, -, -, -, -, -, -, e0, e1, -⟩ := idx_facts t
  funext a
  apply Fin.ext
  match a with
  | ⟨0, _⟩ => show win0_5.index t (0 : Fin 2) * 8 + 1 * e.val = 8 * (t.val / 4) + e.val; rw [e0]; omega
  | ⟨1, _⟩ => show win0_5.index t (1 : Fin 2) * 1024 + 1 * s.val = 1024 * (t.val % 4) + s.val; rw [e1]; omega

/-- The same for the second column-sum block. -/
theorem emb6 (t : Fin cfg0.N) (e : Fin 8) (s : Fin 1024) :
    ((cfg0.win 6).blk t).view.emb (ix2 e s) = ix2 (rowIdx8 t e) (colIdx t s) := by
  obtain ⟨-, -, -, -, -, -, -, -, -, -, -, -, e0, e1, -⟩ := idx_facts t
  funext a
  apply Fin.ext
  match a with
  | ⟨0, _⟩ => show win0_6.index t (0 : Fin 2) * 8 + 1 * e.val = 8 * (t.val / 4) + e.val; rw [e0]; omega
  | ⟨1, _⟩ => show win0_6.index t (1 : Fin 2) * 1024 + 1 * s.val = 1024 * (t.val % 4) + s.val; rw [e1]; omega

/-- The same for the third column-sum block. -/
theorem emb7 (t : Fin cfg0.N) (e : Fin 8) (s : Fin 1024) :
    ((cfg0.win 7).blk t).view.emb (ix2 e s) = ix2 (rowIdx8 t e) (colIdx t s) := by
  obtain ⟨-, -, -, -, -, -, -, -, -, -, -, -, -, -, e0, e1⟩ := idx_facts t
  funext a
  apply Fin.ext
  match a with
  | ⟨0, _⟩ => show win0_7.index t (0 : Fin 2) * 8 + 1 * e.val = 8 * (t.val / 4) + e.val; rw [e0]; omega
  | ⟨1, _⟩ => show win0_7.index t (1 : Fin 2) * 1024 + 1 * s.val = 1024 * (t.val % 4) + s.val; rw [e1]; omega

/-! ## The written-back blocks cover their arrays -/

/-- Every entry of the loss column is in the block of the last point of its row block, which writes back. -/
theorem cover4 : ∀ i : S4096x1.Idx, ∃ t : Fin cfg0.N, (cfg0.win 4).flush t = true ∧ i ∈ ((cfg0.win 4).blk t).view.set := by
  intro i
  have hi0 : (i 0).val < 4096 := (i 0).isLt
  have hi1 : (i 1).val < 1 := (i 1).isLt
  have hN : 4 * ((i 0).val / 1024) + 3 < cfg0.N := by show _ < grid0.N; rw [N_0]; omega
  refine ⟨⟨4 * ((i 0).val / 1024) + 3, hN⟩, (flush0_4 _).mpr (by show (4 * ((i 0).val / 1024) + 3) % 4 = 3; omega), ?_⟩
  obtain ⟨-, -, -, -, -, -, -, -, e0, e1, -⟩ := idx_facts ⟨4 * ((i 0).val / 1024) + 3, hN⟩
  have e0' : win0_4.index ⟨4 * ((i 0).val / 1024) + 3, hN⟩ (0 : Fin 2) = (i 0).val / 1024 := by
    rw [e0]; show (4 * ((i 0).val / 1024) + 3) / 4 = _; omega
  show i ∈ ((View.whole main_v14_0).slice (win0_4.rect ⟨4 * ((i 0).val / 1024) + 3, hN⟩)).set
  rw [View.set_slice_whole, Rect.mem_set_unit]
  intro a
  match a with
  | ⟨0, _⟩ =>
    show win0_4.index ⟨4 * ((i 0).val / 1024) + 3, hN⟩ (0 : Fin 2) * 1024 ≤ (i 0).val
      ∧ (i 0).val < win0_4.index ⟨4 * ((i 0).val / 1024) + 3, hN⟩ (0 : Fin 2) * 1024 + 1024
    rw [e0']; omega
  | ⟨1, _⟩ =>
    show win0_4.index ⟨4 * ((i 0).val / 1024) + 3, hN⟩ (1 : Fin 2) * 1 ≤ (i 1).val
      ∧ (i 1).val < win0_4.index ⟨4 * ((i 0).val / 1024) + 3, hN⟩ (1 : Fin 2) * 1 + 1
    rw [e1]; omega

/-- Every entry of the first column-sum array is in the block of the point of its row block and column block; every point writes back. -/
theorem cover5 : ∀ i : S32x4096.Idx, ∃ t : Fin cfg0.N, (cfg0.win 5).flush t = true ∧ i ∈ ((cfg0.win 5).blk t).view.set := by
  intro i
  have hi0 : (i 0).val < 32 := (i 0).isLt
  have hi1 : (i 1).val < 4096 := (i 1).isLt
  have hN : 4 * ((i 0).val / 8) + (i 1).val / 1024 < cfg0.N := by show _ < grid0.N; rw [N_0]; omega
  refine ⟨⟨4 * ((i 0).val / 8) + (i 1).val / 1024, hN⟩, flush0_5 _, ?_⟩
  obtain ⟨-, -, -, -, -, -, -, -, -, -, e0, e1, -⟩ := idx_facts ⟨4 * ((i 0).val / 8) + (i 1).val / 1024, hN⟩
  have e0' : win0_5.index ⟨4 * ((i 0).val / 8) + (i 1).val / 1024, hN⟩ (0 : Fin 2) = (i 0).val / 8 := by
    rw [e0]; show (4 * ((i 0).val / 8) + (i 1).val / 1024) / 4 = _; omega
  have e1' : win0_5.index ⟨4 * ((i 0).val / 8) + (i 1).val / 1024, hN⟩ (1 : Fin 2) = (i 1).val / 1024 := by
    rw [e1]; show (4 * ((i 0).val / 8) + (i 1).val / 1024) % 4 = _; omega
  show i ∈ ((View.whole main_v14_1).slice (win0_5.rect ⟨4 * ((i 0).val / 8) + (i 1).val / 1024, hN⟩)).set
  rw [View.set_slice_whole, Rect.mem_set_unit]
  intro a
  match a with
  | ⟨0, _⟩ =>
    show win0_5.index ⟨4 * ((i 0).val / 8) + (i 1).val / 1024, hN⟩ (0 : Fin 2) * 8 ≤ (i 0).val
      ∧ (i 0).val < win0_5.index ⟨4 * ((i 0).val / 8) + (i 1).val / 1024, hN⟩ (0 : Fin 2) * 8 + 8
    rw [e0']; omega
  | ⟨1, _⟩ =>
    show win0_5.index ⟨4 * ((i 0).val / 8) + (i 1).val / 1024, hN⟩ (1 : Fin 2) * 1024 ≤ (i 1).val
      ∧ (i 1).val < win0_5.index ⟨4 * ((i 0).val / 8) + (i 1).val / 1024, hN⟩ (1 : Fin 2) * 1024 + 1024
    rw [e1']; omega

/-- The same for the second column-sum array. -/
theorem cover6 : ∀ i : S32x4096.Idx, ∃ t : Fin cfg0.N, (cfg0.win 6).flush t = true ∧ i ∈ ((cfg0.win 6).blk t).view.set := by
  intro i
  have hi0 : (i 0).val < 32 := (i 0).isLt
  have hi1 : (i 1).val < 4096 := (i 1).isLt
  have hN : 4 * ((i 0).val / 8) + (i 1).val / 1024 < cfg0.N := by show _ < grid0.N; rw [N_0]; omega
  refine ⟨⟨4 * ((i 0).val / 8) + (i 1).val / 1024, hN⟩, flush0_6 _, ?_⟩
  obtain ⟨-, -, -, -, -, -, -, -, -, -, -, -, e0, e1, -⟩ := idx_facts ⟨4 * ((i 0).val / 8) + (i 1).val / 1024, hN⟩
  have e0' : win0_6.index ⟨4 * ((i 0).val / 8) + (i 1).val / 1024, hN⟩ (0 : Fin 2) = (i 0).val / 8 := by
    rw [e0]; show (4 * ((i 0).val / 8) + (i 1).val / 1024) / 4 = _; omega
  have e1' : win0_6.index ⟨4 * ((i 0).val / 8) + (i 1).val / 1024, hN⟩ (1 : Fin 2) = (i 1).val / 1024 := by
    rw [e1]; show (4 * ((i 0).val / 8) + (i 1).val / 1024) % 4 = _; omega
  show i ∈ ((View.whole main_v14_2).slice (win0_6.rect ⟨4 * ((i 0).val / 8) + (i 1).val / 1024, hN⟩)).set
  rw [View.set_slice_whole, Rect.mem_set_unit]
  intro a
  match a with
  | ⟨0, _⟩ =>
    show win0_6.index ⟨4 * ((i 0).val / 8) + (i 1).val / 1024, hN⟩ (0 : Fin 2) * 8 ≤ (i 0).val
      ∧ (i 0).val < win0_6.index ⟨4 * ((i 0).val / 8) + (i 1).val / 1024, hN⟩ (0 : Fin 2) * 8 + 8
    rw [e0']; omega
  | ⟨1, _⟩ =>
    show win0_6.index ⟨4 * ((i 0).val / 8) + (i 1).val / 1024, hN⟩ (1 : Fin 2) * 1024 ≤ (i 1).val
      ∧ (i 1).val < win0_6.index ⟨4 * ((i 0).val / 8) + (i 1).val / 1024, hN⟩ (1 : Fin 2) * 1024 + 1024
    rw [e1']; omega

/-- The same for the third column-sum array. -/
theorem cover7 : ∀ i : S32x4096.Idx, ∃ t : Fin cfg0.N, (cfg0.win 7).flush t = true ∧ i ∈ ((cfg0.win 7).blk t).view.set := by
  intro i
  have hi0 : (i 0).val < 32 := (i 0).isLt
  have hi1 : (i 1).val < 4096 := (i 1).isLt
  have hN : 4 * ((i 0).val / 8) + (i 1).val / 1024 < cfg0.N := by show _ < grid0.N; rw [N_0]; omega
  refine ⟨⟨4 * ((i 0).val / 8) + (i 1).val / 1024, hN⟩, flush0_7 _, ?_⟩
  obtain ⟨-, -, -, -, -, -, -, -, -, -, -, -, -, -, e0, e1⟩ := idx_facts ⟨4 * ((i 0).val / 8) + (i 1).val / 1024, hN⟩
  have e0' : win0_7.index ⟨4 * ((i 0).val / 8) + (i 1).val / 1024, hN⟩ (0 : Fin 2) = (i 0).val / 8 := by
    rw [e0]; show (4 * ((i 0).val / 8) + (i 1).val / 1024) / 4 = _; omega
  have e1' : win0_7.index ⟨4 * ((i 0).val / 8) + (i 1).val / 1024, hN⟩ (1 : Fin 2) = (i 1).val / 1024 := by
    rw [e1]; show (4 * ((i 0).val / 8) + (i 1).val / 1024) % 4 = _; omega
  show i ∈ ((View.whole main_v14_3).slice (win0_7.rect ⟨4 * ((i 0).val / 8) + (i 1).val / 1024, hN⟩)).set
  rw [View.set_slice_whole, Rect.mem_set_unit]
  intro a
  match a with
  | ⟨0, _⟩ =>
    show win0_7.index ⟨4 * ((i 0).val / 8) + (i 1).val / 1024, hN⟩ (0 : Fin 2) * 8 ≤ (i 0).val
      ∧ (i 0).val < win0_7.index ⟨4 * ((i 0).val / 8) + (i 1).val / 1024, hN⟩ (0 : Fin 2) * 8 + 8
    rw [e0']; omega
  | ⟨1, _⟩ =>
    show win0_7.index ⟨4 * ((i 0).val / 8) + (i 1).val / 1024, hN⟩ (1 : Fin 2) * 1024 ≤ (i 1).val
      ∧ (i 1).val < win0_7.index ⟨4 * ((i 0).val / 8) + (i 1).val / 1024, hN⟩ (1 : Fin 2) * 1024 + 1024
    rw [e1']; omega

end Cert.KernelIdeal.Blocks

end
-- ==== Proof.LibChunkSum.lean ====
/-
  A sum over `a * n` consecutive indices, cut into `a` chunks of `n`.

  In a commutative additive monoid the sum over `Fin (a * n)` is the sum over the chunks `c < a` of the sums over the
  positions `j < n` inside a chunk, position `j` of chunk `c` being index `n * c + j`. Only commutativity and
  associativity of addition are used, so the statement holds on the extended reals at the infinities too. The
  four-chunk corollary is the form a running total takes: start at zero, add the first chunk's sum, then the
  second's, the third's and the fourth's.
-/
import Mathlib.Algebra.BigOperators.Fin
import Mathlib.Logic.Equiv.Fin.Basic

namespace Cert.LibChunkSum

variable {M : Type*} [AddCommMonoid M]

/-- The sum over `Fin (a * n)` chunk by chunk: `col c j` is any spelling of index `n * c + j`. -/
theorem sum_chunks (a n : ℕ) (T : Fin (a * n) → M) (col : Fin a → Fin n → Fin (a * n))
    (hcol : ∀ c j, (col c j).val = n * c.val + j.val) :
    ∑ i, T i = ∑ c : Fin a, ∑ j : Fin n, T (col c j) := by
  rw [← Equiv.sum_comp finProdFinEquiv T, Fintype.sum_prod_type]
  refine Finset.sum_congr rfl fun c _ => Finset.sum_congr rfl fun j _ => congrArg T (Fin.ext ?_)
  rw [hcol]
  show j.val + n * c.val = n * c.val + j.val
  exact Nat.add_comm _ _

/-- A running total over four chunks, started at zero, is the whole sum. -/
theorem running_four (n : ℕ) (T : Fin (4 * n) → M) (col : Fin 4 → Fin n → Fin (4 * n))
    (hcol : ∀ c j, (col c j).val = n * c.val + j.val) :
    (((0 + ∑ j : Fin n, T (col 0 j)) + ∑ j : Fin n, T (col 1 j)) + ∑ j : Fin n, T (col 2 j)) + ∑ j : Fin n, T (col 3 j)
      = ∑ i, T i := by
  rw [sum_chunks 4 n T col hcol, Fin.sum_univ_four, zero_add]

end Cert.LibChunkSum
-- ==== Proof.KerTile.lean ====
/-
  The kernel's tile arithmetic and running vectors as values of the two similarity arrays.

  With the arrays the kernel region reads being the unit rows of the two embedding arrays and the labels, the
  tile at grid point t = 4·i + j holds the logits l(p,q) of rows p in row block i and columns q in column block j.
  The three running vectors after the last point of a grid row are the full sums over all 4096 columns of
  exp l(p,q), of the label indicator and of the indicator times l(p,q); each is accumulated as a running total over
  the four column blocks, which is the whole sum because addition is commutative and associative.
-/
import proofs.«131299_j43250320671200_2_alg».proof.Proof.KerChain
import proofs.«131299_j43250320671200_2_alg».proof.Proof.KerBody
import proofs.«131299_j43250320671200_2_alg».proof.Proof.KerBlocks
import proofs.«131299_j43250320671200_2_alg».proof.Proof.Spec
import proofs.«131299_j43250320671200_2_alg».proof.Proof.LibChunkSum

set_option maxRecDepth 16384

noncomputable section

open Idealize.ShloMosaic Idealize.ShloMosaic.TcCoe Idealize.SL.Sem
open Idealize.ShloMosaic.Pipeline (Dat)

open scoped BigOperators

namespace Cert.KernelIdeal.KerValue

open Cert.KernelIdeal Cert.KernelIdeal.Gen Cert.KernelIdeal.Chain Cert.KernelIdeal.Body Cert.KernelIdeal.Blocks
open Idealize.ShloMosaic.ValueIdx Cert.Spec

variable (m : (ℓ : Loc nD τ sig) → Buf (Elt Ideal) ℓ) (c : Dev nD)
variable (A B : Emb) (L : Lab)

/-- What the region finds in the four arrays its input windows read: the unit rows of the two embedding arrays
    and the labels as a column and as a row. -/
structure Entry : Prop where
  hA : (V m c main_v5 : S4096x768.Idx → EReal) = fun i => unitRow A (i 0) (i 1)
  hB : (V m c main_v11 : S4096x768.Idx → EReal) = fun i => unitRow B (i 0) (i 1)
  hq : (V m c main_v12 : S4096x1.Idx → BitVec 32) = fun i => L (ix1 (i 0))
  hk : (V m c main_v13 : S1x4096.Idx → BitVec 32) = fun i => L (ix1 (i 1))

variable {m c A B L}

/-- The tile's logits are the logits of its rows and columns. -/
theorem tile_logit (h : Entry m c A B L) (t : Fin cfg0.N) (r s : Fin 1024) :
    k0_pay10 (F := Ideal) (iblk m c 0 t) (iblk m c 1 t) (ix2 r s) = logitK A B (rowIdx t r) (colIdx t s) := by
  refine (pay10_apply (iblk m c 0 t) (iblk m c 1 t) r s).trans ?_
  unfold logitK cosSim
  refine congrArg (· * invTemperature) (Finset.sum_congr rfl fun d _ => ?_)
  have e0 : (iblk m c 0 t : Vec Ideal S1024x768 .bf16) (ix2 r d) = unitRow A (rowIdx t r) d :=
    (iblk0_apply m c t r d).trans (congrFun h.hA _)
  have e1 : (iblk m c 1 t : Vec Ideal S1024x768 .bf16) (ix2 s d) = unitRow B (colIdx t s) d :=
    (iblk1_apply m c t s d).trans (congrFun h.hB _)
  rw [e0, e1]

/-- The tile's label indicator is the indicator of its rows and columns. -/
theorem tile_same (h : Entry m c A B L) (t : Fin cfg0.N) (r s : Fin 1024) :
    k0_pay11 (F := Ideal) (iblk m c 2 t) (iblk m c 3 t) (ix2 r s) = same L (rowIdx t r) (colIdx t s) := by
  refine (pay11_apply (iblk m c 2 t) (iblk m c 3 t) r s).trans ?_
  have e2 : (iblk m c 2 t : Vec Ideal S1024x1 .i32) (ix2 r 0) = L (ix1 (rowIdx t r)) :=
    (iblk2_apply m c t r).trans (congrFun h.hq _)
  have e3 : (iblk m c 3 t : Vec Ideal S1x1024 .i32) (ix2 0 s) = L (ix1 (colIdx t s)) :=
    (iblk3_apply m c t s).trans (congrFun h.hk _)
  unfold same
  rw [e2, e3]

/-- A running vector of exponentials grows by the tile's row sums of exp l. -/
theorem rowE_val (h : Entry m c A B L) (t : Fin cfg0.N) (v : Vec Ideal S1024x1 .f32) (r : Fin 1024) :
    rowE m c t v (ix2 r 0) = v (ix2 r 0) + ∑ s : Fin 1024, Ideal.exp (logitK A B (rowIdx t r) (colIdx t s)) := by
  refine (pay14_apply (iblk m c 0 t) (iblk m c 1 t) v r).trans ?_
  refine congrArg (v (ix2 r 0) + ·) (Finset.sum_congr rfl fun s _ => ?_)
  exact (pay12_apply (iblk m c 0 t) (iblk m c 1 t) r s).trans (congrArg Ideal.exp (tile_logit h t r s))

/-- A running vector of counts grows by the tile's row sums of the indicator. -/
theorem rowC_val (h : Entry m c A B L) (t : Fin cfg0.N) (v : Vec Ideal S1024x1 .f32) (r : Fin 1024) :
    rowC m c t v (ix2 r 0) = v (ix2 r 0) + ∑ s : Fin 1024, same L (rowIdx t r) (colIdx t s) := by
  refine (pay1_apply _ _).trans ?_
  refine (pay15_apply (iblk m c 2 t) (iblk m c 3 t) v r).trans ?_
  exact congrArg (v (ix2 r 0) + ·) (Finset.sum_congr rfl fun s _ => tile_same h t r s)

/-- A running vector of weighted logits grows by the tile's row sums of indicator times l. -/
theorem rowS_val (h : Entry m c A B L) (t : Fin cfg0.N) (v : Vec Ideal S1024x1 .f32) (r : Fin 1024) :
    rowS m c t v (ix2 r 0)
      = v (ix2 r 0) + ∑ s : Fin 1024, same L (rowIdx t r) (colIdx t s) * logitK A B (rowIdx t r) (colIdx t s) := by
  refine (pay2_apply (k0_pay13 (F := Ideal) (iblk m c 0 t) (iblk m c 1 t) (iblk m c 2 t) (iblk m c 3 t)) v r).trans ?_
  refine congrArg (v (ix2 r 0) + ·) (Finset.sum_congr rfl fun s _ => ?_)
  refine (pay13_apply (iblk m c 0 t) (iblk m c 1 t) (iblk m c 2 t) (iblk m c 3 t) r s).trans ?_
  rw [tile_same h t r s, tile_logit h t r s]

end Cert.KernelIdeal.KerValue

end
-- ==== Proof.KerRows.lean ====
/-
  The four output arrays of the kernel region after the run, as functions of the two embedding arrays and the labels.

  The row-loss array holds, at row p, log (sum_q exp l(p,q)) * (sum_q same p q) - sum_q same p q * l(p,q).
  Each of the three column-partial arrays has 32 rows in four groups of eight equal rows: every row of group g holds,
  at column q, the sum over the 1024 rows p of row block g of exp l(p,q), of the indicator, and of the indicator
  times l(p,q).
-/
import proofs.«131299_j43250320671200_2_alg».proof.Proof.KerTile

set_option maxRecDepth 16384

noncomputable section

open Idealize.ShloMosaic Idealize.ShloMosaic.TcCoe Idealize.SL.Sem
open Idealize.ShloMosaic.Pipeline (Dat)

open scoped BigOperators

namespace Cert.KernelIdeal.KerValue

open Cert.KernelIdeal Cert.KernelIdeal.Gen Cert.KernelIdeal.Chain Cert.KernelIdeal.Body Cert.KernelIdeal.Blocks
open Idealize.ShloMosaic.ValueIdx Cert.Spec

variable {m : (ℓ : Loc nD τ sig) → Buf (Elt Ideal) ℓ} {c : Dev nD}
variable {A B : Emb} {L : Lab}

/-- The point before `t`. -/
abbrev before (t : Fin cfg0.N) : Fin cfg0.N := ⟨t.val - 1, Nat.lt_of_le_of_lt (Nat.sub_le _ _) t.isLt⟩

/-- Column q of column block k. -/
def colOf (k : Fin 4) (s : Fin 1024) : Fin (4 * 1024) :=
  ⟨1024 * k.val + s.val, by have := k.isLt; have := s.isLt; omega⟩

/-- At the first point of a grid row the three running vectors are zero plus the tile's row sums. -/
theorem acc_val_first (h : Entry m c A B L) (t : Fin cfg0.N) (h0 : t.val % 4 = 0) (r : Fin 1024) :
    (accS m c t).1 (ix2 r 0) = 0 + ∑ s : Fin 1024, Ideal.exp (logitK A B (rowIdx t r) (colIdx t s))
    ∧ (accS m c t).2.1 (ix2 r 0) = 0 + ∑ s : Fin 1024, same L (rowIdx t r) (colIdx t s)
    ∧ (accS m c t).2.2 (ix2 r 0)
        = 0 + ∑ s : Fin 1024, same L (rowIdx t r) (colIdx t s) * logitK A B (rowIdx t r) (colIdx t s) := by
  have h1 : ¬t.val % 4 = 3 := by omega
  rw [acc_first m c t h0 h1]
  refine ⟨?_, ?_, ?_⟩
  · refine (rowE_val h t (k0_pay7 (F := Ideal)) r).trans ?_
    rw [pay7_apply]
  · refine (rowC_val h t (k0_pay8 (F := Ideal)) r).trans ?_
    rw [pay8_apply]
  · refine (rowS_val h t (k0_pay9 (F := Ideal)) r).trans ?_
    rw [pay9_apply]

/-- At a later point of a grid row they are the vectors after the point before plus the tile's row sums. -/
theorem acc_val_step (h : Entry m c A B L) (t : Fin cfg0.N) (h0 : ¬t.val % 4 = 0) (r : Fin 1024) :
    (accS m c t).1 (ix2 r 0)
        = (accS m c (before t)).1 (ix2 r 0) + ∑ s : Fin 1024, Ideal.exp (logitK A B (rowIdx t r) (colIdx t s))
    ∧ (accS m c t).2.1 (ix2 r 0)
        = (accS m c (before t)).2.1 (ix2 r 0) + ∑ s : Fin 1024, same L (rowIdx t r) (colIdx t s)
    ∧ (accS m c t).2.2 (ix2 r 0)
        = (accS m c (before t)).2.2 (ix2 r 0)
          + ∑ s : Fin 1024, same L (rowIdx t r) (colIdx t s) * logitK A B (rowIdx t r) (colIdx t s) := by
  rw [acc_step m c t h0]
  exact ⟨rowE_val h t _ r, rowC_val h t _ r, rowS_val h t _ r⟩

/-- After the last point of a grid row the three vectors hold the sums over all 4096 columns. -/
theorem row_totals (h : Entry m c A B L) (t : Fin cfg0.N) (h3 : t.val % 4 = 3) (r : Fin 1024) :
    (accS m c t).1 (ix2 r 0) = ∑ q : Fin 4096, Ideal.exp (logitK A B (rowIdx t r) q)
    ∧ (accS m c t).2.1 (ix2 r 0) = ∑ q : Fin 4096, same L (rowIdx t r) q
    ∧ (accS m c t).2.2 (ix2 r 0) = ∑ q : Fin 4096, same L (rowIdx t r) q * logitK A B (rowIdx t r) q := by
  have hN : cfg0.N = 16 := N_0
  have hlt : t.val < 16 := lt_of_lt_of_eq t.isLt hN
  have f3 := acc_val_step h t (by omega) r
  have f2 := acc_val_step h (before t) (by show ¬(t.val - 1) % 4 = 0; omega) r
  have f1 := acc_val_step h (before (before t)) (by show ¬(t.val - 1 - 1) % 4 = 0; omega) r
  have f0 := acc_val_first h (before (before (before t))) (by show (t.val - 1 - 1 - 1) % 4 = 0; omega) r
  have r2 : rowIdx (before t) r = rowIdx t r :=
    Fin.ext (by show 1024 * ((t.val - 1) / 4) + r.val = 1024 * (t.val / 4) + r.val; omega)
  have r1 : rowIdx (before (before t)) r = rowIdx t r :=
    Fin.ext (by show 1024 * ((t.val - 1 - 1) / 4) + r.val = 1024 * (t.val / 4) + r.val; omega)
  have r0 : rowIdx (before (before (before t))) r = rowIdx t r :=
    Fin.ext (by show 1024 * ((t.val - 1 - 1 - 1) / 4) + r.val = 1024 * (t.val / 4) + r.val; omega)
  have c3 : ∀ s, colIdx t s = colOf 3 s := fun s =>
    Fin.ext (by show 1024 * (t.val % 4) + s.val = 1024 * 3 + s.val; omega)
  have c2 : ∀ s, colIdx (before t) s = colOf 2 s := fun s =>
    Fin.ext (by show 1024 * ((t.val - 1) % 4) + s.val = 1024 * 2 + s.val; omega)
  have c1 : ∀ s, colIdx (before (before t)) s = colOf 1 s := fun s =>
    Fin.ext (by show 1024 * ((t.val - 1 - 1) % 4) + s.val = 1024 * 1 + s.val; omega)
  have c0 : ∀ s, colIdx (before (before (before t))) s = colOf 0 s := fun s =>
    Fin.ext (by show 1024 * ((t.val - 1 - 1 - 1) % 4) + s.val = 1024 * 0 + s.val; omega)
  simp only [r2, r1, r0, c3, c2, c1, c0] at f3 f2 f1 f0
  refine ⟨?_, ?_, ?_⟩
  · rw [f3.1, f2.1, f1.1, f0.1]
    exact Cert.LibChunkSum.running_four 1024 (fun q : Fin (4 * 1024) => Ideal.exp (logitK A B (rowIdx t r) q)) colOf
      (fun _ _ => rfl)
  · rw [f3.2.1, f2.2.1, f1.2.1, f0.2.1]
    exact Cert.LibChunkSum.running_four 1024 (fun q : Fin (4 * 1024) => same L (rowIdx t r) q) colOf (fun _ _ => rfl)
  · rw [f3.2.2, f2.2.2, f1.2.2, f0.2.2]
    exact Cert.LibChunkSum.running_four 1024
      (fun q : Fin (4 * 1024) => same L (rowIdx t r) q * logitK A B (rowIdx t r) q) colOf (fun _ _ => rfl)

/-- What the last point of a grid row writes into the row-loss block: the row's loss term. -/
theorem rowOut_val (h : Entry m c A B L) (t : Fin cfg0.N) (h3 : t.val % 4 = 3) (r : Fin 1024) (z : Fin 1) :
    (outsAt0 m c t.val t.isLt).1 (ix2 r z) = rowLossK A B L (rowIdx t r) := by
  obtain rfl : z = 0 := Subsingleton.elim _ _
  rw [rowOut_last m c t (by omega) h3]
  obtain ⟨e1, e2, e3⟩ := row_totals h t h3 r
  refine (pay6_apply _ _ _ _).trans ?_
  rw [e1, e2, e3]
  rfl

/-! ## The arrays -/

/-- Row r of row block `e / 8`. -/
def blockRow (e : Fin 32) (r : Fin 1024) : Fin 4096 :=
  ⟨1024 * (e.val / 8) + r.val, by have := e.isLt; have := r.isLt; omega⟩

/-- The row-loss array. -/
def rowLossArr (A B : Emb) (L : Lab) : S4096x1.Idx → EReal := fun i => rowLossK A B L (i 0)
/-- The column partial sums of the exponentials. -/
def colExpArr (A B : Emb) : S32x4096.Idx → EReal :=
  fun i => ∑ r : Fin 1024, Ideal.exp (logitK A B (blockRow (i 0) r) (i 1))
/-- The column partial counts. -/
def colCntArr (L : Lab) : S32x4096.Idx → EReal := fun i => ∑ r : Fin 1024, same L (blockRow (i 0) r) (i 1)
/-- The column partial sums of the weighted logits. -/
def colSumArr (A B : Emb) (L : Lab) : S32x4096.Idx → EReal :=
  fun i => ∑ r : Fin 1024, same L (blockRow (i 0) r) (i 1) * logitK A B (blockRow (i 0) r) (i 1)

theorem blockRow_rowIdx8 (t : Fin cfg0.N) (e : Fin 8) (r : Fin 1024) : blockRow (rowIdx8 t e) r = rowIdx t r :=
  Fin.ext (by show 1024 * ((8 * (t.val / 4) + e.val) / 8) + r.val = 1024 * (t.val / 4) + r.val
              have := e.isLt; omega)

/-- What a point writes back into the row-loss array is its block of that array. -/
theorem flushed4 (h : Entry m c A B L) (t : Fin cfg0.N) (hf : (cfg0.win 4).flush t = true) :
    (dats m 0 c).flushed 4 t = ((cfg0.win 4).blk t).view.read (Elt Ideal) (rowLossArr A B L) := by
  have h3 : t.val % 4 = 3 := (flush0_4 t).mp hf
  show (cfg0.win 4).cut (grid0.coords t) ((dats m 0 c).after 4 t) = _
  rw [after0_4]
  funext j
  obtain ⟨r, z, rfl⟩ : ∃ (r : Fin 1024) (z : Fin 1), j = ix2 r z := ⟨j 0, j 1, eq_ix2 j⟩
  rw [View.read_apply, emb4]
  exact rowOut_val h t h3 r z

/-- What a point writes back into the exponentials' partial array is its block of that array. -/
theorem flushed5 (h : Entry m c A B L) (t : Fin cfg0.N) :
    (dats m 0 c).flushed 5 t = ((cfg0.win 5).blk t).view.read (Elt Ideal) (colExpArr A B) := by
  show (cfg0.win 5).cut (grid0.coords t) ((dats m 0 c).after 5 t) = _
  rw [after0_5, colE m c t]
  funext j
  obtain ⟨e, s, rfl⟩ : ∃ (e : Fin 8) (s : Fin 1024), j = ix2 e s := ⟨j 0, j 1, eq_ix2 j⟩
  rw [View.read_apply, emb5]
  refine (pay3_apply _ e s).trans ?_
  show _ = ∑ r : Fin 1024, Ideal.exp (logitK A B (blockRow (rowIdx8 t e) r) (colIdx t s))
  refine Finset.sum_congr rfl fun r _ => ?_
  rw [blockRow_rowIdx8]
  exact (pay12_apply (iblk m c 0 t) (iblk m c 1 t) r s).trans (congrArg Ideal.exp (tile_logit h t r s))

/-- The same for the counts, -/
theorem flushed6 (h : Entry m c A B L) (t : Fin cfg0.N) :
    (dats m 0 c).flushed 6 t = ((cfg0.win 6).blk t).view.read (Elt Ideal) (colCntArr L) := by
  show (cfg0.win 6).cut (grid0.coords t) ((dats m 0 c).after 6 t) = _
  rw [after0_6, colC m c t]
  funext j
  obtain ⟨e, s, rfl⟩ : ∃ (e : Fin 8) (s : Fin 1024), j = ix2 e s := ⟨j 0, j 1, eq_ix2 j⟩
  rw [View.read_apply, emb6]
  refine (pay4_apply _ e s).trans ?_
  show _ = ∑ r : Fin 1024, same L (blockRow (rowIdx8 t e) r) (colIdx t s)
  refine Finset.sum_congr rfl fun r _ => ?_
  rw [blockRow_rowIdx8]
  exact tile_same h t r s

/-- and for the weighted logits. -/
theorem flushed7 (h : Entry m c A B L) (t : Fin cfg0.N) :
    (dats m 0 c).flushed 7 t = ((cfg0.win 7).blk t).view.read (Elt Ideal) (colSumArr A B L) := by
  show (cfg0.win 7).cut (grid0.coords t) ((dats m 0 c).after 7 t) = _
  rw [after0_7, colS m c t]
  funext j
  obtain ⟨e, s, rfl⟩ : ∃ (e : Fin 8) (s : Fin 1024), j = ix2 e s := ⟨j 0, j 1, eq_ix2 j⟩
  rw [View.read_apply, emb7]
  refine (pay5_apply _ e s).trans ?_
  show _ = ∑ r : Fin 1024, same L (blockRow (rowIdx8 t e) r) (colIdx t s)
      * logitK A B (blockRow (rowIdx8 t e) r) (colIdx t s)
  refine Finset.sum_congr rfl fun r _ => ?_
  rw [blockRow_rowIdx8]
  refine (pay13_apply (iblk m c 0 t) (iblk m c 1 t) (iblk m c 2 t) (iblk m c 3 t) r s).trans ?_
  rw [tile_same h t r s, tile_logit h t r s]

/-- The four arrays after the run. -/
theorem final4 (h : Entry m c A B L) : (dats m 0 c).arrAt 4 cfg0.N = rowLossArr A B L :=
  (dats m 0 c).arrAt_eq_of_cover 4 (rowLossArr A B L) (fun t hf => flushed4 h t hf) cover4
theorem final5 (h : Entry m c A B L) : (dats m 0 c).arrAt 5 cfg0.N = colExpArr A B :=
  (dats m 0 c).arrAt_eq_of_cover 5 (colExpArr A B) (fun t _ => flushed5 h t) cover5
theorem final6 (h : Entry m c A B L) : (dats m 0 c).arrAt 6 cfg0.N = colCntArr L :=
  (dats m 0 c).arrAt_eq_of_cover 6 (colCntArr L) (fun t _ => flushed6 h t) cover6
theorem final7 (h : Entry m c A B L) : (dats m 0 c).arrAt 7 cfg0.N = colSumArr A B L :=
  (dats m 0 c).arrAt_eq_of_cover 7 (colSumArr A B L) (fun t _ => flushed7 h t) cover7

end Cert.KernelIdeal.KerValue

end
-- ==== Proof.LibHostSums.lean ====
/-
  General lemmas: the host's float sums read at an index, over the extended reals.

  * `hostRowSum_apply`: the host's sum of an [a, b] array along its last axis, at p, is the initial value plus the plain sum
    over k of the array at (p, k).
  * `sum_idx1`: a sum over the indices of a one-axis shape is the sum over its coordinate.
  * `hostTotal1_apply`: the host's sum of an [a] vector into a scalar is the initial value plus the sum over its entries.
  * `hostTotal21_apply`: the host's sum of an [a, 1] column over both axes into a scalar is the initial value plus the sum
    over p of the column at (p, 0).
-/
import Idealize.ShloMosaic.Lib.ValueIdx
import Idealize.ShloMosaic.Lib.IdealHost
import Idealize.ShloMosaic.PureOps.Ideal.Laws

noncomputable section

open scoped BigOperators

namespace Cert.HostSums

open Idealize.ShloMosaic Idealize.ShloMosaic.ValueIdx

/-- The host's sum of an [a, b] array along its last axis, from an initial value, at p. -/
theorem hostRowSum_apply {a b : ℕ} {φ : FTy} {u : Shape} (x : FVec Ideal ⟨2, ![a, b]⟩ φ) (init : u.Idx → Ideal φ)
    (h : (⟨2, ![a, b]⟩ : Shape).ReducesTo [1] ⟨1, ![a]⟩) (hu : 0 < u.numel) (p : Fin a) :
    Host.reduceAdd x init h hu (ix1 p) = init (Shape.Idx.first hu) + ∑ k : Fin b, x (ix2 p k) := by
  have hr : (⟨2, ![a, b]⟩ : Shape).Reduces [1] ⟨1, ![a]⟩ := ⟨h.1, Nat.one_pos, h.2⟩
  refine (hostReduceAdd_apply x init h hu (ix1 p)).trans ?_
  refine (Ideal.hostReduceAdd_single h hr x _ (ix1 p)).trans ?_
  refine congrArg (fun s => init (Shape.Idx.first hu) + s) ?_
  refine Finset.sum_congr rfl fun k _ => congrArg x (funext fun c => Fin.ext ?_)
  rw [hr.lift_val]
  match c with
  | ⟨0, _⟩ => rfl
  | ⟨1, _⟩ => rfl

/-- A one-axis shape's indices are its coordinate. -/
def idxEquiv1 {n : ℕ} : (⟨1, ![n]⟩ : Shape).Idx ≃ Fin n where
  toFun i := i 0
  invFun := ix1
  left_inv i := (eq_ix1 i).symm
  right_inv _ := rfl

/-- … so a sum over them is the sum over the coordinate. -/
theorem sum_idx1 {M : Type*} [AddCommMonoid M] {n : ℕ} (f : (⟨1, ![n]⟩ : Shape).Idx → M) : ∑ i, f i = ∑ a : Fin n, f (ix1 a) :=
  (Equiv.sum_comp (idxEquiv1 (n := n)).symm f).symm

/-- The host's sum of an [a] vector into a scalar. -/
theorem hostTotal1_apply {a : ℕ} {φ : FTy} {u : Shape} (x : FVec Ideal ⟨1, ![a]⟩ φ) (init : u.Idx → Ideal φ)
    (h : (⟨1, ![a]⟩ : Shape).ReducesTo [0] ⟨0, ![]⟩) (hu : 0 < u.numel) :
    Host.reduceAdd x init h hu ix0 = init (Shape.Idx.first hu) + ∑ p : Fin a, x (ix1 p) := by
  refine (hostReduceAdd_apply x init h hu ix0).trans ?_
  refine (Ideal.hostReduceAdd_total h (fun b => b.elim0) x _ ix0).trans ?_
  exact congrArg (fun s => init (Shape.Idx.first hu) + s) (sum_idx1 x)

/-- The host's sum of an [a, 1] column over both axes into a scalar. -/
theorem hostTotal21_apply {a : ℕ} {φ : FTy} {u : Shape} (x : FVec Ideal ⟨2, ![a, 1]⟩ φ) (init : u.Idx → Ideal φ)
    (h : (⟨2, ![a, 1]⟩ : Shape).ReducesTo [0, 1] ⟨0, ![]⟩) (hu : 0 < u.numel) :
    Host.reduceAdd x init h hu ix0 = init (Shape.Idx.first hu) + ∑ p : Fin a, x (ix2 p (0 : Fin 1)) := by
  refine (hostReduceAdd_apply x init h hu ix0).trans ?_
  refine (Ideal.hostReduceAdd_total h (fun b => b.elim0) x _ ix0).trans ?_
  refine congrArg (fun s => init (Shape.Idx.first hu) + s) ((sum_idx2 x).trans ?_)
  exact Finset.sum_congr rfl fun p _ => Fin.sum_univ_one _

end Cert.HostSums

end
-- ==== Proof.LibLeadFold.lean ====
/-
  General lemmas for kernels that fold the two leading axes of an [a, b, n] array into one of length m = a · b before a
  matrix product and unfold them afterwards, that take a maximum along the last axis of an array, and that repeat a
  vector of length n over an [a, b, n] array; each read at one index.

  * `shapeCast_abn_mn_apply`: an [a, b, n] array recast as [m, n] reads, at (p · b + q, k), the array at (p, q, k).
  * `shapeCast_mn_abn_apply`: an [m, n] array recast as [a, b, n] reads, at (p, q, k), the array at (p · b + q, k).
  * `shapeCast_abpq_mpq_apply`: an [a, b, p, q] array recast as [m, p, q] reads, at (u · b + v, i, k), the array at (u, v, i, k).
  * `shapeCast_mpq_abpq_apply`: an [m, p, q] array recast as [a, b, p, q] reads, at (u, v, i, k), the array at (u · b + v, i, k).
  * `lastMax3_apply`: at the exact (extended-real) instance, the maximum of an [a, g, n] array along its last axis is,
    at (p, gi), the fold of max from the accumulator's value over k of the array at (p, gi, k).
  * `hostLastMax4_apply`: the host's one-operand reduce with a maximum body along the last axis of an [a, b, c, n]
    array is, at (p, q, r), the fold of max from the initial value over k of the array at (p, q, r, k).
  * `shapeCast_n_11n_apply`: a vector of length n recast as [1, 1, n] reads, at (u, v, k), the vector at k.
  * `broadcastTo_11n_abn_apply`: a [1, 1, n] array repeated over [a, b, n] reads, at (p, q, k), the array at (0, 0, k).
-/
import Idealize.ShloMosaic.Lib.ValueIdx
import Idealize.ShloMosaic.Lib.Pipeline.Value
import Idealize.ShloMosaic.PureOps.Ideal.Laws

noncomputable section

open scoped BigOperators

namespace Cert.LeadFold

open Idealize.ShloMosaic Idealize.ShloMosaic.ValueIdx

variable {α : Type} {a b c g m n : ℕ}

/-- An [a, b, n] array recast as [m, n] (m = a · b): row p · b + q, column k holds the entry at (p, q, k), the two
    indices having one row-major position. -/
theorem shapeCast_abn_mn_apply (x : (⟨3, ![a, b, n]⟩ : Shape).Idx → α) (h : (⟨3, ![a, b, n]⟩ : Shape).ShapeCasts ⟨2, ![m, n]⟩)
    (r : Fin m) (k : Fin n) (p : Fin a) (q : Fin b) (hr : r.val = p.val * b + q.val) :
    shapeCast ⟨2, ![m, n]⟩ x h (ix2 r k) = x (ix3 p q k) :=
  shapeCast_apply x h _ _ (by
    rw [Shape.rowMajor_val_three, Shape.rowMajor_val_two]
    show (p.val * b + q.val) * n + k.val = r.val * n + k.val
    rw [hr])

/-- An [m, n] array recast as [a, b, n] (m = a · b): position (p, q, k) holds the entry at row p · b + q, column k. -/
theorem shapeCast_mn_abn_apply (x : (⟨2, ![m, n]⟩ : Shape).Idx → α) (h : (⟨2, ![m, n]⟩ : Shape).ShapeCasts ⟨3, ![a, b, n]⟩)
    (p : Fin a) (q : Fin b) (k : Fin n) (r : Fin m) (hr : r.val = p.val * b + q.val) :
    shapeCast ⟨3, ![a, b, n]⟩ x h (ix3 p q k) = x (ix2 r k) :=
  shapeCast_apply x h _ _ (by
    rw [Shape.rowMajor_val_two, Shape.rowMajor_val_three]
    show r.val * n + k.val = (p.val * b + q.val) * n + k.val
    rw [hr])

/-- An [a, b, p, q] array recast as [m, p, q] (m = a · b): position (u · b + v, i, k) holds the entry at (u, v, i, k). -/
theorem shapeCast_abpq_mpq_apply {p q : ℕ} (x : (⟨4, ![a, b, p, q]⟩ : Shape).Idx → α)
    (h : (⟨4, ![a, b, p, q]⟩ : Shape).ShapeCasts ⟨3, ![m, p, q]⟩)
    (r : Fin m) (i : Fin p) (k : Fin q) (u : Fin a) (v : Fin b) (hr : r.val = u.val * b + v.val) :
    shapeCast ⟨3, ![m, p, q]⟩ x h (ix3 r i k) = x (ix4 u v i k) :=
  shapeCast_apply x h _ _ (by
    rw [Shape.rowMajor_val_four, Shape.rowMajor_val_three]
    show ((u.val * b + v.val) * p + i.val) * q + k.val = (r.val * p + i.val) * q + k.val
    rw [hr])

/-- An [m, p, q] array recast as [a, b, p, q] (m = a · b): position (u, v, i, k) holds the entry at (u · b + v, i, k). -/
theorem shapeCast_mpq_abpq_apply {p q : ℕ} (x : (⟨3, ![m, p, q]⟩ : Shape).Idx → α)
    (h : (⟨3, ![m, p, q]⟩ : Shape).ShapeCasts ⟨4, ![a, b, p, q]⟩)
    (u : Fin a) (v : Fin b) (i : Fin p) (k : Fin q) (r : Fin m) (hr : r.val = u.val * b + v.val) :
    shapeCast ⟨4, ![a, b, p, q]⟩ x h (ix4 u v i k) = x (ix3 r i k) :=
  shapeCast_apply x h _ _ (by
    rw [Shape.rowMajor_val_three, Shape.rowMajor_val_four]
    show (r.val * p + i.val) * q + k.val = ((u.val * b + v.val) * p + i.val) * q + k.val
    rw [hr])

/-- The maximum of an [a, g, n] array along its last axis, at (p, gi): the fold of max, from the accumulator's value,
    over k of the array at (p, gi, k). -/
theorem lastMax3_apply {φ : FTy} (src : FVec Ideal ⟨3, ![a, g, n]⟩ φ) (acc : BitVec φ.bits)
    (h : (⟨3, ![a, g, n]⟩ : Shape).Reduces [2] ⟨2, ![a, g]⟩) (hφ : FKind.Formats φ) (hacc : acc = FKind.maximumf.neutral φ hφ)
    (p : Fin a) (gi : Fin g) :
    multiReduction .maximumf [2] ⟨2, ![a, g]⟩ src acc h hφ hacc (ix2 p gi)
      = (Finset.univ : Finset (Fin n)).fold max (FloatOps.ofBits φ acc) (fun k => src (ix3 p gi k)) := by
  refine (Ideal.multiReduction_maximumf_single src acc h hφ hacc (ix2 p gi)).trans ?_
  refine congrArg (fun f : Fin n → Ideal φ => (Finset.univ : Finset (Fin n)).fold max (FloatOps.ofBits φ acc) f)
    (funext fun k => congrArg src (funext fun d => Fin.ext ?_))
  rw [h.lift_val]
  match d with
  | ⟨0, _⟩ => rfl
  | ⟨1, _⟩ => rfl
  | ⟨2, _⟩ => rfl

/-- The host's reduce with a maximum body along the last axis of an [a, b, c, n] array, at (p, q, r): the fold of max,
    from the initial value, over k of the array at (p, q, r, k). -/
theorem hostLastMax4_apply {φ : FTy} {u : Shape} (x : FVec Ideal ⟨4, ![a, b, c, n]⟩ φ) (init : FVec Ideal u φ)
    (h' : (⟨4, ![a, b, c, n]⟩ : Shape).ReducesTo [3] ⟨3, ![a, b, c]⟩) (h : (⟨4, ![a, b, c, n]⟩ : Shape).Reduces [3] ⟨3, ![a, b, c]⟩)
    (hu : 0 < u.numel) (p : Fin a) (q : Fin b) (r : Fin c) :
    Host.reduce FloatOps.maximumf x init h' hu (ix3 p q r)
      = (Finset.univ : Finset (Fin n)).fold max (init (Shape.Idx.first hu)) (fun k => x (ix4 p q r k)) := by
  rw [Host.reduce_eq_fold_single FloatOps.maximumf x init h' h hu]
  refine congrArg (fun f : Fin n → Ideal φ => (Finset.univ : Finset (Fin n)).fold max (init (Shape.Idx.first hu)) f)
    (funext fun k => congrArg x (funext fun d => Fin.ext ?_))
  rw [h.lift_val]
  match d with
  | ⟨0, _⟩ => rfl
  | ⟨1, _⟩ => rfl
  | ⟨2, _⟩ => rfl
  | ⟨3, _⟩ => rfl

/-- A vector of length n recast as [1, 1, n] reads, at (u, v, k), the vector at k, whatever the unit coordinates. -/
theorem shapeCast_n_11n_apply (x : (⟨1, ![n]⟩ : Shape).Idx → α) (h : (⟨1, ![n]⟩ : Shape).ShapeCasts ⟨3, ![1, 1, n]⟩)
    (u v : Fin 1) (k : Fin n) : shapeCast ⟨3, ![1, 1, n]⟩ x h (ix3 u v k) = x (ix1 k) :=
  shapeCast_apply x h _ _ (by
    have hu : u.val = 0 := by omega
    have hv : v.val = 0 := by omega
    rw [Shape.rowMajor_val_one, Shape.rowMajor_val_three]
    show k.val = (u.val * 1 + v.val) * n + k.val
    simp [hu, hv])

/-- A [1, 1, n] array repeated over [a, b, n] reads, at (p, q, k), the array at (0, 0, k). -/
theorem broadcastTo_11n_abn_apply (x : (⟨3, ![1, 1, n]⟩ : Shape).Idx → α) (h : (⟨3, ![1, 1, n]⟩ : Shape).Broadcasts ⟨3, ![a, b, n]⟩)
    (p : Fin a) (q : Fin b) (k : Fin n) :
    broadcastTo ⟨3, ![a, b, n]⟩ x h (ix3 p q k) = x (ix3 (0 : Fin 1) (0 : Fin 1) k) := by
  refine broadcastTo_apply x h (ix3 p q k) (ix3 (0 : Fin 1) (0 : Fin 1) k) fun ax => ?_
  match ax with
  | ⟨0, _⟩ => rfl
  | ⟨1, _⟩ => rfl
  | ⟨2, _⟩ =>
    show k.val = if n = 1 then 0 else k.val
    split
    · have := k.isLt; omega
    · rfl

end Cert.LeadFold

end
-- ==== Proof.KerHost.lean ====
/-
  The host operations of the exact-arithmetic kernel program around its one kernel region, read at an index.

  Before the region the program scales every row of the two embedding arrays to unit length — the row's sum of squares
  along the last axis, its square root, the larger of that and a floor word, the quotient — and recasts the label vector
  as a column and as a row. After the region it averages the region's 4096 row terms, forms per column q
      log (sum_g E(8g, q)) * (sum_g C(8g, q)) - sum_g S(8g, q)
  from rows 0, 8, 16, 24 of the region's three [32, 4096] arrays, averages those 4096 column terms, and halves the sum
  of the two averages.
-/
import proofs.«131299_j43250320671200_2_alg».proof.Proof.Gen.KernelIdeal.Frame.Runs
import proofs.«131299_j43250320671200_2_alg».proof.Proof.Spec
import proofs.«131299_j43250320671200_2_alg».proof.Proof.LibHostSums
import proofs.«131299_j43250320671200_2_alg».proof.Proof.LibLeadFold
import Idealize.ShloMosaic.Lib.StableHlo.Run
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws

noncomputable section

open scoped BigOperators

namespace Cert.KernelIdeal.Host

open Idealize.ShloMosaic Idealize.ShloMosaic.TcCoe Idealize.ShloMosaic.ValueIdx Idealize.ShloMosaic.StableHlo
open Cert.KernelIdeal Cert.KernelIdeal.Gen

/-! ## General: the host's sum of an [a, b] array along its FIRST axis -/

/-- The host's sum of an [a, b] array along its first axis, from an initial value, at q: the initial value plus the
    plain sum over k of the array at (k, q). -/
theorem hostColSum_apply {a b : ℕ} {φ : FTy} {u : Shape} (x : FVec Ideal ⟨2, ![a, b]⟩ φ) (init : u.Idx → Ideal φ)
    (h : (⟨2, ![a, b]⟩ : Shape).ReducesTo [0] ⟨1, ![b]⟩) (hu : 0 < u.numel) (q : Fin b) :
    Host.reduceAdd x init h hu (ix1 q) = init (Shape.Idx.first hu) + ∑ k : Fin a, x (ix2 k q) := by
  have hr : (⟨2, ![a, b]⟩ : Shape).Reduces [0] ⟨1, ![b]⟩ := ⟨h.1, Nat.one_pos, h.2⟩
  refine (hostReduceAdd_apply x init h hu (ix1 q)).trans ?_
  refine (Ideal.hostReduceAdd_single h hr x _ (ix1 q)).trans ?_
  refine congrArg (fun s => init (Shape.Idx.first hu) + s) ?_
  refine Finset.sum_congr rfl fun k _ => congrArg x (funext fun c => Fin.ext ?_)
  rw [hr.lift_val]
  match c with
  | ⟨0, _⟩ => rfl
  | ⟨1, _⟩ => rfl

/-! ## Before the region: the unit rows -/

/-- The Euclidean norm of every row, as a column: the square root of the host's sum of squares along the last axis. -/
def normCol (A : FVec Ideal S4096x768 .f32) : FVec Ideal S4096x1 .f32 :=
  Host.sqrt (broadcastInDim S4096x1 ![0] bcast_S4096_S4096x1_0
    (Host.reduceAdd (mulf A A) (constant (F := Ideal) S_ .f32 0x00000000#32) reducesTo_S4096x768_S4096_d1 h_S_))

/-- Every row divided by the larger of its norm and the floor. -/
def unitArr (A : FVec Ideal S4096x768 .f32) : FVec Ideal S4096x768 .bf16 :=
  truncf .bf16 (Host.divf A (broadcastInDim S4096x768 ![0, 1] bcast_S4096x1_S4096x768_0_1
    (maximumf (normCol A) (broadcastInDim S4096x1 ![] bcast_S_S4096x1 (constant (F := Ideal) S_ .f32 0x322BCC77#32))))) bitsLt_bf16_f32

/-- The norm column at row p: the square root of the plain sum of squares of the row. -/
theorem normCol_apply (A : FVec Ideal S4096x768 .f32) (p : Fin 4096) (u : Fin 1) :
    normCol A (ix2 p u) = Ideal.sqrt (∑ d : Fin 768, A (ix2 p d) * A (ix2 p d)) := by
  unfold normCol
  show Ideal.sqrt (broadcastInDim (s := S4096) S4096x1 ![0] bcast_S4096_S4096x1_0 _ (ix2 p u)) = _
  refine congrArg Ideal.sqrt ?_
  refine (broadcastInDim_apply ![0] bcast_S4096_S4096x1_0 _ (ix2 p u) (ix1 p) (fun a => ?_)).trans ?_
  · match a with
    | ⟨0, _⟩ => show p.val = if (4096 : ℕ) = 1 then 0 else p.val; rw [if_neg (by decide)]
  refine (Cert.HostSums.hostRowSum_apply (mulf A A) _ reducesTo_S4096x768_S4096_d1 h_S_ p).trans ?_
  show Ideal.ofBits .f32 0x00000000#32 + ∑ d : Fin 768, A (ix2 p d) * A (ix2 p d) = _
  rw [Ideal.ofBits_zero_f32, zero_add]

/-- The scaled array at (p, d) is the specification's unit row. -/
theorem unitArr_apply (A : FVec Ideal S4096x768 .f32) (p : Fin 4096) (d : Fin 768) :
    unitArr A (ix2 p d) = Cert.Spec.unitRow A p d := by
  unfold unitArr Cert.Spec.unitRow Cert.Spec.rowNorm
  show Ideal.div (A (ix2 p d)) (broadcastInDim (s := S4096x1) S4096x768 ![0, 1] bcast_S4096x1_S4096x768_0_1 _ (ix2 p d)) = _
  refine congrArg (Ideal.div (A (ix2 p d))) ?_
  refine (broadcastInDim_apply ![0, 1] bcast_S4096x1_S4096x768_0_1 _ (ix2 p d) (ix2 p (0 : Fin 1)) (fun a => ?_)).trans ?_
  · match a with
    | ⟨0, _⟩ => show p.val = if (4096 : ℕ) = 1 then 0 else p.val; rw [if_neg (by decide)]
    | ⟨1, _⟩ => show (0 : ℕ) = if (1 : ℕ) = 1 then 0 else d.val; rw [if_pos rfl]
  show max (normCol A (ix2 p 0)) (broadcastInDim S4096x1 ![] bcast_S_S4096x1 (constant (F := Ideal) S_ .f32 0x322BCC77#32) (ix2 p 0)) = _
  rw [normCol_apply, broadcastInDim_scalar_apply]
  rfl

variable (m : (ℓ : Loc nD τ sig) → Buf (Elt Ideal) ℓ) (c : Dev nD)

attribute [local irreducible] Host.reduceAdd in
theorem V_v5_term : (V m c main_v5 : S4096x768.Idx → EReal)
    = unitArr (m ((c : Thread nD τ).loc main_arg0) : S4096x768.Idx → EReal) := by
  dsimp only [Gen.V, Gen.V0]
  simp only [Gen.hostOps0, Gen.hostOps0_1, Gen.hostOps0_2, Gen.hostOps0_3, List.flatten_cons, List.flatten_nil, List.append_nil,
    List.cons_append, List.nil_append]
  after_results
  rfl

attribute [local irreducible] Host.reduceAdd in
theorem V_v11_term : (V m c main_v11 : S4096x768.Idx → EReal)
    = unitArr (m ((c : Thread nD τ).loc main_arg1) : S4096x768.Idx → EReal) := by
  dsimp only [Gen.V, Gen.V0]
  simp only [Gen.hostOps0, Gen.hostOps0_1, Gen.hostOps0_2, Gen.hostOps0_3, List.flatten_cons, List.flatten_nil, List.append_nil,
    List.cons_append, List.nil_append]
  after_results
  rfl

theorem V_v12_term : (V m c main_v12 : S4096x1.Idx → BitVec 32)
    = shapeCast S4096x1 (m ((c : Thread nD τ).loc main_arg2) : S4096.Idx → BitVec 32) shapeCasts_S4096_S4096x1 := by
  dsimp only [Gen.V, Gen.V0]
  simp only [Gen.hostOps0, Gen.hostOps0_1, Gen.hostOps0_2, Gen.hostOps0_3, List.flatten_cons, List.flatten_nil, List.append_nil,
    List.cons_append, List.nil_append]
  after_results
  rfl

theorem V_v13_term : (V m c main_v13 : S1x4096.Idx → BitVec 32)
    = shapeCast S1x4096 (m ((c : Thread nD τ).loc main_arg2) : S4096.Idx → BitVec 32) shapeCasts_S4096_S1x4096 := by
  dsimp only [Gen.V, Gen.V0]
  simp only [Gen.hostOps0, Gen.hostOps0_1, Gen.hostOps0_2, Gen.hostOps0_3, List.flatten_cons, List.flatten_nil, List.append_nil,
    List.cons_append, List.nil_append]
  after_results
  rfl

/-- The first array the region reads: the unit rows of the first embedding array. -/
theorem V_v5 : (V m c main_v5 : S4096x768.Idx → EReal)
    = fun i => Cert.Spec.unitRow (m ((c : Thread nD τ).loc main_arg0) : S4096x768.Idx → EReal) (i 0) (i 1) := by
  rw [V_v5_term]
  funext i
  exact (congrArg (unitArr _) (eq_ix2 i)).trans (unitArr_apply _ (i 0) (i 1))

/-- The second array the region reads: the unit rows of the second embedding array. -/
theorem V_v11 : (V m c main_v11 : S4096x768.Idx → EReal)
    = fun i => Cert.Spec.unitRow (m ((c : Thread nD τ).loc main_arg1) : S4096x768.Idx → EReal) (i 0) (i 1) := by
  rw [V_v11_term]
  funext i
  exact (congrArg (unitArr _) (eq_ix2 i)).trans (unitArr_apply _ (i 0) (i 1))

/-- The labels as a column: row p holds label p. -/
theorem V_v12 : (V m c main_v12 : S4096x1.Idx → BitVec 32)
    = fun i => (m ((c : Thread nD τ).loc main_arg2) : S4096.Idx → BitVec 32) (ix1 (i 0)) := by
  rw [V_v12_term]
  funext i
  refine shapeCast_apply _ shapeCasts_S4096_S4096x1 i (ix1 (i 0)) ?_
  rw [Shape.rowMajor_val_one, Shape.rowMajor_val_two]
  show (i 0).val = (i 0).val * 1 + (i 1).val
  have := idx2_lt1 i
  omega

/-- The labels as a row: column q holds label q. -/
theorem V_v13 : (V m c main_v13 : S1x4096.Idx → BitVec 32)
    = fun i => (m ((c : Thread nD τ).loc main_arg2) : S4096.Idx → BitVec 32) (ix1 (i 1)) := by
  rw [V_v13_term]
  funext i
  refine shapeCast_apply _ shapeCasts_S4096_S1x4096 i (ix1 (i 1)) ?_
  rw [Shape.rowMajor_val_one, Shape.rowMajor_val_two]
  show (i 1).val = (i 0).val * 4096 + (i 1).val
  have := idx2_lt0 i
  omega

/-! ## After the region: the average of the row terms and of the column terms, halved -/

/-- Row 8·g of a 32-row array: the first row of the g-th group of eight. -/
def row8 (g : Fin 4) : Fin 32 := ⟨8 * g.val, by have := g.isLt; omega⟩

theorem row8_val (g : Fin 4) : (row8 g).val = 8 * g.val := rfl

/-- Rows 0, 8, 16, 24 of a [32, 4096] array as a [4, 4096] array: the rows split into four groups of eight, the first
    of each group kept. -/
def rows4 (X : FVec Ideal S32x4096 .f32) : FVec Ideal S4x4096 .f32 :=
  shapeCast S4x4096 (extractStridedSlice S4x1x4096 ![0, 0, 0] (shapeCast S4x8x4096 X shapeCasts_S32x4096_S4x8x4096)
    slices_S4x8x4096_S4x1x4096_0_0_0) shapeCasts_S4x1x4096_S4x4096

/-- The host's sum of those four rows, per column. -/
def colSum4 (X : FVec Ideal S32x4096 .f32) : FVec Ideal S4096 .f32 :=
  Host.reduceAdd (rows4 X) (constant (F := Ideal) S_ .f32 0x00000000#32) reducesTo_S4x4096_S4096_d0 h_S_

/-- The operations after the region, composed: from the region's row terms R and its three per-column arrays. -/
def tailArr (R : FVec Ideal S4096x1 .f32) (CE CC CS : FVec Ideal S32x4096 .f32) : FVec Ideal S_ .f32 :=
  Host.divf
    (addf
      (Host.divf (Host.reduceAdd R (constant (F := Ideal) S_ .f32 0x00000000#32) reducesTo_S4096x1_S_d0_1 h_S_)
        (constant (F := Ideal) S_ .f32 0x45800000#32))
      (Host.divf
        (Host.reduceAdd (subf (mulf (Host.log (colSum4 CE)) (colSum4 CC)) (colSum4 CS))
          (constant (F := Ideal) S_ .f32 0x00000000#32) reducesTo_S4096_S_d0 h_S_)
        (constant (F := Ideal) S_ .f32 0x45800000#32)))
    (constant (F := Ideal) S_ .f32 0x40000000#32)

/-- The same as one number. -/
def tailLoss (R : S4096x1.Idx → EReal) (CE CC CS : S32x4096.Idx → EReal) : EReal :=
  Ideal.div
    (Ideal.div (∑ p : Fin 4096, R (ix2 p (0 : Fin 1))) Cert.Spec.count
      + Ideal.div (∑ q : Fin 4096, (Ideal.log (∑ g : Fin 4, CE (ix2 (row8 g) q)) * (∑ g : Fin 4, CC (ix2 (row8 g) q))
          - ∑ g : Fin 4, CS (ix2 (row8 g) q))) Cert.Spec.count)
    Cert.Spec.two

/-- The four kept rows at (g, q): row 8·g of the array, at column q. -/
theorem rows4_apply (X : FVec Ideal S32x4096 .f32) (g : Fin 4) (q : Fin 4096) :
    rows4 X (ix2 g q) = X (ix2 (row8 g) q) := by
  unfold rows4
  refine (Cert.LeadFold.shapeCast_abn_mn_apply _ shapeCasts_S4x1x4096_S4x4096 g q g (0 : Fin 1) (by show g.val = g.val * 1 + 0; omega)).trans ?_
  refine (extractStridedSlice_apply ![0, 0, 0] _ slices_S4x8x4096_S4x1x4096_0_0_0 (ix3 g (0 : Fin 1) q) (ix3 g (0 : Fin 8) q) (fun a => ?_)).trans ?_
  · match a with
    | ⟨0, _⟩ => exact (Nat.zero_add _).symm
    | ⟨1, _⟩ => rfl
    | ⟨2, _⟩ => exact (Nat.zero_add _).symm
  exact Cert.LeadFold.shapeCast_mn_abn_apply X shapeCasts_S32x4096_S4x8x4096 g (0 : Fin 8) q (row8 g) (by show 8 * g.val = g.val * 8 + 0; omega)

/-- The column sums at q: the plain sum of the four kept rows there. -/
theorem colSum4_apply (X : FVec Ideal S32x4096 .f32) (q : Fin 4096) :
    colSum4 X (ix1 q) = ∑ g : Fin 4, X (ix2 (row8 g) q) := by
  unfold colSum4
  refine (hostColSum_apply (rows4 X) _ reducesTo_S4x4096_S4096_d0 h_S_ q).trans ?_
  show Ideal.ofBits .f32 0x00000000#32 + ∑ g : Fin 4, rows4 X (ix2 g q) = _
  rw [Ideal.ofBits_zero_f32, zero_add]
  exact Finset.sum_congr rfl fun g _ => rows4_apply X g q

/-- The composed operations at the scalar's one index are the one number. -/
theorem tailArr_apply (R : FVec Ideal S4096x1 .f32) (CE CC CS : FVec Ideal S32x4096 .f32) (j : S_.Idx) :
    tailArr R CE CC CS j = tailLoss R CE CC CS := by
  obtain rfl := eq_ix0 j
  have e1 : Host.reduceAdd R (constant (F := Ideal) S_ .f32 0x00000000#32) reducesTo_S4096x1_S_d0_1 h_S_ ix0
      = ∑ p : Fin 4096, R (ix2 p (0 : Fin 1)) := by
    refine (Cert.HostSums.hostTotal21_apply R _ reducesTo_S4096x1_S_d0_1 h_S_).trans ?_
    show Ideal.ofBits .f32 0x00000000#32 + _ = _
    rw [Ideal.ofBits_zero_f32, zero_add]
  have e2 : Host.reduceAdd (subf (mulf (Host.log (colSum4 CE)) (colSum4 CC)) (colSum4 CS))
        (constant (F := Ideal) S_ .f32 0x00000000#32) reducesTo_S4096_S_d0 h_S_ ix0
      = ∑ q : Fin 4096, (Ideal.log (∑ g : Fin 4, CE (ix2 (row8 g) q)) * (∑ g : Fin 4, CC (ix2 (row8 g) q))
          - ∑ g : Fin 4, CS (ix2 (row8 g) q)) := by
    refine (Cert.HostSums.hostTotal1_apply _ _ reducesTo_S4096_S_d0 h_S_).trans ?_
    show Ideal.ofBits .f32 0x00000000#32 + _ = _
    rw [Ideal.ofBits_zero_f32, zero_add]
    refine Finset.sum_congr rfl fun q _ => ?_
    show Ideal.log (colSum4 CE (ix1 q)) * colSum4 CC (ix1 q) - colSum4 CS (ix1 q) = _
    rw [colSum4_apply, colSum4_apply, colSum4_apply]
  unfold tailArr tailLoss
  show Ideal.div (Ideal.div (Host.reduceAdd R _ reducesTo_S4096x1_S_d0_1 h_S_ ix0) (Ideal.ofBits .f32 0x45800000#32)
      + Ideal.div (Host.reduceAdd (subf (mulf (Host.log (colSum4 CE)) (colSum4 CC)) (colSum4 CS)) _ reducesTo_S4096_S_d0 h_S_ ix0)
          (Ideal.ofBits .f32 0x45800000#32)) (Ideal.ofBits .f32 0x40000000#32) = _
  rw [e1, e2]
  rfl

attribute [local irreducible] Host.reduceAdd in
/-- The result buffer after the operations that follow the region, from ANY contents W at their start: the composed
    operations over what W holds at the region's four result arrays. -/
theorem tail_term (W : Valuation τ sig (Elt Ideal)) :
    (StableHlo.after (hostOps1 (F := Ideal)) W (Proc.devRef .tc main_v35) : S_.Idx → EReal)
      = tailArr (W (Proc.devRef .tc main_v14_0)) (W (Proc.devRef .tc main_v14_1)) (W (Proc.devRef .tc main_v14_2))
          (W (Proc.devRef .tc main_v14_3)) := by
  after_results_simp
  rfl

/-- The same as one number at every index of the scalar. -/
theorem tail_value (W : Valuation τ sig (Elt Ideal)) :
    (StableHlo.after (hostOps1 (F := Ideal)) W (Proc.devRef .tc main_v35) : S_.Idx → EReal)
      = fun _ => tailLoss (W (Proc.devRef .tc main_v14_0)) (W (Proc.devRef .tc main_v14_1)) (W (Proc.devRef .tc main_v14_2))
          (W (Proc.devRef .tc main_v14_3)) := by
  rw [tail_term]
  funext j
  exact tailArr_apply _ _ _ _ j

/-- The one stretch of operations after the region, flattened, is itself. -/
theorem flatten_tail : ([hostOps1 (F := Ideal)] : List (List (HloOp τ sig (Elt Ideal)))).flatten = hostOps1 := by
  simp only [List.flatten_cons, List.flatten_nil, List.append_nil]

end Cert.KernelIdeal.Host

end
-- ==== Proof.KerTail.lean ====
/-
  The operations after the kernel region, applied to the region's four result arrays, give the specification's kernel loss.

  The region leaves the 4096 row terms as a column, and for each of its four blocks of 1024 rows a partial column sum in
  rows 0, 8, 16, 24 of three [32, 4096] arrays: of exp l(p, q), of the indicator, and of indicator times l(p, q), over the
  rows p of the block. Adding the four partial sums gives the sums over all 4096 rows (a sum over 4 * 1024 consecutive
  indices cut into 4 chunks; only commutativity and associativity of addition on the extended reals), so each column
  term is the specification's, and the two averages and the halving are the specification's.
-/
import proofs.«131299_j43250320671200_2_alg».proof.Proof.KerHost
import proofs.«131299_j43250320671200_2_alg».proof.Proof.LibChunkSum
import proofs.«131299_j43250320671200_2_alg».proof.Proof.Spec

noncomputable section

open scoped BigOperators

namespace Cert.KernelIdeal.Host

open Idealize.ShloMosaic Idealize.ShloMosaic.ValueIdx
open Cert.KernelIdeal

/-- Row r of the g-th block of 1024 rows. -/
def rowOfBlock (g : Fin 4) (r : Fin 1024) : Fin 4096 := ⟨1024 * g.val + r.val, by have := g.isLt; have := r.isLt; omega⟩

theorem rowOfBlock_val (g : Fin 4) (r : Fin 1024) : (rowOfBlock g r).val = 1024 * g.val + r.val := rfl

/-- The sum over the four blocks of the sums over a block's 1024 rows is the sum over all 4096 rows. -/
theorem sum_blocks (T : Fin 4096 → EReal) : ∑ g : Fin 4, ∑ r : Fin 1024, T (rowOfBlock g r) = ∑ p : Fin 4096, T p :=
  (Cert.LibChunkSum.sum_chunks 4 1024 (T : Fin (4 * 1024) → EReal) (rowOfBlock : Fin 4 → Fin 1024 → Fin (4 * 1024))
    (fun g r => rowOfBlock_val g r)).symm

/-- The tail of the region's four result arrays is the specification's kernel loss. -/
theorem tailLoss_eq (A B : Cert.Spec.Emb) (L : Cert.Spec.Lab) (R : S4096x1.Idx → EReal) (CE CC CS : S32x4096.Idx → EReal)
    (hR : ∀ p : Fin 4096, R (ix2 p (0 : Fin 1)) = Cert.Spec.rowLossK A B L p)
    (hCE : ∀ (g : Fin 4) (q : Fin 4096), CE (ix2 (row8 g) q) = ∑ r : Fin 1024, Ideal.exp (Cert.Spec.logitK A B (rowOfBlock g r) q))
    (hCC : ∀ (g : Fin 4) (q : Fin 4096), CC (ix2 (row8 g) q) = ∑ r : Fin 1024, Cert.Spec.same L (rowOfBlock g r) q)
    (hCS : ∀ (g : Fin 4) (q : Fin 4096), CS (ix2 (row8 g) q)
      = ∑ r : Fin 1024, Cert.Spec.same L (rowOfBlock g r) q * Cert.Spec.logitK A B (rowOfBlock g r) q) :
    tailLoss R CE CC CS = Cert.Spec.kernelLoss A B L := by
  have hrow : ∑ p : Fin 4096, R (ix2 p (0 : Fin 1)) = ∑ p : Fin 4096, Cert.Spec.rowLossK A B L p :=
    Finset.sum_congr rfl fun p _ => hR p
  have hcol : ∀ q : Fin 4096,
      Ideal.log (∑ g : Fin 4, CE (ix2 (row8 g) q)) * (∑ g : Fin 4, CC (ix2 (row8 g) q)) - ∑ g : Fin 4, CS (ix2 (row8 g) q)
        = Cert.Spec.colLossK A B L q := by
    intro q
    have eCE : ∑ g : Fin 4, CE (ix2 (row8 g) q) = ∑ p : Fin 4096, Ideal.exp (Cert.Spec.logitK A B p q) :=
      (Finset.sum_congr rfl fun g _ => hCE g q).trans (sum_blocks fun p => Ideal.exp (Cert.Spec.logitK A B p q))
    have eCC : ∑ g : Fin 4, CC (ix2 (row8 g) q) = ∑ p : Fin 4096, Cert.Spec.same L p q :=
      (Finset.sum_congr rfl fun g _ => hCC g q).trans (sum_blocks fun p => Cert.Spec.same L p q)
    have eCS : ∑ g : Fin 4, CS (ix2 (row8 g) q) = ∑ p : Fin 4096, Cert.Spec.same L p q * Cert.Spec.logitK A B p q :=
      (Finset.sum_congr rfl fun g _ => hCS g q).trans (sum_blocks fun p => Cert.Spec.same L p q * Cert.Spec.logitK A B p q)
    rw [eCE, eCC, eCS]
    rfl
  unfold tailLoss Cert.Spec.kernelLoss
  rw [hrow, Finset.sum_congr rfl fun q _ => hcol q]

end Cert.KernelIdeal.Host

end
-- ==== Proof.KerRun.lean ====
/-
  The kernel program's run with its result named: the scalar it returns is the kernel's loss of the specification.

  After the region the program averages the row-loss array, takes row 0 of each group of eight rows of the three
  column-partial arrays, adds the four groups, forms log(sum of exponentials) * count - weighted sum per column,
  averages, and halves the sum of the two averages. With the four arrays as the region leaves them this is
  the kernel's loss.
-/
import proofs.«131299_j43250320671200_2_alg».proof.Proof.KerRows
import proofs.«131299_j43250320671200_2_alg».proof.Proof.KerHost
import proofs.«131299_j43250320671200_2_alg».proof.Proof.KerTail

set_option maxRecDepth 16384

noncomputable section

open Idealize.ShloMosaic Idealize.ShloMosaic.TcCoe Idealize.SL.Sem
open Idealize.ShloMosaic.Pipeline (Dat)

open scoped BigOperators

namespace Cert.KernelIdeal.KerValue

open Cert.KernelIdeal Cert.KernelIdeal.Gen Cert.KernelIdeal.Blocks Cert.KernelIdeal.Host
open Idealize.ShloMosaic.ValueIdx Cert.Spec

variable (m : (ℓ : Loc nD τ sig) → Buf (Elt Ideal) ℓ) (ρ : Dev nD → PrngReg) (c : Dev nD)

/-- The first embedding array as launched. -/
abbrev argA : Emb := m ((c : Thread nD τ).loc main_arg0)
/-- The second embedding array as launched. -/
abbrev argB : Emb := m ((c : Thread nD τ).loc main_arg1)
/-- The labels as launched. -/
abbrev argL : Lab := m ((c : Thread nD τ).loc main_arg2)

/-- The host operations before the region leave the unit rows and the labels where the region's windows read. -/
theorem entry : Entry m c (argA m c) (argB m c) (argL m c) := ⟨V_v5 m c, V_v11 m c, V_v12 m c, V_v13 m c⟩

theorem blockRow_row8 (g : Fin 4) (r : Fin 1024) : blockRow (row8 g) r = rowOfBlock g r :=
  Fin.ext (by show 1024 * ((8 * g.val) / 8) + r.val = 1024 * g.val + r.val; omega)

/-- The host operations after the region, applied to the four arrays the region leaves, give the kernel's loss. -/
theorem tail_v35 :
    Pipeline.afterTail₀ cfgs (dats m) 0 (V0 m) [hostOps1] c main_v35
      = fun _ => kernelLoss (argA m c) (argB m c) (argL m c) := by
  have h := entry m c
  have w4 : Pipeline.withArrays spec0 c (V0 m c) (fun w => (dats m 0 c).arrAt w cfg0.N) (Proc.devRef .tc main_v14_0)
      = rowLossArr (argA m c) (argB m c) (argL m c) :=
    (Pipeline.withArrays_arr spec0 launch0.win.arr_inj c (V0 m c) _ 4).trans (final4 h)
  have w5 : Pipeline.withArrays spec0 c (V0 m c) (fun w => (dats m 0 c).arrAt w cfg0.N) (Proc.devRef .tc main_v14_1)
      = colExpArr (argA m c) (argB m c) :=
    (Pipeline.withArrays_arr spec0 launch0.win.arr_inj c (V0 m c) _ 5).trans (final5 h)
  have w6 : Pipeline.withArrays spec0 c (V0 m c) (fun w => (dats m 0 c).arrAt w cfg0.N) (Proc.devRef .tc main_v14_2)
      = colCntArr (argL m c) :=
    (Pipeline.withArrays_arr spec0 launch0.win.arr_inj c (V0 m c) _ 6).trans (final6 h)
  have w7 : Pipeline.withArrays spec0 c (V0 m c) (fun w => (dats m 0 c).arrAt w cfg0.N) (Proc.devRef .tc main_v14_3)
      = colSumArr (argA m c) (argB m c) (argL m c) :=
    (Pipeline.withArrays_arr spec0 launch0.win.arr_inj c (V0 m c) _ 7).trans (final7 h)
  unfold Pipeline.afterTail₀
  rw [flatten_tail]
  refine (tail_value _).trans (funext fun _ => ?_)
  refine tailLoss_eq (argA m c) (argB m c) (argL m c) _ _ _ _ ?_ ?_ ?_ ?_
  · intro p
    rw [w4]
    rfl
  · intro g q
    rw [w5]
    show ∑ r : Fin 1024, Ideal.exp (logitK (argA m c) (argB m c) (blockRow (row8 g) r) q) = _
    simp only [blockRow_row8]
  · intro g q
    rw [w6]
    show ∑ r : Fin 1024, same (argL m c) (blockRow (row8 g) r) q = _
    simp only [blockRow_row8]
  · intro g q
    rw [w7]
    show ∑ r : Fin 1024, same (argL m c) (blockRow (row8 g) r) q * logitK (argA m c) (argB m c) (blockRow (row8 g) r) q = _
    simp only [blockRow_row8]

/-- Every weakly fair execution of the kernel program ends with its result at the kernel's loss of the launched
    arrays and the arguments unchanged. -/
theorem run : θ_run defs (onTc (τ := τ) (main (F := Ideal))) ⟨m, fun _ => 0, ρ⟩ fun r => ∀ c : Dev nD,
      r.2.mem ((c : Thread nD τ).loc main_v35) = (fun _ => kernelLoss (argA m c) (argB m c) (argL m c))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c =>
    ⟨((h c).2 main_v35 (Pipeline.mem_restRefs_of main_v35 (by decide) (by decide))).trans (tail_v35 m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.KerValue

end
-- ==== Proof.LibHostRowMax.lean ====
/-
  General lemma for a host program that takes a maximum along the rows of a matrix, read at the exact (extended-real) instance.

  * `hostRowMax_apply`: the host's one-operand reduce with a maximum body along the last axis of an [a, b] array, from an
    initial value, reads at row p the fold of max over the row's b entries from that initial value. Stated for variable
    extents, so that reading the inserted index stays symbolic whatever the sizes it is used at.
-/
import Idealize.ShloMosaic.Lib.ValueIdx
import Idealize.ShloMosaic.PureOps.Ideal.Laws

noncomputable section

namespace Cert.HostRowMax

open Idealize.ShloMosaic Idealize.ShloMosaic.ValueIdx

/-- The host's maximum along the last axis of an [a, b] array, at row p: the fold of max over k of the array at (p, k), from
    the initial value's one element. -/
theorem hostRowMax_apply {a b : ℕ} {u : Shape} (z : FVec Ideal ⟨2, ![a, b]⟩ .f32) (init : u.Idx → Ideal .f32)
    (h' : (⟨2, ![a, b]⟩ : Shape).ReducesTo [1] ⟨1, ![a]⟩) (hr : (⟨2, ![a, b]⟩ : Shape).Reduces [1] ⟨1, ![a]⟩) (hu : 0 < u.numel)
    (p : Fin a) :
    Host.reduce (FloatOps.maximumf (F := Ideal) (φ := .f32)) z init h' hu (ix1 p)
      = (Finset.univ : Finset (Fin b)).fold max (init (Shape.Idx.first hu)) (fun k => z (ix2 p k)) := by
  haveI : Std.Commutative (FloatOps.maximumf (F := Ideal) (φ := .f32)) := ⟨fun x y => max_comm (x : EReal) y⟩
  haveI : Std.Associative (FloatOps.maximumf (F := Ideal) (φ := .f32)) := ⟨fun x y w => max_assoc (x : EReal) y w⟩
  refine (Host.reduce_eq_fold_single (FloatOps.maximumf (F := Ideal) (φ := .f32)) z init h' hr hu (ix1 p)).trans ?_
  refine congrArg (Finset.fold max (init (Shape.Idx.first hu)) · Finset.univ) (funext fun k => ?_)
  refine congrArg z (funext fun c => Fin.ext ?_)
  rw [hr.lift_val]
  match c with
  | ⟨0, _⟩ => rfl
  | ⟨1, _⟩ => rfl

end Cert.HostRowMax

end
-- ==== Proof.RefValueLib.lean ====
/-
  Small general facts used to read the reference program's result as a function of its argument arrays, at the exact
  (extended-real) instance.

  * a sum over the indices of a vector is the sum over its coordinate (`sum_idx1`);
  * the word 0xFF800000 denotes the least extended real, which is the identity of max (`ofBits_negInf_f32`);
  * the host's one-operand reduce with a maximum body along the FIRST axis of an [a, b] array reads at column q the fold of
    max over the column's a entries from the initial value (`hostColMax_apply`);
  * an equality comparison of two 32-bit words, converted to a float, is the 1/0 indicator of their equality
    (`uitofp_cmpi_eq`).
-/
import Idealize.ShloMosaic.Lib.ValueIdx
import Idealize.ShloMosaic.PureOps.Ideal.Laws

noncomputable section

open scoped BigOperators

namespace Cert.ReferenceIdeal.RefLib

open Idealize.ShloMosaic Idealize.ShloMosaic.ValueIdx

/-- A rank-1 index is its one coordinate. -/
def idxEquiv1 {n : Nat} : (⟨1, ![n]⟩ : Shape).Idx ≃ Fin n where
  toFun i := i 0
  invFun p := ix1 p
  left_inv i := (eq_ix1 i).symm
  right_inv _ := rfl

/-- A sum over the indices of a vector is the sum over its coordinate. -/
theorem sum_idx1 {M : Type*} [AddCommMonoid M] {n : Nat} (f : (⟨1, ![n]⟩ : Shape).Idx → M) :
    ∑ i, f i = ∑ p : Fin n, f (ix1 p) := by
  rw [← Equiv.sum_comp (idxEquiv1 (n := n)).symm f]
  rfl

/-- The word 0xFF800000 denotes minus infinity, the least extended real. -/
theorem ofBits_negInf_f32 : Ideal.ofBits .f32 0xFF800000#32 = (⊥ : EReal) := by
  simp [Ideal.ofBits, Ideal.ieee]

/-- The host's maximum along the first axis of an [a, b] array, at column q: the fold of max over k of the array at (k, q),
    from the initial value's one element. -/
theorem hostColMax_apply {a b : ℕ} {u : Shape} (z : FVec Ideal ⟨2, ![a, b]⟩ .f32) (init : u.Idx → Ideal .f32)
    (h' : (⟨2, ![a, b]⟩ : Shape).ReducesTo [0] ⟨1, ![b]⟩) (hr : (⟨2, ![a, b]⟩ : Shape).Reduces [0] ⟨1, ![b]⟩) (hu : 0 < u.numel)
    (q : Fin b) :
    Host.reduce (FloatOps.maximumf (F := Ideal) (φ := .f32)) z init h' hu (ix1 q)
      = (Finset.univ : Finset (Fin a)).fold max (init (Shape.Idx.first hu)) (fun k => z (ix2 k q)) := by
  haveI : Std.Commutative (FloatOps.maximumf (F := Ideal) (φ := .f32)) := ⟨fun x y => max_comm (x : EReal) y⟩
  haveI : Std.Associative (FloatOps.maximumf (F := Ideal) (φ := .f32)) := ⟨fun x y w => max_assoc (x : EReal) y w⟩
  refine (Host.reduce_eq_fold_single (FloatOps.maximumf (F := Ideal) (φ := .f32)) z init h' hr hu (ix1 q)).trans ?_
  refine congrArg (Finset.fold max (init (Shape.Idx.first hu)) · Finset.univ) (funext fun k => ?_)
  refine congrArg z (funext fun c => Fin.ext ?_)
  rw [hr.lift_val]
  match c with
  | ⟨0, _⟩ => rfl
  | ⟨1, _⟩ => rfl

/-- Two 32-bit words compared for equality, the one-bit answer converted to a float: 1 when they are equal, 0 when not. -/
theorem uitofp_cmpi_eq (x y : BitVec 32) :
    FloatOps.uitofp (F := Ideal) .f32 (IntOp.cmpi .eq x y) = if x = y then (1 : EReal) else 0 := by
  show (((BitVec.ofBool (x == y)).toNat : ℝ) : EReal) = _
  by_cases h : x = y
  · subst h
    simp
  · have hb : (x == y) = false := by simpa using h
    rw [hb, if_neg h]
    simp

end Cert.ReferenceIdeal.RefLib

end
-- ==== Proof.RefValue.lean ====
/-
  The reference program's result as one function of its argument arrays, at the exact (extended-real) instance.

  The generated read-back names every operation of the reference a stage and reads each stage at an index from its
  operands. Here the stages are followed from the argument arrays to the result, each identified with the corresponding
  quantity of the shared specification: a row's floored norm, the unit rows, the cosine similarities, the logits, the label
  indicator, the row and column maxima (the host's max-reduce from minus infinity is the fold of max from the least extended
  real), the shifted log-softmax along rows and along columns, the masked sums, their averages, and the halved sum of the
  two negated averages. The initial value of every float sum is the zero word, which denotes 0.
-/
import proofs.«131299_j43250320671200_2_alg».proof.Defs
import proofs.«131299_j43250320671200_2_alg».proof.Proof.RefReadP
import proofs.«131299_j43250320671200_2_alg».proof.Proof.Spec
import proofs.«131299_j43250320671200_2_alg».proof.Proof.LibHostRowMax
import proofs.«131299_j43250320671200_2_alg».proof.Proof.RefValueLib

noncomputable section

open scoped BigOperators

namespace Cert.ReferenceIdeal.RefValue

open Cert.ReferenceIdeal Cert.ReferenceIdeal.Gen Idealize.ShloMosaic Idealize.ShloMosaic.ValueIdx

local macro "idx_eq2" : tactic => `(tactic| (funext c; match c with | ⟨0, _⟩ => rfl | ⟨1, _⟩ => rfl))
local macro "idx_eq1" : tactic => `(tactic| (funext c; match c with | ⟨0, _⟩ => rfl))

/-! ## The unit rows -/

/-- The sum of squares of row p of the first array. -/
theorem sumsq0 (a : Spec.Emb) (p : Fin 4096) :
    ReadP.val_main_call0_v1 (F := Ideal) a (ix1 p) = ∑ d : Fin 768, a (ix2 p d) * a (ix2 p d) := by
  rw [ReadP.val_main_call0_v1_apply, ReadP.val_main_call0_cst_apply, Ideal.ofBits_def, Ideal.ofBits_zero_f32, zero_add]
  refine Finset.sum_congr rfl fun d _ => ?_
  have e : ReadP.idx_main_call0_v1 (ix1 p) d = ix2 p d := by idx_eq2
  rw [e, ReadP.val_main_call0_v0_apply, Ideal.mulf_def]

/-- The sum of squares of row p of the second array. -/
theorem sumsq1 (b : Spec.Emb) (p : Fin 4096) :
    ReadP.val_main_call1_v1 (F := Ideal) b (ix1 p) = ∑ d : Fin 768, b (ix2 p d) * b (ix2 p d) := by
  rw [ReadP.val_main_call1_v1_apply, ReadP.val_main_call1_cst_apply, Ideal.ofBits_def, Ideal.ofBits_zero_f32, zero_add]
  refine Finset.sum_congr rfl fun d _ => ?_
  have e : ReadP.idx_main_call1_v1 (ix1 p) d = ix2 p d := by idx_eq2
  rw [e, ReadP.val_main_call1_v0_apply, Ideal.mulf_def]

/-- The floored norm of row p of the first array. -/
theorem norm0 (a : Spec.Emb) (p : Fin 4096) (z : Fin 1) :
    ReadP.val_main_v2 (F := Ideal) a (ix2 p z) = Spec.rowNorm a p := by
  rw [ReadP.val_main_v2_apply, ReadP.val_main_v0_apply, ReadP.val_main_call0_v2_apply, ReadP.val_main_v1_apply,
    ReadP.val_main_cst_apply]
  have e : ReadP.idx_main_call0_v2 (ix2 p z) = ix1 p := by idx_eq1
  rw [e, sumsq0]
  rfl

/-- The floored norm of row p of the second array. -/
theorem norm1 (b : Spec.Emb) (p : Fin 4096) (z : Fin 1) :
    ReadP.val_main_v7 (F := Ideal) b (ix2 p z) = Spec.rowNorm b p := by
  rw [ReadP.val_main_v7_apply, ReadP.val_main_v5_apply, ReadP.val_main_call1_v2_apply, ReadP.val_main_v6_apply,
    ReadP.val_main_cst_0_apply]
  have e : ReadP.idx_main_call1_v2 (ix2 p z) = ix1 p := by idx_eq1
  rw [e, sumsq1]
  rfl

/-- Row p of the first array scaled to unit length. -/
theorem unit0 (a : Spec.Emb) (p : Fin 4096) (d : Fin 768) :
    ReadP.val_main_v4 (F := Ideal) a (ix2 p d) = Spec.unitRow a p d := by
  rw [ReadP.val_main_v4_apply, ReadP.val_main_v3_apply]
  have e : ReadP.idx_main_v3 (ix2 p d) = ix2 p (0 : Fin 1) := by idx_eq2
  rw [e, norm0]
  rfl

/-- Row p of the second array scaled to unit length. -/
theorem unit1 (b : Spec.Emb) (p : Fin 4096) (d : Fin 768) :
    ReadP.val_main_v9 (F := Ideal) b (ix2 p d) = Spec.unitRow b p d := by
  rw [ReadP.val_main_v9_apply, ReadP.val_main_v8_apply]
  have e : ReadP.idx_main_v8 (ix2 p d) = ix2 p (0 : Fin 1) := by idx_eq2
  rw [e, norm1]
  rfl

/-! ## Similarities, logits and the label indicator -/

/-- The contraction of the two scaled arrays over their last axes is the cosine similarity. -/
theorem cos_eq (a b : Spec.Emb) (p q : Fin 4096) :
    ReadP.val_main_v10 (F := Ideal) a b (ix2 p q) = Spec.cosSim a b p q := by
  rw [ReadP.val_main_v10_apply]
  unfold Spec.cosSim
  refine Finset.sum_congr rfl fun d _ => ?_
  have el : ReadP.lidx_main_v10 (ix2 p q) d = ix2 p d := by idx_eq2
  have er : ReadP.ridx_main_v10 (ix2 p q) d = ix2 q d := by idx_eq2
  rw [el, er, unit0, unit1]

/-- The similarities divided by the temperature. -/
theorem logit_eq (a b : Spec.Emb) (p q : Fin 4096) :
    ReadP.val_main_v12 (F := Ideal) a b (ix2 p q) = Spec.logitR a b p q := by
  rw [ReadP.val_main_v12_apply, ReadP.val_main_v11_apply, ReadP.val_main_cst_1_apply, cos_eq]
  rfl

/-- The converted label comparison is the indicator of equal labels. -/
theorem same_eq (lab : Spec.Lab) (p q : Fin 4096) :
    ReadP.val_main_v18 (F := Ideal) lab (ix2 p q) = Spec.same lab p q := by
  rw [ReadP.val_main_v18_apply, ReadP.val_main_v17_apply, ReadP.val_main_v15_apply, ReadP.val_main_v16_apply,
    ReadP.val_main_v13_apply, ReadP.val_main_v14_apply, RefLib.uitofp_cmpi_eq]
  have e1 : ReadP.idx_main_v13 (ReadP.idx_main_v15 (ix2 p q)) = ix1 p := by idx_eq1
  have e2 : ReadP.idx_main_v14 (ReadP.idx_main_v16 (ix2 p q)) = ix1 q := by idx_eq1
  rw [e1, e2]
  rfl

/-! ## The log-softmax along rows -/

/-- The largest logit of row p: the host's max-reduce from minus infinity, and the maximum with minus infinity after it. -/
theorem rowMax_eq (a b : Spec.Emb) (p : Fin 4096) :
    ReadP.val_main_call2_v2 (F := Ideal) a b (ix1 p) = Spec.rowMaxR a b p := by
  rw [ReadP.val_main_call2_v2_apply, ReadP.val_main_call2_v1_apply, ReadP.val_main_call2_cst_0_apply, Ideal.ofBits_def,
    RefLib.ofBits_negInf_f32, Ideal.maximumf_def, max_bot_left]
  unfold ReadP.val_main_call2_v0
  refine (Cert.HostRowMax.hostRowMax_apply (ReadP.val_main_v12 (F := Ideal) a b) (ReadP.val_main_call2_cst (F := Ideal))
    reducesTo_S4096x4096_S4096_d1 (by decide) h_S_ p).trans ?_
  rw [ReadP.val_main_call2_cst_apply, Ideal.ofBits_def, RefLib.ofBits_negInf_f32]
  unfold Spec.rowMaxR
  exact congrArg (Finset.fold max (⊥ : EReal) · Finset.univ) (funext fun q => logit_eq a b p q)

/-- A logit less its row's maximum. -/
theorem rowShift_eq (a b : Spec.Emb) (p q : Fin 4096) :
    ReadP.val_main_call2_v5 (F := Ideal) a b (ix2 p q) = Spec.logitR a b p q - Spec.rowMaxR a b p := by
  rw [ReadP.val_main_call2_v5_apply, ReadP.val_main_call2_v4_apply, ReadP.val_main_call2_v3_apply, logit_eq]
  have e : ReadP.idx_main_call2_v3 (ReadP.idx_main_call2_v4 (ix2 p q)) = ix1 p := by idx_eq1
  rw [e, rowMax_eq]
  rfl

/-- The sum over row p of the exponentials of the shifted logits. -/
theorem rowSumExp_eq (a b : Spec.Emb) (p : Fin 4096) :
    ReadP.val_main_call2_v7 (F := Ideal) a b (ix1 p)
      = ∑ q' : Fin 4096, Ideal.exp (Spec.logitR a b p q' - Spec.rowMaxR a b p) := by
  rw [ReadP.val_main_call2_v7_apply, ReadP.val_main_call2_cst_1_apply, Ideal.ofBits_def, Ideal.ofBits_zero_f32, zero_add]
  refine Finset.sum_congr rfl fun q' _ => ?_
  have e : ReadP.idx_main_call2_v7 (ix1 p) q' = ix2 p q' := by idx_eq2
  rw [e, ReadP.val_main_call2_v6_apply, rowShift_eq]
  rfl

/-- The shifted log-softmax along row p. -/
theorem rowLSM_eq (a b : Spec.Emb) (p q : Fin 4096) :
    ReadP.val_main_v19 (F := Ideal) a b (ix2 p q) = Spec.rowLogSoftmaxR a b p q := by
  rw [ReadP.val_main_v19_apply, ReadP.val_main_call2_v10_apply, ReadP.val_main_call2_v9_apply,
    ReadP.val_main_call2_v8_apply, rowShift_eq]
  have e : ReadP.idx_main_call2_v8 (ReadP.idx_main_call2_v10 (ix2 p q)) = ix1 p := by idx_eq1
  rw [e, rowSumExp_eq]
  rfl

/-- The masked sum of row p. -/
theorem rowTerm_eq (a b : Spec.Emb) (lab : Spec.Lab) (p : Fin 4096) :
    ReadP.val_main_v21 (F := Ideal) a b lab (ix1 p)
      = ∑ q : Fin 4096, Spec.same lab p q * Spec.rowLogSoftmaxR a b p q := by
  rw [ReadP.val_main_v21_apply, ReadP.val_main_cst_2_apply, Ideal.ofBits_def, Ideal.ofBits_zero_f32, zero_add]
  refine Finset.sum_congr rfl fun q _ => ?_
  have e : ReadP.idx_main_v21 (ix1 p) q = ix2 p q := by idx_eq2
  rw [e, ReadP.val_main_v20_apply, same_eq, rowLSM_eq]
  rfl

/-- Minus the average of the rows' masked sums. -/
theorem rowAvg_eq (a b : Spec.Emb) (lab : Spec.Lab) (i : S_.Idx) :
    ReadP.val_main_v24 (F := Ideal) a b lab i
      = -(Ideal.div (∑ p : Fin 4096, ∑ q : Fin 4096, Spec.same lab p q * Spec.rowLogSoftmaxR a b p q) Spec.count) := by
  rw [ReadP.val_main_v24_apply, ReadP.val_main_v23_apply, ReadP.val_main_v22_apply, ReadP.val_main_cst_3_apply,
    ReadP.val_main_cst_4_apply, Ideal.ofBits_def, Ideal.ofBits_zero_f32, zero_add, RefLib.sum_idx1,
    Finset.sum_congr rfl fun p _ => rowTerm_eq a b lab p]
  rfl

/-! ## The log-softmax along columns -/

/-- The largest logit of column q. -/
theorem colMax_eq (a b : Spec.Emb) (q : Fin 4096) :
    ReadP.val_main_call3_v2 (F := Ideal) a b (ix1 q) = Spec.colMaxR a b q := by
  rw [ReadP.val_main_call3_v2_apply, ReadP.val_main_call3_v1_apply, ReadP.val_main_call3_cst_0_apply, Ideal.ofBits_def,
    RefLib.ofBits_negInf_f32, Ideal.maximumf_def, max_bot_left]
  unfold ReadP.val_main_call3_v0
  refine (RefLib.hostColMax_apply (ReadP.val_main_v12 (F := Ideal) a b) (ReadP.val_main_call3_cst (F := Ideal))
    reducesTo_S4096x4096_S4096_d0 (by decide) h_S_ q).trans ?_
  rw [ReadP.val_main_call3_cst_apply, Ideal.ofBits_def, RefLib.ofBits_negInf_f32]
  unfold Spec.colMaxR
  exact congrArg (Finset.fold max (⊥ : EReal) · Finset.univ) (funext fun p => logit_eq a b p q)

/-- A logit less its column's maximum. -/
theorem colShift_eq (a b : Spec.Emb) (p q : Fin 4096) :
    ReadP.val_main_call3_v5 (F := Ideal) a b (ix2 p q) = Spec.logitR a b p q - Spec.colMaxR a b q := by
  rw [ReadP.val_main_call3_v5_apply, ReadP.val_main_call3_v4_apply, ReadP.val_main_call3_v3_apply, logit_eq]
  have e : ReadP.idx_main_call3_v3 (ReadP.idx_main_call3_v4 (ix2 p q)) = ix1 q := by idx_eq1
  rw [e, colMax_eq]
  rfl

/-- The sum over column q of the exponentials of the shifted logits. -/
theorem colSumExp_eq (a b : Spec.Emb) (q : Fin 4096) :
    ReadP.val_main_call3_v7 (F := Ideal) a b (ix1 q)
      = ∑ p' : Fin 4096, Ideal.exp (Spec.logitR a b p' q - Spec.colMaxR a b q) := by
  rw [ReadP.val_main_call3_v7_apply, ReadP.val_main_call3_cst_1_apply, Ideal.ofBits_def, Ideal.ofBits_zero_f32, zero_add]
  refine Finset.sum_congr rfl fun p' _ => ?_
  have e : ReadP.idx_main_call3_v7 (ix1 q) p' = ix2 p' q := by idx_eq2
  rw [e, ReadP.val_main_call3_v6_apply, colShift_eq]
  rfl

/-- The shifted log-softmax along column q. -/
theorem colLSM_eq (a b : Spec.Emb) (p q : Fin 4096) :
    ReadP.val_main_v25 (F := Ideal) a b (ix2 p q) = Spec.colLogSoftmaxR a b p q := by
  rw [ReadP.val_main_v25_apply, ReadP.val_main_call3_v10_apply, ReadP.val_main_call3_v9_apply,
    ReadP.val_main_call3_v8_apply, colShift_eq]
  have e : ReadP.idx_main_call3_v8 (ReadP.idx_main_call3_v10 (ix2 p q)) = ix1 q := by idx_eq1
  rw [e, colSumExp_eq]
  rfl

/-- The masked sum of column q. -/
theorem colTerm_eq (a b : Spec.Emb) (lab : Spec.Lab) (q : Fin 4096) :
    ReadP.val_main_v27 (F := Ideal) a b lab (ix1 q)
      = ∑ p : Fin 4096, Spec.same lab p q * Spec.colLogSoftmaxR a b p q := by
  rw [ReadP.val_main_v27_apply, ReadP.val_main_cst_5_apply, Ideal.ofBits_def, Ideal.ofBits_zero_f32, zero_add]
  refine Finset.sum_congr rfl fun p _ => ?_
  have e : ReadP.idx_main_v27 (ix1 q) p = ix2 p q := by idx_eq2
  rw [e, ReadP.val_main_v26_apply, same_eq, colLSM_eq]
  rfl

/-- Minus the average of the columns' masked sums. -/
theorem colAvg_eq (a b : Spec.Emb) (lab : Spec.Lab) (i : S_.Idx) :
    ReadP.val_main_v30 (F := Ideal) a b lab i
      = -(Ideal.div (∑ q : Fin 4096, ∑ p : Fin 4096, Spec.same lab p q * Spec.colLogSoftmaxR a b p q) Spec.count) := by
  rw [ReadP.val_main_v30_apply, ReadP.val_main_v29_apply, ReadP.val_main_v28_apply, ReadP.val_main_cst_6_apply,
    ReadP.val_main_cst_7_apply, Ideal.ofBits_def, Ideal.ofBits_zero_f32, zero_add, RefLib.sum_idx1,
    Finset.sum_congr rfl fun q _ => colTerm_eq a b lab q]
  rfl

/-! ## The result -/

/-- The reference program's result, as a function of its three argument arrays, is the specification's reference loss. -/
theorem result_eq (a b : Spec.Emb) (lab : Spec.Lab) :
    ReadP.val_main_v32 (F := Ideal) a b lab = fun _ => Spec.referenceLoss a b lab := by
  funext i
  rw [ReadP.val_main_v32_apply, ReadP.val_main_v31_apply, ReadP.val_main_cst_8_apply, rowAvg_eq, colAvg_eq]
  rfl

end Cert.ReferenceIdeal.RefValue

end
-- ==== Proof.RefValueRun.lean ====
/-
  The reference program's run joined to its value: every weakly fair execution ends with the result buffer at the
  specification's reference loss of the argument arrays, and the argument arrays unchanged.
-/
import proofs.«131299_j43250320671200_2_alg».proof.Proof.RefValue

noncomputable section

namespace Cert.ReferenceIdeal.RefValue

open Cert.ReferenceIdeal Cert.ReferenceIdeal.Gen Idealize.ShloMosaic Idealize.ShloMosaic.TcCoe Idealize.SL.Sem

/-- The reference runs and leaves its argument arrays unchanged. -/
theorem frame_ri [hPre : Cert.Pre_finite_inputs.Facts] : Cert.frame_ReferenceIdeal := fun m ρ _ =>
  (θ_run Cert.ReferenceIdeal.defs _ _).mono (fun _ h c => (h c).2) (Cert.ReferenceIdeal.ValueP.run (F := Ideal) m ρ)

/-- The reference's run ends with the result buffer holding the reference loss of the launch contents of the arguments. -/
theorem run_value (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v32)
          = (fun _ => Spec.referenceLoss (m ((c.tc : Thread nD τ).loc main_arg0)) (m ((c.tc : Thread nD τ).loc main_arg1))
              (m ((c.tc : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans ((ReadP.val_main_v32_eq m c).trans (result_eq _ _ _)), (h c).2⟩)
    (Cert.ReferenceIdeal.ValueP.run (F := Ideal) m ρ)

end Cert.ReferenceIdeal.RefValue

end
-- ==== Proof.LossAlgebra.lean ====
/-
  The algebra of the two losses on real data.

  With real entries every intermediate of both losses is a real number: the squared norms are nonnegative, the
  floored norms positive, the sums of exponentials positive. The logarithm of a sum of exponentials is invariant
  under a common shift of the exponents, log (sum exp (l - M)) = log (sum exp l) - M for every real M, so per row
      sum_q s(p,q) * ((l(p,q) - M) - log sum_q' exp (l(p,q') - M))
        = -(log (sum_q exp l(p,q)) * sum_q s(p,q) - sum_q s(p,q) * l(p,q)),
  and the same per column. Dividing by the temperature 9395241 / 2^27 is multiplying by 2^27 / 9395241, so the
  logits agree; the averages and the halving are real arithmetic.
-/
import proofs.«131299_j43250320671200_2_alg».proof.Proof.Spec
import Mathlib

noncomputable section

open scoped BigOperators

namespace Cert.Spec

open Idealize.ShloMosaic Idealize.ShloMosaic.ValueIdx

/-- The coercion of the reals into the extended reals commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The coercion of the reals into the extended reals commutes with the maximum. -/
theorem coe_max (x y : ℝ) : ((max x y : ℝ) : EReal) = max (x : EReal) (y : EReal) :=
  EReal.coe_strictMono.monotone.map_max

/-- The maximum of a nonempty finite family of real numbers, folded from the bottom element, is a real number. -/
theorem fold_max_real {ι : Type*} [Fintype ι] [Nonempty ι] (f : ι → ℝ) :
    ∃ M : ℝ, Finset.univ.fold max ⊥ (fun i => ((f i : ℝ) : EReal)) = (M : EReal) := by
  classical
  have key : ∀ s : Finset ι, s.Nonempty → ∃ M : ℝ, s.fold max ⊥ (fun i => ((f i : ℝ) : EReal)) = (M : EReal) := by
    intro s hs
    induction hs using Finset.Nonempty.cons_induction with
    | singleton a => exact ⟨f a, by simp⟩
    | cons a s ha hs ih =>
      obtain ⟨M, hM⟩ := ih
      exact ⟨max (f a) M, by rw [Finset.fold_cons, hM, coe_max]⟩
  exact key _ Finset.univ_nonempty

/-- A sum of exponentials over a nonempty finite type is positive. -/
theorem sum_exp_pos {ι : Type*} [Fintype ι] [Nonempty ι] (l : ι → ℝ) : 0 < ∑ i, Real.exp (l i) :=
  Finset.sum_pos (fun i _ => Real.exp_pos _) Finset.univ_nonempty

/-- The logarithm of a sum of exponentials, shifted: log (sum exp (l - M)) = log (sum exp l) - M. -/
theorem log_sum_exp_shift {ι : Type*} [Fintype ι] [Nonempty ι] (l : ι → ℝ) (M : ℝ) :
    Real.log (∑ i, Real.exp (l i - M)) = Real.log (∑ i, Real.exp (l i)) - M := by
  have h : ∑ i, Real.exp (l i - M) = (∑ i, Real.exp (l i)) * Real.exp (-M) := by
    rw [Finset.sum_mul]
    refine Finset.sum_congr rfl (fun i _ => ?_)
    rw [← Real.exp_add, sub_eq_add_neg]
  rw [h, Real.log_mul (sum_exp_pos l).ne' (Real.exp_pos _).ne', Real.log_exp]
  ring

/-- The weighted sum of the shifted log-softmax is minus the log-sum-exp form:
    sum s * ((l - M) - log sum exp (l - M)) = -(log (sum exp l) * sum s - sum s * l). -/
theorem row_identity {ι : Type*} [Fintype ι] [Nonempty ι] (s l : ι → ℝ) (M : ℝ) :
    ∑ q, s q * ((l q - M) - Real.log (∑ q', Real.exp (l q' - M)))
      = -(Real.log (∑ q, Real.exp (l q)) * (∑ q, s q) - ∑ q, s q * l q) := by
  rw [log_sum_exp_shift]
  have h : ∀ q, s q * ((l q - M) - (Real.log (∑ q', Real.exp (l q')) - M))
      = s q * l q - Real.log (∑ q', Real.exp (l q')) * s q := fun q => by ring
  simp_rw [h]
  rw [Finset.sum_sub_distrib, ← Finset.mul_sum]
  ring

/-- The log-sum-exp form of one row, on real data, is a real number. -/
theorem rowK_coe {ι : Type*} [Fintype ι] [Nonempty ι] (s l : ι → ℝ) :
    Ideal.log (∑ q, Ideal.exp ((l q : ℝ) : EReal)) * (∑ q, ((s q : ℝ) : EReal))
        - ∑ q, ((s q : ℝ) : EReal) * ((l q : ℝ) : EReal)
      = ((Real.log (∑ q, Real.exp (l q)) * (∑ q, s q) - ∑ q, s q * l q : ℝ) : EReal) := by
  simp only [Ideal.exp_coe, ← coe_sum, Ideal.log_coe, if_neg (not_le.mpr (sum_exp_pos l)), ← EReal.coe_mul,
    ← EReal.coe_sub]

/-- The shifted log-softmax form of one row, on real data, is a real number. -/
theorem rowR_coe {ι : Type*} [Fintype ι] [Nonempty ι] (s l : ι → ℝ) (M : ℝ) :
    ∑ q, ((s q : ℝ) : EReal) * ((((l q : ℝ) : EReal) - (M : EReal))
        - Ideal.log (∑ q', Ideal.exp (((l q' : ℝ) : EReal) - (M : EReal))))
      = ((∑ q, s q * ((l q - M) - Real.log (∑ q', Real.exp (l q' - M))) : ℝ) : EReal) := by
  simp only [← EReal.coe_sub, Ideal.exp_coe, ← coe_sum, Ideal.log_coe,
    if_neg (not_le.mpr (sum_exp_pos (fun q => l q - M))), ← EReal.coe_mul]

/-! ## The words the two programs carry, as real numbers -/

/-- The count word denotes 4096. -/
theorem count_eq : count = ((4096 : ℝ) : EReal) := by
  simp [count, Ideal.ofBits, Ideal.ieee, -EReal.coe_mul]; norm_num

/-- The halving word denotes 2. -/
theorem two_eq : two = ((2 : ℝ) : EReal) := by
  simp [two, Ideal.ofBits, Ideal.ieee, -EReal.coe_mul]; norm_num

/-- The temperature word denotes 9395241 / 2^27. -/
theorem temperature_eq : temperature = ((9395241 / 134217728 : ℝ) : EReal) := by
  simp [temperature, Ideal.ofBits, Ideal.ieee, -EReal.coe_mul]; norm_num

/-- The floor word denotes 11258999 / 2^50, a positive real. -/
theorem normFloor_eq : normFloor = ((11258999 / 1125899906842624 : ℝ) : EReal) := by
  simp [normFloor, Ideal.ofBits, Ideal.ieee, -EReal.coe_mul]; norm_num

/-! ## Every intermediate of real arrays is real -/

/-- The floored norm of a row of reals is a positive real. -/
theorem rowNorm_real (x : Emb) (hx : AllReal x) (p : Fin 4096) : ∃ n : ℝ, 0 < n ∧ rowNorm x p = (n : EReal) := by
  choose rx hrx using hx
  have hnn : ¬ (∑ d : Fin 768, rx (ix2 p d) * rx (ix2 p d)) < 0 :=
    not_lt.mpr (Finset.sum_nonneg (fun d _ => mul_self_nonneg _))
  refine ⟨max (Real.sqrt (∑ d : Fin 768, rx (ix2 p d) * rx (ix2 p d))) (11258999 / 1125899906842624),
    lt_max_of_lt_right (by norm_num), ?_⟩
  simp only [rowNorm, hrx, ← EReal.coe_mul, ← coe_sum, Ideal.sqrt_coe, if_neg hnn, normFloor_eq, ← coe_max]

/-- A row of reals scaled to unit length is a row of reals. -/
theorem unitRow_real (x : Emb) (hx : AllReal x) :
    ∃ u : Fin 4096 → Fin 768 → ℝ, ∀ p d, unitRow x p d = (u p d : EReal) := by
  choose n hn hnorm using rowNorm_real x hx
  choose rx hrx using hx
  refine ⟨fun p d => rx (ix2 p d) * (1 / n p), fun p d => ?_⟩
  rw [unitRow, hnorm, Ideal.div_coe (hn p).ne', hrx, ← EReal.coe_mul]

/-- The two programs' logits of real arrays are one and the same real number. -/
theorem logits_real (a b : Emb) (ha : AllReal a) (hb : AllReal b) :
    ∃ L : Fin 4096 → Fin 4096 → ℝ, ∀ p q, logitK a b p q = (L p q : EReal) ∧ logitR a b p q = (L p q : EReal) := by
  obtain ⟨ua, hua⟩ := unitRow_real a ha
  obtain ⟨ub, hub⟩ := unitRow_real b hb
  have hc : ∀ p q, cosSim a b p q = ((∑ d : Fin 768, ua p d * ub q d : ℝ) : EReal) := by
    intro p q
    simp only [cosSim, hua, hub, ← EReal.coe_mul, ← coe_sum]
  refine ⟨fun p q => (∑ d : Fin 768, ua p d * ub q d) * (134217728 / 9395241), fun p q => ⟨?_, ?_⟩⟩
  · rw [logitK, hc, invTemperature, ← EReal.coe_mul]
  · rw [logitR, hc, temperature_eq, Ideal.div_coe (by norm_num), ← EReal.coe_mul]
    norm_num

/-- The label indicator is the real 0 or 1. -/
theorem same_real (lab : Lab) (p q : Fin 4096) :
    same lab p q = (((if lab (ix1 p) = lab (ix1 q) then 1 else 0 : ℝ)) : EReal) := by
  unfold same
  split_ifs <;> simp

/-! ## The two losses agree -/

theorem kernelLoss_eq_referenceLoss (a b : Emb) (lab : Lab) (ha : AllReal a) (hb : AllReal b) :
    kernelLoss a b lab = referenceLoss a b lab := by
  obtain ⟨L, hL⟩ := logits_real a b ha hb
  have hK : ∀ p q, logitK a b p q = (L p q : EReal) := fun p q => (hL p q).1
  have hR : ∀ p q, logitR a b p q = (L p q : EReal) := fun p q => (hL p q).2
  let s : Fin 4096 → Fin 4096 → ℝ := fun p q => if lab (ix1 p) = lab (ix1 q) then 1 else 0
  have hs : ∀ p q, same lab p q = (s p q : EReal) := same_real lab
  -- the maxima are real numbers
  have hMr : ∀ p, ∃ M : ℝ, rowMaxR a b p = (M : EReal) := by
    intro p
    obtain ⟨M, hM⟩ := fold_max_real (fun q => L p q)
    exact ⟨M, by simp only [rowMaxR, hR]; exact hM⟩
  have hMc : ∀ q, ∃ M : ℝ, colMaxR a b q = (M : EReal) := by
    intro q
    obtain ⟨M, hM⟩ := fold_max_real (fun p => L p q)
    exact ⟨M, by simp only [colMaxR, hR]; exact hM⟩
  choose Mr hMr using hMr
  choose Mc hMc using hMc
  -- the kernel's row and column terms
  let K : Fin 4096 → ℝ := fun p =>
    Real.log (∑ q, Real.exp (L p q)) * (∑ q, s p q) - ∑ q, s p q * L p q
  let C : Fin 4096 → ℝ := fun q =>
    Real.log (∑ p, Real.exp (L p q)) * (∑ p, s p q) - ∑ p, s p q * L p q
  have hrowK : ∀ p, rowLossK a b lab p = (K p : EReal) := by
    intro p
    simp only [rowLossK, hK, hs]
    exact rowK_coe (fun q => s p q) (fun q => L p q)
  have hcolK : ∀ q, colLossK a b lab q = (C q : EReal) := by
    intro q
    simp only [colLossK, hK, hs]
    exact rowK_coe (fun p => s p q) (fun p => L p q)
  -- the reference's row and column terms are their negatives
  have hrowR : ∀ p, ∑ q, same lab p q * rowLogSoftmaxR a b p q = ((-(K p) : ℝ) : EReal) := by
    intro p
    simp only [rowLogSoftmaxR, hR, hs, hMr]
    rw [rowR_coe (fun q => s p q) (fun q => L p q) (Mr p), row_identity]
  have hcolR : ∀ q, ∑ p, same lab p q * colLogSoftmaxR a b p q = ((-(C q) : ℝ) : EReal) := by
    intro q
    simp only [colLogSoftmaxR, hR, hs, hMc]
    rw [rowR_coe (fun p => s p q) (fun p => L p q) (Mc q), row_identity]
  -- the averages and the halving are real arithmetic
  have h4096 : (4096 : ℝ) ≠ 0 := by norm_num
  have h2 : (2 : ℝ) ≠ 0 := by norm_num
  simp only [kernelLoss, referenceLoss, hrowK, hcolK, hrowR, hcolR, count_eq, two_eq, ← coe_sum,
    Ideal.div_coe h4096, Ideal.div_coe h2, ← EReal.coe_mul, ← EReal.coe_neg, ← EReal.coe_add]
  congr 1
  rw [Finset.sum_neg_distrib, Finset.sum_neg_distrib]
  ring

end Cert.Spec

end
-- ==== Proof.LibRealEntries.lean ====
/-
  General lemmas for reading a "finite input" precondition on the extended reals.

  A float input's finiteness test is |x| < +∞ with |x| = max x (−x) and +∞ the float word 0x7F800000. On the extended
  reals the maximum is +∞ exactly at the two infinities, so a passing test says x is a real number.

  * `top_word`: the f32 word 0x7F800000 is the top element.
  * `real_of_abs_lt`: if the comparison max x (−x) < +∞ comes out true, x is the coercion of a real.
-/
import Idealize.ShloMosaic.PureOps.Ideal

noncomputable section

namespace Cert.RealEntries

open Idealize.ShloMosaic

/-- The float word of +∞ is the extended reals' top element. -/
theorem top_word : Ideal.ofBits .f32 0x7F800000#32 = (⊤ : EReal) := by simp [Ideal.ofBits, Ideal.ieee]

/-- An extended real whose absolute value max x (−x) is strictly below +∞ is a real number: at either infinity the
    maximum is +∞ itself. -/
theorem real_of_abs_lt (x : EReal) (h : Ideal.cmp .olt (max x (-x)) (Ideal.ofBits .f32 0x7F800000#32) = 1#1) :
    ∃ r : ℝ, x = (r : EReal) := by
  rw [top_word] at h
  have h' : max x (-x) < ⊤ := by
    by_contra hn
    simp [Ideal.cmp, hn] at h
  induction x using EReal.rec with
  | bot => simp at h'
  | coe r => exact ⟨r, rfl⟩
  | top => simp at h'

end Cert.RealEntries

end
-- ==== Proof.Finite.lean ====
/-
  From the finiteness precondition to real entries.

  The precondition compares the absolute value of every entry of the two embedding arrays with +∞, reduces each
  array of truth values with "and" over both axes starting from true, and ands the two results. If the result is
  true, every comparison was true, so every entry x has max x (−x) < +∞ and is therefore a real number.
-/
import proofs.«131299_j43250320671200_2_alg».proof.Pre_finite_inputs
import proofs.«131299_j43250320671200_2_alg».proof.Proof.Gen.Pre_finite_inputs
import proofs.«131299_j43250320671200_2_alg».proof.Proof.Spec
import proofs.«131299_j43250320671200_2_alg».proof.Proof.LibRealEntries
import Idealize.ShloMosaic.Lib.ValueIdx
import Idealize.ShloMosaic.Lib.ReduceAll

noncomputable section

namespace Cert.Finite

open Idealize.ShloMosaic

/-- The rank-0 shape has one index. -/
instance subsingleton_scalar_idx : Subsingleton Cert.Pre_finite_inputs.S_.Idx :=
  ⟨fun a b => funext fun d => d.elim0⟩

/-- If the finiteness precondition holds of the two embedding arrays, every entry of both is a real number. -/
theorem allReal_of_pre [Cert.Pre_finite_inputs.Facts] (a b : FVec Ideal Cert.Pre_finite_inputs.S4096x768 .f32)
    (lab : IVec Cert.Pre_finite_inputs.S4096 32)
    (h : Cert.Pre_finite_inputs.fn (F := Ideal) a b lab = fun _ => 1#1) :
    Cert.Spec.AllReal a ∧ Cert.Spec.AllReal b := by
  have h0 := congrFun h ValueIdx.ix0
  dsimp only [Cert.Pre_finite_inputs.fn] at h0
  obtain ⟨h1, h2⟩ := IntOp.andi_eq_one.1 h0
  refine ⟨fun i => ?_, fun i => ?_⟩
  · exact Cert.RealEntries.real_of_abs_lt (a i) (Host.reduce_andi_all _ _ _ _ _ h1 i)
  · exact Cert.RealEntries.real_of_abs_lt (b i) (Host.reduce_andi_all _ _ _ _ _ h2 i)

end Cert.Finite

end
-- ==== Proof.lean ====
/-
  The claim: the fused contrastive-loss kernel and its jnp reference compute the same loss on the extended reals.

  Both programs scale the rows of the two embedding arrays to unit length and form the 4096 x 4096 logits from their
  cosine similarities; the kernel multiplies by the reciprocal temperature (named, so that it denotes exactly the
  reciprocal of the temperature the reference divides by), the reference divides. The kernel never forms a
  log-softmax: per row it accumulates, over the four column blocks of its grid, the sum of exponentials, the count of
  equal labels and the label-weighted sum of logits, and writes log(sum) * count - weighted sum; per column it
  writes the same three partial sums per row block, which the program adds after the region. The reference takes
  minus the label-weighted sum of the maximum-shifted log-softmax along rows and along columns. For finite inputs
  every logit is a real number, the shift cancels, and weighted sum of (l - logsumexp) is weighted sum minus
  logsumexp times count: the two results are the same real number.

  The kernel's frames are the generated frame certificates; its value is read off the generated frame run
  (what each case of the body leaves, the running vectors over a grid row, the blocks written back, the host
  operations after the region). The reference's value is its run read stage by stage. The named constant's
  conjunct is the rule's own statement.
-/
import proofs.«131299_j43250320671200_2_alg».proof.Defs
import proofs.«131299_j43250320671200_2_alg».proof.Proof.Gen.Kernel
import proofs.«131299_j43250320671200_2_alg».proof.Proof.Gen.Kernel.Skeleton
import proofs.«131299_j43250320671200_2_alg».proof.Proof.Gen.Kernel.Launch
import proofs.«131299_j43250320671200_2_alg».proof.Proof.Gen.Kernel.Points
import proofs.«131299_j43250320671200_2_alg».proof.Proof.Gen.Kernel.Frame
import proofs.«131299_j43250320671200_2_alg».proof.Proof.Gen.KernelIdeal
import proofs.«131299_j43250320671200_2_alg».proof.Proof.Gen.KernelIdeal.Skeleton
import proofs.«131299_j43250320671200_2_alg».proof.Proof.Gen.KernelIdeal.Launch
import proofs.«131299_j43250320671200_2_alg».proof.Proof.Gen.KernelIdeal.Points
import proofs.«131299_j43250320671200_2_alg».proof.Proof.Gen.KernelIdeal.Frame
import proofs.«131299_j43250320671200_2_alg».proof.Proof.Gen.ReferenceIdeal
import proofs.«131299_j43250320671200_2_alg».proof.Proof.Gen.Pre_finite_inputs
import proofs.«131299_j43250320671200_2_alg».proof.Proof.KerRun
import proofs.«131299_j43250320671200_2_alg».proof.Proof.RefValueRun
import proofs.«131299_j43250320671200_2_alg».proof.Proof.LossAlgebra
import proofs.«131299_j43250320671200_2_alg».proof.Proof.Finite
import Idealize.ShloMosaic.Adequacy
import Idealize.ShloMosaic.Init

noncomputable section

namespace Cert.Proof

open Idealize.ShloMosaic Idealize.SL.Sem

/-- The kernel's scale is named: at the ideal instance it denotes the reciprocal of the reference's temperature. -/
theorem preserves : Cert.preserves_Kernel_KernelIdeal :=
  IdealRules.named_const.statement Cert.KernelIdeal.κ "inv_temperature" .f32 0x41649249#32
    ((134217728 / 9395241 : ℝ) : EReal) rfl

/-- Both idealized programs end with the same loss: the kernel's form and the reference's form of it agree on
    real-valued embedding arrays, which the finiteness precondition provides. -/
theorem algebraic [Cert.KernelIdeal.Facts] [Cert.ReferenceIdeal.Facts] [Cert.Pre_finite_inputs.Facts] :
    Cert.algebraic_KernelIdeal_ReferenceIdeal := by
  intro m ρ m' ρ' hpre hagree
  refine ⟨fun c => fun _ => Cert.Spec.kernelLoss (Cert.KernelIdeal.KerValue.argA m c) (Cert.KernelIdeal.KerValue.argB m c)
    (Cert.KernelIdeal.KerValue.argL m c), Cert.KernelIdeal.KerValue.run m ρ, ?_⟩
  refine (θ_run Cert.ReferenceIdeal.defs _ _).mono (fun _ h c => ⟨(h c).1.trans ?_, (h c).2⟩)
    (Cert.ReferenceIdeal.RefValue.run_value m' ρ')
  obtain ⟨ha, hb⟩ := Cert.Finite.allReal_of_pre _ _ _ (hpre c)
  rw [(hagree c).1, (hagree c).2.1, (hagree c).2.2]
  exact funext fun _ => (Cert.Spec.kernelLoss_eq_referenceLoss _ _ _ ha hb).symm

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  Cert.ReferenceIdeal.RefValue.frame_ri,
  preserves,
  algebraic⟩

end Cert.Proof

end
